-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100x64 : Shape := ⟨2, ![100, 64]⟩
abbrev S8x16 : Shape := ⟨2, ![8, 16]⟩
abbrev S16x32 : Shape := ⟨2, ![16, 32]⟩
abbrev S480x240 : Shape := ⟨2, ![480, 240]⟩
abbrev S240 : Shape := ⟨1, ![240]⟩
abbrev S240x4 : Shape := ⟨2, ![240, 4]⟩
abbrev S4 : Shape := ⟨1, ![4]⟩
abbrev S200000 : Shape := ⟨1, ![200000]⟩
abbrev S50000 : Shape := ⟨1, ![50000]⟩
abbrev S400000 : Shape := ⟨1, ![400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S8x16 : S_.BroadcastsInDim S8x16 (![] : Fin 0 → Fin S8x16.rank)
  reducesTo_S8x16_S_d0_1 : S8x16.ReducesTo [0, 1] S_
  bcast_S_S16x32 : S_.BroadcastsInDim S16x32 (![] : Fin 0 → Fin S16x32.rank)
  reducesTo_S16x32_S_d0_1 : S16x32.ReducesTo [0, 1] S_
  bcast_S_S480x240 : S_.BroadcastsInDim S480x240 (![] : Fin 0 → Fin S480x240.rank)
  reducesTo_S480x240_S_d0_1 : S480x240.ReducesTo [0, 1] S_
  bcast_S_S240 : S_.BroadcastsInDim S240 (![] : Fin 0 → Fin S240.rank)
  reducesTo_S240_S_d0 : S240.ReducesTo [0] S_
  bcast_S_S240x4 : S_.BroadcastsInDim S240x4 (![] : Fin 0 → Fin S240x4.rank)
  reducesTo_S240x4_S_d0_1 : S240x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg4 : FVec F S480x240 .f32) (main_arg5 : FVec F S240 .f32) (main_arg6 : FVec F S240x4 .f32) (main_arg7 : FVec F S4 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S480x240 .f32 := Host.absf main_arg4
  let main_cst_6 : FVec F S_ .f32 := constant S_ .f32 0x7F800000#32
  let main_v20 : FVec F S480x240 .f32 := broadcastInDim S480x240 ![] bcast_S_S480x240 main_cst_6
  let main_v21 : IVec S480x240 1 := cmpf .olt main_v19 main_v20
  let main_c_7 : IVec S_ 1 := constantI S_ 1 1#1
  let main_v22 : IVec S_ 1 := (fun x v => Host.reduce IntOp.andi x v reducesTo_S480x240_S_d0_1 h_S_) main_v21 main_c_7
  let main_v23 : IVec S_ 1 := andi main_v18 main_v22
  let main_v24 : FVec F S240 .f32 := Host.absf main_arg5
  let main_cst_8 : FVec F S_ .f32 := constant S_ .f32 0x7F800000#32
  let main_v25 : FVec F S240 .f32 := broadcastInDim S240 ![] bcast_S_S240 main_cst_8
  let main_v26 : IVec S240 1 := cmpf .olt main_v24 main_v25
  let main_c_9 : IVec S_ 1 := constantI S_ 1 1#1
  let main_v27 : IVec S_ 1 := (fun x v => Host.reduce IntOp.andi x v reducesTo_S240_S_d0 h_S_) main_v26 main_c_9
  let main_v28 : IVec S_ 1 := andi main_v23 main_v27
  let main_v29 : FVec F S240x4 .f32 := Host.absf main_arg6
  let main_cst_10 : FVec F S_ .f32 := constant S_ .f32 0x7F800000#32
  let main_v30 : FVec F S240x4 .f32 := broadcastInDim S240x4 ![] bcast_S_S240x4 main_cst_10
  let main_v31 : IVec S240x4 1 := cmpf .olt main_v29 main_v30
  let main_c_11 : IVec S_ 1 := constantI S_ 1 1#1
  let main_v32 : IVec S_ 1 := (fun x v => Host.reduce IntOp.andi x v reducesTo_S240x4_S_d0_1 h_S_) main_v31 main_c_11
  let main_v33 : IVec S_ 1 := andi main_v28 main_v32
  fn_part2 (F := F) main_arg7 main_v33

def fn {F : FTy → Type} [FloatOps F] (main_arg0 : FVec F S50000x256 .f32) (main_arg1 : FVec F S100x64 .f32) (main_arg2 : FVec F S8x16 .f32) (main_arg3 : FVec F S16x32 .f32) (main_arg4 : FVec F S480x240 .f32) (main_arg5 : FVec F S240 .f32) (main_arg6 : FVec F S240x4 .f32) (main_arg7 : FVec F S4 .f32) (main_arg8 : IVec S200000 32) (main_arg9 : IVec S200000 32) (main_arg10 : IVec S50000 32) (main_arg11 : IVec S50000 32) (main_arg12 : IVec S400000 32) (main_arg13 : IVec S400000 32) (main_arg14 : IVec S400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S8x16 .f32 := Host.absf main_arg2
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_arg7 main_v13 main_v16
-- ==== Kernel.lean ====
abbrev S50000x256 : Shape := ⟨2, ![50000, 256]⟩
abbrev S100x64 : Shape := ⟨2, ![100, 64]⟩
abbrev S8x16 : Shape := ⟨2, ![8, 16]⟩
abbrev S16x32 : Shape := ⟨2, ![16, 32]⟩
abbrev S480x240 : Shape := ⟨2, ![480, 240]⟩
abbrev S240 : Shape := ⟨1, ![240]⟩
abbrev S240x4 : Shape := ⟨2, ![240, 4]⟩
abbrev S4 : Shape := ⟨1, ![4]⟩
abbrev S200000 : Shape := ⟨1, ![200000]⟩
abbrev S50000 : Shape := ⟨1, ![50000]⟩
abbrev S400000 : Shape := ⟨1, ![400000]⟩
abbrev S_ : Shape := ⟨0, ![]⟩
abbrev S1 : Shape := ⟨1, ![1]⟩
abbrev S49999 : Shape := ⟨1, ![49999]⟩
abbrev S50000x1 : Shape := ⟨2, ![50000, 1]⟩
abbrev S200000x1 : Shape := ⟨2, ![200000, 1]⟩
abbrev S1x1 : Shape := ⟨2, ![1, 1]⟩
abbrev S200000x64 : Shape := ⟨2, ![200000, 64]⟩
abbrev S200000x16 : Shape := ⟨2, ![200000, 16]⟩
abbrev S200000x32 : Shape := ⟨2, ![200000, 32]⟩
abbrev S200000x112 : Shape := ⟨2, ![200000, 112]⟩
abbrev S400000x1 : Shape := ⟨2, ![400000, 1]⟩
abbrev S400000x256 : Shape := ⟨2, ![400000, 256]⟩
abbrev S400000x112 : Shape := ⟨2, ![400000, 112]⟩
abbrev S400000x480 : Shape := ⟨2, ![400000, 480]⟩
abbrev S400000x4 : Shape := ⟨2, ![400000, 4]⟩
abbrev S5000x480 : Shape := ⟨2, ![5000, 480]⟩
abbrev S5000x4 : Shape := ⟨2, ![5000, 4]⟩
abbrev S5000x240 : Shape := ⟨2, ![5000, 240]⟩
abbrev S1x240 : Shape := ⟨2, ![1, 240]⟩
abbrev S1x4 : Shape := ⟨2, ![1, 4]⟩

abbrev nBuf : Space → Nat
  | .hbm => 201
  | .vmem => 8
  | .smem => 0
  | _ => 0

abbrev hbmTy0_0 (i : Nat) : BufTy := match i % 128 with
  | 0 => ⟨S50000x256, .f32⟩
  | 1 => ⟨S100x64, .f32⟩
  | 2 => ⟨S8x16, .f32⟩
  | 3 => ⟨S16x32, .f32⟩
  | 4 => ⟨S480x240, .f32⟩
  | 5 => ⟨S240, .f32⟩
  | 6 => ⟨S240x4, .f32⟩
  | 7 => ⟨S4, .f32⟩
  | 8 => ⟨S200000, .i32⟩
  | 9 => ⟨S200000, .i32⟩
  | 10 => ⟨S50000, .i32⟩
  | 11 => ⟨S50000, .i32⟩
  | 12 => ⟨S400000, .i32⟩
  | 13 => ⟨S400000, .i32⟩
  | 14 => ⟨S400000, .i32⟩
  | 15 => ⟨S_, .i32⟩
  | 16 => ⟨S_, .i32⟩
  | 17 => ⟨S50000, .i32⟩
  | 18 => ⟨S50000, .i32⟩
  | 19 => ⟨S50000, .i32⟩
  | 20 => ⟨S1, .i32⟩
  | 21 => ⟨S49999, .i32⟩
  | 22 => ⟨S50000, .i32⟩
  | 23 => ⟨S_, .i32⟩
  | 24 => ⟨S1, .i32⟩
  | 25 => ⟨S_, .i32⟩
  | 26 => ⟨S50000, .i32⟩
  | 27 => ⟨S_, .i32⟩
  | 28 => ⟨S_, .i32⟩
  | 29 => ⟨S50000, .i32⟩
  | 30 => ⟨S_, .i32⟩
  | 31 => ⟨S200000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S_, .i32⟩
  | 41 => ⟨S50000, .i32⟩
  | 42 => ⟨S200000, .i32⟩
  | 43 => ⟨S_, .i32⟩
  | 44 => ⟨S_, .i32⟩
  | 45 => ⟨S200000, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S1, .i32⟩
  | 58 => ⟨S_, .i32⟩
  | 59 => ⟨S200000x1, .i32⟩
  | 60 => ⟨S200000x1, .i1⟩
  | 61 => ⟨S1x1, .i32⟩
  | 62 => ⟨S200000x1, .i32⟩
  | 63 => ⟨S200000x1, .i1⟩
  | 64 => ⟨S200000x1, .i1⟩
  | 65 => ⟨S_, .i1⟩
  | 66 => ⟨S200000, .i1⟩
  | 67 => ⟨S200000, .i32⟩
  | 68 => ⟨S_, .i32⟩
  | 69 => ⟨S200000, .i32⟩
  | 70 => ⟨S200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000, .i32⟩
  | 81 => ⟨S200000, .i32⟩
  | 82 => ⟨S_, .i32⟩
  | 83 => ⟨S200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x64, .f32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x16, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000x32, .f32⟩
  | 112 => ⟨S200000x112, .f32⟩
  | 113 => ⟨S1, .i32⟩
  | 114 => ⟨S49999, .i32⟩
  | 115 => ⟨S50000, .i32⟩
  | 116 => ⟨S_, .i32⟩
  | 117 => ⟨S1, .i32⟩
  | 118 => ⟨S_, .i32⟩
  | 119 => ⟨S50000, .i32⟩
  | 120 => ⟨S_, .i32⟩
  | 121 => ⟨S_, .i32⟩
  | 122 => ⟨S50000, .i32⟩
  | 123 => ⟨S_, .i32⟩
  | 124 => ⟨S400000, .i32⟩
  | 125 => ⟨S_, .i32⟩
  | 126 => ⟨S50000, .i32⟩
  | 127 => ⟨S50000, .i1⟩
  | _ => ⟨S50000x256, .f32⟩

abbrev hbmTy0_1 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S_, .i32⟩
  | 6 => ⟨S50000, .i32⟩
  | 7 => ⟨S400000, .i32⟩
  | 8 => ⟨S_, .i32⟩
  | 9 => ⟨S_, .i32⟩
  | 10 => ⟨S400000, .i32⟩
  | 11 => ⟨S_, .i32⟩
  | 12 => ⟨S400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S1, .i32⟩
  | 23 => ⟨S_, .i32⟩
  | 24 => ⟨S400000x1, .i32⟩
  | 25 => ⟨S400000x1, .i1⟩
  | 26 => ⟨S1x1, .i32⟩
  | 27 => ⟨S400000x1, .i32⟩
  | 28 => ⟨S400000x1, .i1⟩
  | 29 => ⟨S400000x1, .i1⟩
  | 30 => ⟨S_, .i1⟩
  | 31 => ⟨S400000, .i1⟩
  | 32 => ⟨S400000x256, .f32⟩
  | 33 => ⟨S400000x256, .i1⟩
  | 34 => ⟨S_, .f32⟩
  | 35 => ⟨S400000x256, .f32⟩
  | 36 => ⟨S400000x256, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x112, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x112, .f32⟩
  | 55 => ⟨S400000x480, .f32⟩
  | 56 => ⟨S400000x480, .bf16⟩
  | 57 => ⟨S480x240, .bf16⟩
  | 58 => ⟨S240x4, .bf16⟩
  | 59 => ⟨S400000x4, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x4, .f32⟩
  | 69 => ⟨S400000x4, .f32⟩
  | 70 => ⟨S_, .f32⟩
  | 71 => ⟨S400000x4, .f32⟩
  | 72 => ⟨S400000x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x480, .bf16⟩
  | .local _ .vmem, ⟨1, _⟩ => ⟨S5000x480, .bf16⟩
  | .local _ .vmem, ⟨2, _⟩ => ⟨S480x240, .bf16⟩
  | .local _ .vmem, ⟨3, _⟩ => ⟨S240, .f32⟩
  | .local _ .vmem, ⟨4, _⟩ => ⟨S240x4, .bf16⟩
  | .local _ .vmem, ⟨5, _⟩ => ⟨S4, .f32⟩
  | .local _ .vmem, ⟨6, _⟩ => ⟨S5000x4, .f32⟩
  | .local _ .vmem, ⟨7, _⟩ => ⟨S5000x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_c : Ref sig .tc := ⟨.hbm, 15, rfl⟩
abbrev main_call0_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_v1 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_call2_call0_c : Ref sig .tc := ⟨.hbm, 27, rfl⟩
abbrev main_call2_call0_v0 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_4 : Ref sig .tc := ⟨.hbm, 40, rfl⟩
abbrev main_v14 : Ref sig .tc := ⟨.hbm, 41, rfl⟩
abbrev main_v15 : Ref sig .tc := ⟨.hbm, 42, rfl⟩
abbrev main_call3_call0_c : Ref sig .tc := ⟨.hbm, 43, rfl⟩
abbrev main_call3_call0_v0 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_c_1 : Ref sig .tc := ⟨.hbm, 57, rfl⟩
abbrev main_call4_c_2 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_3 : Ref sig .tc := ⟨.hbm, 65, rfl⟩
abbrev main_call4_v12 : Ref sig .tc := ⟨.hbm, 66, rfl⟩
abbrev main_call4_v13 : Ref sig .tc := ⟨.hbm, 67, rfl⟩
abbrev main_call4_c_4 : Ref sig .tc := ⟨.hbm, 68, rfl⟩
abbrev main_call4_v14 : Ref sig .tc := ⟨.hbm, 69, rfl⟩
abbrev main_v19 : Ref sig .tc := ⟨.hbm, 70, rfl⟩
abbrev main_v20 : Ref sig .tc := ⟨.hbm, 71, rfl⟩
abbrev main_c_6 : Ref sig .tc := ⟨.hbm, 72, rfl⟩
abbrev main_v21 : Ref sig .tc := ⟨.hbm, 73, rfl⟩
abbrev main_v22 : Ref sig .tc := ⟨.hbm, 74, rfl⟩
abbrev main_c_7 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_c_8 : Ref sig .tc := ⟨.hbm, 82, rfl⟩
abbrev main_v29 : Ref sig .tc := ⟨.hbm, 83, rfl⟩
abbrev main_v30 : Ref sig .tc := ⟨.hbm, 84, rfl⟩
abbrev main_c_9 : Ref sig .tc := ⟨.hbm, 85, rfl⟩
abbrev main_v31 : Ref sig .tc := ⟨.hbm, 86, rfl⟩
abbrev main_v32 : Ref sig .tc := ⟨.hbm, 87, rfl⟩
abbrev main_c_10 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_11 : Ref sig .tc := ⟨.hbm, 94, rfl⟩
abbrev main_v38 : Ref sig .tc := ⟨.hbm, 95, rfl⟩
abbrev main_v39 : Ref sig .tc := ⟨.hbm, 96, rfl⟩
abbrev main_c_12 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_13 : Ref sig .tc := ⟨.hbm, 103, rfl⟩
abbrev main_v45 : Ref sig .tc := ⟨.hbm, 104, rfl⟩
abbrev main_v46 : Ref sig .tc := ⟨.hbm, 105, rfl⟩
abbrev main_c_14 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_call5_v0 : Ref sig .tc := ⟨.hbm, 113, rfl⟩
abbrev main_call5_v1 : Ref sig .tc := ⟨.hbm, 114, rfl⟩
abbrev main_v53 : Ref sig .tc := ⟨.hbm, 115, rfl⟩
abbrev main_c_15 : Ref sig .tc := ⟨.hbm, 116, rfl⟩
abbrev main_v54 : Ref sig .tc := ⟨.hbm, 117, rfl⟩
abbrev main_c_16 : Ref sig .tc := ⟨.hbm, 118, rfl⟩
abbrev main_v55 : Ref sig .tc := ⟨.hbm, 119, rfl⟩
abbrev main_call6_call0_c : Ref sig .tc := ⟨.hbm, 120, rfl⟩
abbrev main_call6_call0_v0 : Ref sig .tc := ⟨.hbm, 121, rfl⟩
abbrev main_v56 : Ref sig .tc := ⟨.hbm, 122, rfl⟩
abbrev main_c_17 : Ref sig .tc := ⟨.hbm, 123, rfl⟩
abbrev main_v57 : Ref sig .tc := ⟨.hbm, 124, rfl⟩
abbrev main_c_18 : Ref sig .tc := ⟨.hbm, 125, rfl⟩
abbrev main_v58 : Ref sig .tc := ⟨.hbm, 126, rfl⟩
abbrev main_v59 : Ref sig .tc := ⟨.hbm, 127, rfl⟩
abbrev main_c_19 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_c_20 : Ref sig .tc := ⟨.hbm, 133, rfl⟩
abbrev main_v64 : Ref sig .tc := ⟨.hbm, 134, rfl⟩
abbrev main_v65 : Ref sig .tc := ⟨.hbm, 135, rfl⟩
abbrev main_call7_call0_c : Ref sig .tc := ⟨.hbm, 136, rfl⟩
abbrev main_call7_call0_v0 : Ref sig .tc := ⟨.hbm, 137, rfl⟩
abbrev main_v66 : Ref sig .tc := ⟨.hbm, 138, rfl⟩
abbrev main_c_21 : Ref sig .tc := ⟨.hbm, 139, rfl⟩
abbrev main_v67 : Ref sig .tc := ⟨.hbm, 140, rfl⟩
abbrev main_v68 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_call8_cst : Ref sig .tc := ⟨.hbm, 162, rfl⟩
abbrev main_call8_v15 : Ref sig .tc := ⟨.hbm, 163, rfl⟩
abbrev main_v69 : Ref sig .tc := ⟨.hbm, 164, rfl⟩
abbrev main_c_22 : Ref sig .tc := ⟨.hbm, 165, rfl⟩
abbrev main_v70 : Ref sig .tc := ⟨.hbm, 166, rfl⟩
abbrev main_v71 : Ref sig .tc := ⟨.hbm, 167, rfl⟩
abbrev main_c_23 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_c_24 : Ref sig .tc := ⟨.hbm, 174, rfl⟩
abbrev main_v77 : Ref sig .tc := ⟨.hbm, 175, rfl⟩
abbrev main_v78 : Ref sig .tc := ⟨.hbm, 176, rfl⟩
abbrev main_c_25 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_c_26 : Ref sig .tc := ⟨.hbm, 188, rfl⟩
abbrev main_v89 : Ref sig .tc := ⟨.hbm, 189, rfl⟩
abbrev main_v90 : Ref sig .tc := ⟨.hbm, 190, rfl⟩
abbrev main_c_27 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_cst : Ref sig .tc := ⟨.hbm, 198, rfl⟩
abbrev main_v97 : Ref sig .tc := ⟨.hbm, 199, rfl⟩
abbrev main_v98 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S240x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  slices_S50000_S1_49999 : S50000.Slices ![49999] S1
  slices_S50000_S49999_0 : S50000.Slices ![0] S49999
  concatenates_S1_S49999_S50000_d0 : Shape.Concatenates [S1, S49999] S50000 0
  bcast_S_S1 : S_.BroadcastsInDim S1 (![] : Fin 0 → Fin S1.rank)
  bcast_S_S200000 : S_.BroadcastsInDim S200000 (![] : Fin 0 → Fin S200000.rank)
  bcast_S_S50000 : S_.BroadcastsInDim S50000 (![] : Fin 0 → Fin S50000.rank)
  bcast_S50000_S50000x1_0 : S50000.BroadcastsInDim S50000x1 (![0] : Fin 1 → Fin S50000x1.rank)
  reduceWindows_S200000_S200000_w200000s1p199999_0 : S200000.ReduceWindows (![200000] : Fin 1 → Nat) ![1] ![199999] ![0] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  concatenates_S200000x64_S200000x16_S200000x32_S200000x112_d1 : Shape.Concatenates [S200000x64, S200000x16, S200000x32] S200000x112 1
  bcast_S_S400000 : S_.BroadcastsInDim S400000 (![] : Fin 0 → Fin S400000.rank)
  reduceWindows_S400000_S400000_w400000s1p399999_0 : S400000.ReduceWindows (![400000] : Fin 1 → Nat) ![1] ![399999] ![0] S400000
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x256_0 : S400000.BroadcastsInDim S400000x256 (![0] : Fin 1 → Fin S400000x256.rank)
  bcast_S_S400000x256 : S_.BroadcastsInDim S400000x256 (![] : Fin 0 → Fin S400000x256.rank)
  concatenates_S400000x112_S400000x112_S400000x256_S400000x480_d1 : Shape.Concatenates [S400000x112, S400000x112, S400000x256] S400000x480 1
  bitsLt_bf16_f32 : FTy.bits .bf16 < FTy.bits .f32
  inb_S5000x480_S5000x480_0_0 : ∀ a, (![0, 0] : Fin 2 → Nat) a + S5000x480.size a ≤ S5000x480.size a
  h_S5000x480 : 0 < S5000x480.numel
  shapeCasts_S5000x480_S5000x480 : S5000x480.ShapeCasts S5000x480
  inb_S480x240_S480x240_0_0 : ∀ a, (![0, 0] : Fin 2 → Nat) a + S480x240.size a ≤ S480x240.size a
  h_S480x240 : 0 < S480x240.numel
  shapeCasts_S480x240_S480x240 : S480x240.ShapeCasts S480x240
  inb_S240_S240_0 : ∀ a, (![0] : Fin 1 → Nat) a + S240.size a ≤ S240.size a
  h_S240 : 0 < S240.numel
  shapeCasts_S240_S1x240 : S240.ShapeCasts S1x240
  broadcasts_S1x240_S5000x240 : S1x240.Broadcasts S5000x240
  inb_S240x4_S240x4_0_0 : ∀ a, (![0, 0] : Fin 2 → Nat) a + S240x4.size a ≤ S240x4.size a
  h_S240x4 : 0 < S240x4.numel
  shapeCasts_S240x4_S240x4 : S240x4.ShapeCasts S240x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  bcast_S_S400000x4 : S_.BroadcastsInDim S400000x4 (![] : Fin 0 → Fin S400000x4.rank)
  scatter_S50000_S1_S__n_0_0_0_wf : ScatterDims.WF S50000 S1 S_ [] [0] [0] 0
  scatter_S200000_S50000x1_S50000_n_0_0_1_wf : ScatterDims.WF S200000 S50000x1 S50000 [] [0] [0] 1
  gather_S50000_S200000x1_S200000_n_0_n_n_0_1_1_wf : GatherDims.WF S50000 S200000x1 S200000 [] [0] [] [0] [] 1 ![1]
  gather_S100x64_S200000x1_S200000x64_1_0_n_n_0_1_164_wf : GatherDims.WF S100x64 S200000x1 S200000x64 [1] [0] [] [0] [] 1 ![1, 64]
  gather_S8x16_S200000x1_S200000x16_1_0_n_n_0_1_116_wf : GatherDims.WF S8x16 S200000x1 S200000x16 [1] [0] [] [0] [] 1 ![1, 16]
  gather_S16x32_S200000x1_S200000x32_1_0_n_n_0_1_132_wf : GatherDims.WF S16x32 S200000x1 S200000x32 [1] [0] [] [0] [] 1 ![1, 32]
  scatter_S400000_S50000x1_S50000_n_0_0_1_wf : ScatterDims.WF S400000 S50000x1 S50000 [] [0] [0] 1
  gather_S50000x256_S400000x1_S400000x256_1_0_n_n_0_1_1256_wf : GatherDims.WF S50000x256 S400000x1 S400000x256 [1] [0] [] [0] [] 1 ![1, 256]
  gather_S200000x112_S400000x1_S400000x112_1_0_n_n_0_1_1112_wf : GatherDims.WF S200000x112 S400000x1 S400000x112 [1] [0] [] [0] [] 1 ![1, 112]
  dot_S5000x480_S480x240_S5000x240_1_0_0_1_n_n_wf : DotDims.WF S5000x480 S480x240 S5000x240 [1] [0] [0] [1] [] []
  dot_S5000x240_S240x4_S5000x4_1_0_0_1_n_n_wf : DotDims.WF S5000x240 S240x4 S5000x4 [1] [0] [0] [1] [] []
  gather_S400000x4_S400000x1_S400000x4_1_0_n_n_0_1_14_wf : GatherDims.WF S400000x4 S400000x1 S400000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x480.size a ≤ S400000x480.size a
  hwx0_0 : ∀ i : grid0.Coords, EltTy.bits .bf16 = 32 ∨ (Rect.block (s := S400000x480) S5000x480.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x240.size a ≤ S480x240.size a
  hwx0_1 : ∀ i : grid0.Coords, EltTy.bits .bf16 = 32 ∨ (Rect.block (s := S480x240) S480x240.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S240.size a ≤ S240.size a
  hwx0_2 : ∀ i : grid0.Coords, EltTy.bits .f32 = 32 ∨ (Rect.block (s := S240) S240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S240x4.size a ≤ S240x4.size a
  hwx0_3 : ∀ i : grid0.Coords, EltTy.bits .bf16 = 32 ∨ (Rect.block (s := S240x4) S240x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x4.size a ≤ S400000x4.size a
  hwx0_5 : ∀ i : grid0.Coords, EltTy.bits .f32 = 32 ∨ (Rect.block (s := S400000x4) S5000x4.size (cc0_transform_5 i) (hinb0_5 i)).WholeWords (EltTy.packing .f32)

variable [Facts₀]

def scatter_S50000_S1_S__n_0_0_0 : ScatterDims S50000 S1 S_ where
  updateWindowDims := []
  insertedWindowDims := [0]
  scatterDimsToOperandDims := [0]
  indexVectorDim := 0
  wf := scatter_S50000_S1_S__n_0_0_0_wf
def scatter_S200000_S50000x1_S50000_n_0_0_1 : ScatterDims S200000 S50000x1 S50000 where
  updateWindowDims := []
  insertedWindowDims := [0]
  scatterDimsToOperandDims := [0]
  indexVectorDim := 1
  wf := scatter_S200000_S50000x1_S50000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def gather_S100x64_S200000x1_S200000x64_1_0_n_n_0_1_164 : GatherDims S100x64 S200000x1 S200000x64 where
  offsetDims := [1]
  collapsedSliceDims := [0]
  operandBatchingDims := []
  startIndicesBatchingDims := []
  startIndexMap := [0]
  indexVectorDim := 1
  sliceSizes := ![1, 64]
  wf := gather_S100x64_S200000x1_S200000x64_1_0_n_n_0_1_164_wf
def gather_S8x16_S200000x1_S200000x16_1_0_n_n_0_1_116 : GatherDims S8x16 S200000x1 S200000x16 where
  offsetDims := [1]
  collapsedSliceDims := [0]
  operandBatchingDims := []
  startIndicesBatchingDims := []
  startIndexMap := [0]
  indexVectorDim := 1
  sliceSizes := ![1, 16]
  wf := gather_S8x16_S200000x1_S200000x16_1_0_n_n_0_1_116_wf
def gather_S16x32_S200000x1_S200000x32_1_0_n_n_0_1_132 : GatherDims S16x32 S200000x1 S200000x32 where
  offsetDims := [1]
  collapsedSliceDims := [0]
  operandBatchingDims := []
  startIndicesBatchingDims := []
  startIndexMap := [0]
  indexVectorDim := 1
  sliceSizes := ![1, 32]
  wf := gather_S16x32_S200000x1_S200000x32_1_0_n_n_0_1_132_wf
def scatter_S400000_S50000x1_S50000_n_0_0_1 : ScatterDims S400000 S50000x1 S50000 where
  updateWindowDims := []
  insertedWindowDims := [0]
  scatterDimsToOperandDims := [0]
  indexVectorDim := 1
  wf := scatter_S400000_S50000x1_S50000_n_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def gather_S200000x112_S400000x1_S400000x112_1_0_n_n_0_1_1112 : GatherDims S200000x112 S400000x1 S400000x112 where
  offsetDims := [1]
  collapsedSliceDims := [0]
  operandBatchingDims := []
  startIndicesBatchingDims := []
  startIndexMap := [0]
  indexVectorDim := 1
  sliceSizes := ![1, 112]
  wf := gather_S200000x112_S400000x1_S400000x112_1_0_n_n_0_1_1112_wf
def dot_S5000x480_S480x240_S5000x240_1_0_0_1_n_n : DotDims S5000x480 S480x240 S5000x240 where
  lhsContracting := [1]
  rhsContracting := [0]
  lhsNonContracting := [0]
  rhsNonContracting := [1]
  lhsBatch := []
  rhsBatch := []
  wf := dot_S5000x480_S480x240_S5000x240_1_0_0_1_n_n_wf
def dot_S5000x240_S240x4_S5000x4_1_0_0_1_n_n : DotDims S5000x240 S240x4 S5000x4 where
  lhsContracting := [1]
  rhsContracting := [0]
  lhsNonContracting := [0]
  rhsNonContracting := [1]
  lhsBatch := []
  rhsBatch := []
  wf := dot_S5000x240_S240x4_S5000x4_1_0_0_1_n_n_wf
def gather_S400000x4_S400000x1_S400000x4_1_0_n_n_0_1_14 : GatherDims S400000x4 S400000x1 S400000x4 where
  offsetDims := [1]
  collapsedSliceDims := [0]
  operandBatchingDims := []
  startIndicesBatchingDims := []
  startIndexMap := [0]
  indexVectorDim := 1
  sliceSizes := ![1, 4]
  wf := gather_S400000x4_S400000x1_S400000x4_1_0_n_n_0_1_14_wf

abbrev win0_0 : Pipeline.Window sig grid0 :=
  Pipeline.Window.ofSpec (Memref.whole main_v85) S5000x480.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S480x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87) S240x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v88) S5000x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S100x64 : Shape := ⟨2, ![100, 64]⟩
abbrev S8x16 : Shape := ⟨2, ![8, 16]⟩
abbrev S16x32 : Shape := ⟨2, ![16, 32]⟩
abbrev S480x240 : Shape := ⟨2, ![480, 240]⟩
abbrev S240 : Shape := ⟨1, ![240]⟩
abbrev S240x4 : Shape := ⟨2, ![240, 4]⟩
abbrev S4 : Shape := ⟨1, ![4]⟩
abbrev S200000 : Shape := ⟨1, ![200000]⟩
abbrev S50000 : Shape := ⟨1, ![50000]⟩
abbrev S400000 : Shape := ⟨1, ![400000]⟩
abbrev S_ : Shape := ⟨0, ![]⟩
abbrev S1 : Shape := ⟨1, ![1]⟩
abbrev S49999 : Shape := ⟨1, ![49999]⟩
abbrev S50000x1 : Shape := ⟨2, ![50000, 1]⟩
abbrev S200000x1 : Shape := ⟨2, ![200000, 1]⟩
abbrev S1x1 : Shape := ⟨2, ![1, 1]⟩
abbrev S200000x64 : Shape := ⟨2, ![200000, 64]⟩
abbrev S200000x16 : Shape := ⟨2, ![200000, 16]⟩
abbrev S200000x32 : Shape := ⟨2, ![200000, 32]⟩
abbrev S200000x112 : Shape := ⟨2, ![200000, 112]⟩
abbrev S400000x1 : Shape := ⟨2, ![400000, 1]⟩
abbrev S400000x256 : Shape := ⟨2, ![400000, 256]⟩
abbrev S400000x112 : Shape := ⟨2, ![400000, 112]⟩
abbrev S400000x480 : Shape := ⟨2, ![400000, 480]⟩
abbrev S400000x240 : Shape := ⟨2, ![400000, 240]⟩
abbrev S1x240 : Shape := ⟨2, ![1, 240]⟩
abbrev S400000x4 : Shape := ⟨2, ![400000, 4]⟩
abbrev S1x4 : Shape := ⟨2, ![1, 4]⟩

abbrev nBuf : Space → Nat
  | .hbm => 208
  | .vmem => 0
  | .smem => 0
  | _ => 0

abbrev hbmTy0_0 (i : Nat) : BufTy := match i % 128 with
  | 0 => ⟨S50000x256, .f32⟩
  | 1 => ⟨S100x64, .f32⟩
  | 2 => ⟨S8x16, .f32⟩
  | 3 => ⟨S16x32, .f32⟩
  | 4 => ⟨S480x240, .f32⟩
  | 5 => ⟨S240, .f32⟩
  | 6 => ⟨S240x4, .f32⟩
  | 7 => ⟨S4, .f32⟩
  | 8 => ⟨S200000, .i32⟩
  | 9 => ⟨S200000, .i32⟩
  | 10 => ⟨S50000, .i32⟩
  | 11 => ⟨S50000, .i32⟩
  | 12 => ⟨S400000, .i32⟩
  | 13 => ⟨S400000, .i32⟩
  | 14 => ⟨S400000, .i32⟩
  | 15 => ⟨S_, .i32⟩
  | 16 => ⟨S_, .i32⟩
  | 17 => ⟨S50000, .i32⟩
  | 18 => ⟨S50000, .i32⟩
  | 19 => ⟨S50000, .i32⟩
  | 20 => ⟨S1, .i32⟩
  | 21 => ⟨S49999, .i32⟩
  | 22 => ⟨S50000, .i32⟩
  | 23 => ⟨S_, .i32⟩
  | 24 => ⟨S1, .i32⟩
  | 25 => ⟨S_, .i32⟩
  | 26 => ⟨S50000, .i32⟩
  | 27 => ⟨S_, .i32⟩
  | 28 => ⟨S_, .i32⟩
  | 29 => ⟨S50000, .i32⟩
  | 30 => ⟨S_, .i32⟩
  | 31 => ⟨S200000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S_, .i32⟩
  | 41 => ⟨S50000, .i32⟩
  | 42 => ⟨S200000, .i32⟩
  | 43 => ⟨S_, .i32⟩
  | 44 => ⟨S_, .i32⟩
  | 45 => ⟨S200000, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S1, .i32⟩
  | 58 => ⟨S_, .i32⟩
  | 59 => ⟨S200000x1, .i32⟩
  | 60 => ⟨S200000x1, .i1⟩
  | 61 => ⟨S1x1, .i32⟩
  | 62 => ⟨S200000x1, .i32⟩
  | 63 => ⟨S200000x1, .i1⟩
  | 64 => ⟨S200000x1, .i1⟩
  | 65 => ⟨S_, .i1⟩
  | 66 => ⟨S200000, .i1⟩
  | 67 => ⟨S200000, .i32⟩
  | 68 => ⟨S_, .i32⟩
  | 69 => ⟨S200000, .i32⟩
  | 70 => ⟨S200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000, .i32⟩
  | 81 => ⟨S200000, .i32⟩
  | 82 => ⟨S_, .i32⟩
  | 83 => ⟨S200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x64, .f32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x16, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000x32, .f32⟩
  | 112 => ⟨S200000x112, .f32⟩
  | 113 => ⟨S1, .i32⟩
  | 114 => ⟨S49999, .i32⟩
  | 115 => ⟨S50000, .i32⟩
  | 116 => ⟨S_, .i32⟩
  | 117 => ⟨S1, .i32⟩
  | 118 => ⟨S_, .i32⟩
  | 119 => ⟨S50000, .i32⟩
  | 120 => ⟨S_, .i32⟩
  | 121 => ⟨S_, .i32⟩
  | 122 => ⟨S50000, .i32⟩
  | 123 => ⟨S_, .i32⟩
  | 124 => ⟨S400000, .i32⟩
  | 125 => ⟨S_, .i32⟩
  | 126 => ⟨S50000, .i32⟩
  | 127 => ⟨S50000, .i1⟩
  | _ => ⟨S50000x256, .f32⟩

abbrev hbmTy0_1 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S_, .i32⟩
  | 6 => ⟨S50000, .i32⟩
  | 7 => ⟨S400000, .i32⟩
  | 8 => ⟨S_, .i32⟩
  | 9 => ⟨S_, .i32⟩
  | 10 => ⟨S400000, .i32⟩
  | 11 => ⟨S_, .i32⟩
  | 12 => ⟨S400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S1, .i32⟩
  | 23 => ⟨S_, .i32⟩
  | 24 => ⟨S400000x1, .i32⟩
  | 25 => ⟨S400000x1, .i1⟩
  | 26 => ⟨S1x1, .i32⟩
  | 27 => ⟨S400000x1, .i32⟩
  | 28 => ⟨S400000x1, .i1⟩
  | 29 => ⟨S400000x1, .i1⟩
  | 30 => ⟨S_, .i1⟩
  | 31 => ⟨S400000, .i1⟩
  | 32 => ⟨S400000x256, .f32⟩
  | 33 => ⟨S400000x256, .i1⟩
  | 34 => ⟨S_, .f32⟩
  | 35 => ⟨S400000x256, .f32⟩
  | 36 => ⟨S400000x256, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x112, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x112, .f32⟩
  | 55 => ⟨S400000x480, .f32⟩
  | 56 => ⟨S400000x240, .f32⟩
  | 57 => ⟨S1x240, .f32⟩
  | 58 => ⟨S400000x240, .f32⟩
  | 59 => ⟨S400000x240, .f32⟩
  | 60 => ⟨S_, .f32⟩
  | 61 => ⟨S400000x240, .f32⟩
  | 62 => ⟨S400000x240, .f32⟩
  | 63 => ⟨S400000x4, .f32⟩
  | 64 => ⟨S1x4, .f32⟩
  | 65 => ⟨S400000x4, .f32⟩
  | 66 => ⟨S400000x4, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x4, .f32⟩
  | 76 => ⟨S400000x4, .f32⟩
  | 77 => ⟨S_, .f32⟩
  | 78 => ⟨S400000x4, .f32⟩
  | 79 => ⟨S400000x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_c : Ref sig .tc := ⟨.hbm, 15, rfl⟩
abbrev main_call0_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_v1 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_call2_call0_c : Ref sig .tc := ⟨.hbm, 27, rfl⟩
abbrev main_call2_call0_v0 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_4 : Ref sig .tc := ⟨.hbm, 40, rfl⟩
abbrev main_v14 : Ref sig .tc := ⟨.hbm, 41, rfl⟩
abbrev main_v15 : Ref sig .tc := ⟨.hbm, 42, rfl⟩
abbrev main_call3_call0_c : Ref sig .tc := ⟨.hbm, 43, rfl⟩
abbrev main_call3_call0_v0 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_c_1 : Ref sig .tc := ⟨.hbm, 57, rfl⟩
abbrev main_call4_c_2 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_3 : Ref sig .tc := ⟨.hbm, 65, rfl⟩
abbrev main_call4_v12 : Ref sig .tc := ⟨.hbm, 66, rfl⟩
abbrev main_call4_v13 : Ref sig .tc := ⟨.hbm, 67, rfl⟩
abbrev main_call4_c_4 : Ref sig .tc := ⟨.hbm, 68, rfl⟩
abbrev main_call4_v14 : Ref sig .tc := ⟨.hbm, 69, rfl⟩
abbrev main_v19 : Ref sig .tc := ⟨.hbm, 70, rfl⟩
abbrev main_v20 : Ref sig .tc := ⟨.hbm, 71, rfl⟩
abbrev main_c_6 : Ref sig .tc := ⟨.hbm, 72, rfl⟩
abbrev main_v21 : Ref sig .tc := ⟨.hbm, 73, rfl⟩
abbrev main_v22 : Ref sig .tc := ⟨.hbm, 74, rfl⟩
abbrev main_c_7 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_c_8 : Ref sig .tc := ⟨.hbm, 82, rfl⟩
abbrev main_v29 : Ref sig .tc := ⟨.hbm, 83, rfl⟩
abbrev main_v30 : Ref sig .tc := ⟨.hbm, 84, rfl⟩
abbrev main_c_9 : Ref sig .tc := ⟨.hbm, 85, rfl⟩
abbrev main_v31 : Ref sig .tc := ⟨.hbm, 86, rfl⟩
abbrev main_v32 : Ref sig .tc := ⟨.hbm, 87, rfl⟩
abbrev main_c_10 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_11 : Ref sig .tc := ⟨.hbm, 94, rfl⟩
abbrev main_v38 : Ref sig .tc := ⟨.hbm, 95, rfl⟩
abbrev main_v39 : Ref sig .tc := ⟨.hbm, 96, rfl⟩
abbrev main_c_12 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_13 : Ref sig .tc := ⟨.hbm, 103, rfl⟩
abbrev main_v45 : Ref sig .tc := ⟨.hbm, 104, rfl⟩
abbrev main_v46 : Ref sig .tc := ⟨.hbm, 105, rfl⟩
abbrev main_c_14 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_call5_v0 : Ref sig .tc := ⟨.hbm, 113, rfl⟩
abbrev main_call5_v1 : Ref sig .tc := ⟨.hbm, 114, rfl⟩
abbrev main_v53 : Ref sig .tc := ⟨.hbm, 115, rfl⟩
abbrev main_c_15 : Ref sig .tc := ⟨.hbm, 116, rfl⟩
abbrev main_v54 : Ref sig .tc := ⟨.hbm, 117, rfl⟩
abbrev main_c_16 : Ref sig .tc := ⟨.hbm, 118, rfl⟩
abbrev main_v55 : Ref sig .tc := ⟨.hbm, 119, rfl⟩
abbrev main_call6_call0_c : Ref sig .tc := ⟨.hbm, 120, rfl⟩
abbrev main_call6_call0_v0 : Ref sig .tc := ⟨.hbm, 121, rfl⟩
abbrev main_v56 : Ref sig .tc := ⟨.hbm, 122, rfl⟩
abbrev main_c_17 : Ref sig .tc := ⟨.hbm, 123, rfl⟩
abbrev main_v57 : Ref sig .tc := ⟨.hbm, 124, rfl⟩
abbrev main_c_18 : Ref sig .tc := ⟨.hbm, 125, rfl⟩
abbrev main_v58 : Ref sig .tc := ⟨.hbm, 126, rfl⟩
abbrev main_v59 : Ref sig .tc := ⟨.hbm, 127, rfl⟩
abbrev main_c_19 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_c_20 : Ref sig .tc := ⟨.hbm, 133, rfl⟩
abbrev main_v64 : Ref sig .tc := ⟨.hbm, 134, rfl⟩
abbrev main_v65 : Ref sig .tc := ⟨.hbm, 135, rfl⟩
abbrev main_call7_call0_c : Ref sig .tc := ⟨.hbm, 136, rfl⟩
abbrev main_call7_call0_v0 : Ref sig .tc := ⟨.hbm, 137, rfl⟩
abbrev main_v66 : Ref sig .tc := ⟨.hbm, 138, rfl⟩
abbrev main_c_21 : Ref sig .tc := ⟨.hbm, 139, rfl⟩
abbrev main_v67 : Ref sig .tc := ⟨.hbm, 140, rfl⟩
abbrev main_v68 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_call8_cst : Ref sig .tc := ⟨.hbm, 162, rfl⟩
abbrev main_call8_v15 : Ref sig .tc := ⟨.hbm, 163, rfl⟩
abbrev main_v69 : Ref sig .tc := ⟨.hbm, 164, rfl⟩
abbrev main_c_22 : Ref sig .tc := ⟨.hbm, 165, rfl⟩
abbrev main_v70 : Ref sig .tc := ⟨.hbm, 166, rfl⟩
abbrev main_v71 : Ref sig .tc := ⟨.hbm, 167, rfl⟩
abbrev main_c_23 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_c_24 : Ref sig .tc := ⟨.hbm, 174, rfl⟩
abbrev main_v77 : Ref sig .tc := ⟨.hbm, 175, rfl⟩
abbrev main_v78 : Ref sig .tc := ⟨.hbm, 176, rfl⟩
abbrev main_c_25 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_call9_cst : Ref sig .tc := ⟨.hbm, 188, rfl⟩
abbrev main_call9_v0 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_c_26 : Ref sig .tc := ⟨.hbm, 195, rfl⟩
abbrev main_v94 : Ref sig .tc := ⟨.hbm, 196, rfl⟩
abbrev main_v95 : Ref sig .tc := ⟨.hbm, 197, rfl⟩
abbrev main_c_27 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_cst : Ref sig .tc := ⟨.hbm, 205, rfl⟩
abbrev main_v102 : Ref sig .tc := ⟨.hbm, 206, rfl⟩
abbrev main_v103 : Ref sig .tc := ⟨.hbm, 207, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  slices_S50000_S1_49999 : S50000.Slices ![49999] S1
  slices_S50000_S49999_0 : S50000.Slices ![0] S49999
  concatenates_S1_S49999_S50000_d0 : Shape.Concatenates [S1, S49999] S50000 0
  bcast_S_S1 : S_.BroadcastsInDim S1 (![] : Fin 0 → Fin S1.rank)
  bcast_S_S200000 : S_.BroadcastsInDim S200000 (![] : Fin 0 → Fin S200000.rank)
  bcast_S_S50000 : S_.BroadcastsInDim S50000 (![] : Fin 0 → Fin S50000.rank)
  bcast_S50000_S50000x1_0 : S50000.BroadcastsInDim S50000x1 (![0] : Fin 1 → Fin S50000x1.rank)
  reduceWindows_S200000_S200000_w200000s1p199999_0 : S200000.ReduceWindows (![200000] : Fin 1 → Nat) ![1] ![199999] ![0] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  concatenates_S200000x64_S200000x16_S200000x32_S200000x112_d1 : Shape.Concatenates [S200000x64, S200000x16, S200000x32] S200000x112 1
  bcast_S_S400000 : S_.BroadcastsInDim S400000 (![] : Fin 0 → Fin S400000.rank)
  reduceWindows_S400000_S400000_w400000s1p399999_0 : S400000.ReduceWindows (![400000] : Fin 1 → Nat) ![1] ![399999] ![0] S400000
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x256_0 : S400000.BroadcastsInDim S400000x256 (![0] : Fin 1 → Fin S400000x256.rank)
  bcast_S_S400000x256 : S_.BroadcastsInDim S400000x256 (![] : Fin 0 → Fin S400000x256.rank)
  concatenates_S400000x112_S400000x112_S400000x256_S400000x480_d1 : Shape.Concatenates [S400000x112, S400000x112, S400000x256] S400000x480 1
  bcast_S240_S1x240_1 : S240.BroadcastsInDim S1x240 (![1] : Fin 1 → Fin S1x240.rank)
  bcast_S1x240_S400000x240_0_1 : S1x240.BroadcastsInDim S400000x240 (![0, 1] : Fin 2 → Fin S400000x240.rank)
  bcast_S_S400000x240 : S_.BroadcastsInDim S400000x240 (![] : Fin 0 → Fin S400000x240.rank)
  bcast_S4_S1x4_1 : S4.BroadcastsInDim S1x4 (![1] : Fin 1 → Fin S1x4.rank)
  bcast_S1x4_S400000x4_0_1 : S1x4.BroadcastsInDim S400000x4 (![0, 1] : Fin 2 → Fin S400000x4.rank)
  bcast_S_S400000x4 : S_.BroadcastsInDim S400000x4 (![] : Fin 0 → Fin S400000x4.rank)
  scatter_S50000_S1_S__n_0_0_0_wf : ScatterDims.WF S50000 S1 S_ [] [0] [0] 0
  scatter_S200000_S50000x1_S50000_n_0_0_1_wf : ScatterDims.WF S200000 S50000x1 S50000 [] [0] [0] 1
  gather_S50000_S200000x1_S200000_n_0_n_n_0_1_1_wf : GatherDims.WF S50000 S200000x1 S200000 [] [0] [] [0] [] 1 ![1]
  gather_S100x64_S200000x1_S200000x64_1_0_n_n_0_1_164_wf : GatherDims.WF S100x64 S200000x1 S200000x64 [1] [0] [] [0] [] 1 ![1, 64]
  gather_S8x16_S200000x1_S200000x16_1_0_n_n_0_1_116_wf : GatherDims.WF S8x16 S200000x1 S200000x16 [1] [0] [] [0] [] 1 ![1, 16]
  gather_S16x32_S200000x1_S200000x32_1_0_n_n_0_1_132_wf : GatherDims.WF S16x32 S200000x1 S200000x32 [1] [0] [] [0] [] 1 ![1, 32]
  scatter_S400000_S50000x1_S50000_n_0_0_1_wf : ScatterDims.WF S400000 S50000x1 S50000 [] [0] [0] 1
  gather_S50000x256_S400000x1_S400000x256_1_0_n_n_0_1_1256_wf : GatherDims.WF S50000x256 S400000x1 S400000x256 [1] [0] [] [0] [] 1 ![1, 256]
  gather_S200000x112_S400000x1_S400000x112_1_0_n_n_0_1_1112_wf : GatherDims.WF S200000x112 S400000x1 S400000x112 [1] [0] [] [0] [] 1 ![1, 112]
  dot_S400000x480_S480x240_S400000x240_1_0_0_1_n_n_wf : DotDims.WF S400000x480 S480x240 S400000x240 [1] [0] [0] [1] [] []
  dot_S400000x240_S240x4_S400000x4_1_0_0_1_n_n_wf : DotDims.WF S400000x240 S240x4 S400000x4 [1] [0] [0] [1] [] []
  gather_S400000x4_S400000x1_S400000x4_1_0_n_n_0_1_14_wf : GatherDims.WF S400000x4 S400000x1 S400000x4 [1] [0] [] [0] [] 1 ![1, 4]

variable [Facts₀]

def scatter_S50000_S1_S__n_0_0_0 : ScatterDims S50000 S1 S_ where
  updateWindowDims := []
  insertedWindowDims := [0]
  scatterDimsToOperandDims := [0]
  indexVectorDim := 0
  wf := scatter_S50000_S1_S__n_0_0_0_wf
def scatter_S200000_S50000x1_S50000_n_0_0_1 : ScatterDims S200000 S50000x1 S50000 where
  updateWindowDims := []
  insertedWindowDims := [0]
  scatterDimsToOperandDims := [0]
  indexVectorDim := 1
  wf := scatter_S200000_S50000x1_S50000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def gather_S100x64_S200000x1_S200000x64_1_0_n_n_0_1_164 : GatherDims S100x64 S200000x1 S200000x64 where
  offsetDims := [1]
  collapsedSliceDims := [0]
  operandBatchingDims := []
  startIndicesBatchingDims := []
  startIndexMap := [0]
  indexVectorDim := 1
  sliceSizes := ![1, 64]
  wf := gather_S100x64_S200000x1_S200000x64_1_0_n_n_0_1_164_wf
def gather_S8x16_S200000x1_S200000x16_1_0_n_n_0_1_116 : GatherDims S8x16 S200000x1 S200000x16 where
  offsetDims := [1]
  collapsedSliceDims := [0]
  operandBatchingDims := []
  startIndicesBatchingDims := []
  startIndexMap := [0]
  indexVectorDim := 1
  sliceSizes := ![1, 16]
  wf := gather_S8x16_S200000x1_S200000x16_1_0_n_n_0_1_116_wf
def gather_S16x32_S200000x1_S200000x32_1_0_n_n_0_1_132 : GatherDims S16x32 S200000x1 S200000x32 where
  offsetDims := [1]
  collapsedSliceDims := [0]
  operandBatchingDims := []
  startIndicesBatchingDims := []
  startIndexMap := [0]
  indexVectorDim := 1
  sliceSizes := ![1, 32]
  wf := gather_S16x32_S200000x1_S200000x32_1_0_n_n_0_1_132_wf
def scatter_S400000_S50000x1_S50000_n_0_0_1 : ScatterDims S400000 S50000x1 S50000 where
  updateWindowDims := []
  insertedWindowDims := [0]
  scatterDimsToOperandDims := [0]
  indexVectorDim := 1
  wf := scatter_S400000_S50000x1_S50000_n_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def gather_S200000x112_S400000x1_S400000x112_1_0_n_n_0_1_1112 : GatherDims S200000x112 S400000x1 S400000x112 where
  offsetDims := [1]
  collapsedSliceDims := [0]
  operandBatchingDims := []
  startIndicesBatchingDims := []
  startIndexMap := [0]
  indexVectorDim := 1
  sliceSizes := ![1, 112]
  wf := gather_S200000x112_S400000x1_S400000x112_1_0_n_n_0_1_1112_wf
def dot_S400000x480_S480x240_S400000x240_1_0_0_1_n_n : DotDims S400000x480 S480x240 S400000x240 where
  lhsContracting := [1]
  rhsContracting := [0]
  lhsNonContracting := [0]
  rhsNonContracting := [1]
  lhsBatch := []
  rhsBatch := []
  wf := dot_S400000x480_S480x240_S400000x240_1_0_0_1_n_n_wf
def dot_S400000x240_S240x4_S400000x4_1_0_0_1_n_n : DotDims S400000x240 S240x4 S400000x4 where
  lhsContracting := [1]
  rhsContracting := [0]
  lhsNonContracting := [0]
  rhsNonContracting := [1]
  lhsBatch := []
  rhsBatch := []
  wf := dot_S400000x240_S240x4_S400000x4_1_0_0_1_n_n_wf
def gather_S400000x4_S400000x1_S400000x4_1_0_n_n_0_1_14 : GatherDims S400000x4 S400000x1 S400000x4 where
  offsetDims := [1]
  collapsedSliceDims := [0]
  operandBatchingDims := []
  startIndicesBatchingDims := []
  startIndexMap := [0]
  indexVectorDim := 1
  sliceSizes := ![1, 4]
  wf := gather_S400000x4_S400000x1_S400000x4_1_0_n_n_0_1_14_wf

class Facts : Prop extends Facts₀ where

variable [Facts]
-- ==== Proof.KFrame.lean ====
/-
  The frame of the program: its @main is a long stretch of host operations (index arithmetic, gathers of the
  embedding tables, the concatenation into one feature row per edge, three changes of float format), ONE
  pipelined region over 80 grid points — each point a block of 5000 edge rows through a two-layer perceptron —,
  and a short host tail (the symmetrization over the reversed edge). Here: the buffers' contents when the region
  is entered as the fold of the host operations before it; that no host operation writes an argument array; what
  the body leaves in the output block at a point (its one store, over the five input blocks); the body's triple;
  the proof data of the pipeline; the run of @main; and from it that every execution terminates, faults nowhere
  and ends with the fifteen argument arrays as launched. Everything is stated at any float instance.
-/
import proofs.«138913_j79413945303068_1_alg».proof.Proof.Gen.Kernel.Launch
import proofs.«138913_j79413945303068_1_alg».proof.Proof.Gen.Kernel.Skeleton
import proofs.«138913_j79413945303068_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch (a stretch ends where an outlined function's
    operations begin or end), in program order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]

/-- The host operations after the region: the symmetrization. -/
abbrev postOps : List (List (HloOp τ sig (Elt F))) := [hostOps1]

/-- Core `c`'s buffer contents when the region is entered: the fold of the host operations before it over the
    launch contents. Kept folded throughout. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem preOps_sub : (preOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub⟩

theorem preOps_fresh : (preOps : List (List (HloOp τ sig (Elt F)))).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh⟩

/-- @main is the host operations before the region, the region, the host operations after it: so it reduces to
    the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps postOps preOps_sub preOps_fresh main_chain

/-- The later lines touch the pipeline's arrays and the buffers that bypass it only. -/
theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ (postOps : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is none of the pipeline's six arrays. -/
theorem sfx_keeps : ∀ ops ∈ (postOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## No host operation writes an argument array -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes argument 0, and it is none of the pipeline's arrays: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and it is none of the pipeline's arrays: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and it is none of the pipeline's arrays: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) postOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and it is none of the pipeline's arrays: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) postOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and it is none of the pipeline's arrays: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) postOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 6, and it is none of the pipeline's arrays: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) postOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 8, and it is none of the pipeline's arrays: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) postOps c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes argument 9, and it is none of the pipeline's arrays: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) postOps c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes argument 10, and it is none of the pipeline's arrays: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) postOps c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes argument 11, and it is none of the pipeline's arrays: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) postOps c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes argument 12, and it is none of the pipeline's arrays: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) postOps c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes argument 13, and it is none of the pipeline's arrays: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) postOps c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes argument 14, and it is none of the pipeline's arrays: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) postOps c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or the block index has not moved since it did — for any proof data over the region-entry arrays whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or the block index has not moved since it did — for any proof data over the region-entry arrays whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or the block index has not moved since it did — for any proof data over the region-entry arrays whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or the block index has not moved since it did — for any proof data over the region-entry arrays whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there
    or the block index has not moved since it did — for any proof data over the region-entry arrays whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rectX : Rect S5000x480 := Rect.unit (s := S5000x480) ![0, 0] S5000x480.size inb_S5000x480_S5000x480_0_0
abbrev rectW1 : Rect S480x240 := Rect.unit (s := S480x240) ![0, 0] S480x240.size inb_S480x240_S480x240_0_0
abbrev rectB1 : Rect S240 := Rect.unit (s := S240) ![0] S240.size inb_S240_S240_0
abbrev rectW2 : Rect S240x4 := Rect.unit (s := S240x4) ![0, 0] S240x4.size inb_S240x4_S240x4_0_0
abbrev rectB2 : Rect S4 := Rect.unit (s := S4) ![0] S4.size inb_S4_S4_0
abbrev rectO : Rect S5000x4 := Rect.unit (s := S5000x4) ![0, 0] S5000x4.size inb_S5000x4_S5000x4_0_0

/-- The output block after the body: its one store — the perceptron's value on the block of rows, over the two
    weight matrices and the two bias rows — read back whole. -/
def outBlk (x : Vec F S5000x480 .bf16) (w1 : Vec F S480x240 .bf16) (b1 : Vec F S240 .f32) (w2 : Vec F S240x4 .bf16) (b2 : Vec F S4 .f32) :
    Vec F S5000x4 .f32 :=
  View.canon [⟨rectO, k0_pay1 (View.ld x rectX) (View.ld w1 rectW1) (View.ld b1 rectB1) (View.ld w2 rectW2) (View.ld b2 rectB2)⟩]

/-- The one store covers the block. -/
theorem outBlk_cover (p0 : Vec F S5000x4 .f32) (y : S5000x4.Idx) :
    ∃ pc ∈ ([⟨rectO, p0⟩] : List (View.Piece (Elt F) S5000x4 .f32)), y ∈ pc.1.set :=
  View.cover_of_tiled [⟨rectO, p0⟩] S5000x4.size (by rfl) y

/-! ## The body's triple -/

set_option maxHeartbeats 2000000 in
/-- The body on whole staging memrefs — the five inputs' at given contents, the output's at anything — runs to the
    continuation with the inputs' as they were and the output's at `outBlk` of them. -/
theorem sound_kernel (c : Dev nD) (E : Set ℕ) (i : grid0.Coords)
    (arg1 : Memref sig .tc .vmem S5000x480 .bf16) (harg1 : arg1.IsWhole) (arg2 : Memref sig .tc .vmem S480x240 .bf16) (harg2 : arg2.IsWhole)
    (arg3 : Memref sig .tc .vmem S240 .f32) (harg3 : arg3.IsWhole) (arg4 : Memref sig .tc .vmem S240x4 .bf16) (harg4 : arg4.IsWhole)
    (arg5 : Memref sig .tc .vmem S4 .f32) (harg5 : arg5.IsWhole) (arg6 : Memref sig .tc .vmem S5000x4 .f32) (harg6 : arg6.IsWhole)
    (x : Vec F S5000x480 .bf16) (w1 : Vec F S480x240 .bf16) (b1 : Vec F S240 .f32) (w2 : Vec F S240x4 .bf16) (b2 : Vec F S4 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlk_cover _)

/-! ## The pipeline's proof data -/

/-- The proof data of the pipeline on core `c`: the arrays as the region finds them; after the body at point `t`
    each input's buffer at its block and the output's at `outBlk` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the write-backs leave and every other unscoped buffer as the host tail
    leaves it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The run's post read at the result and at the fifteen argument arrays: the result is the host tail's fold over
    the region's arrays; an argument the pipeline stages is its array at the end, which for an input is its
    contents at the entry; any other argument is a buffer that bypasses the pipeline, which nothing wrote. -/
theorem run_args : θ_run defs (onTc (τ := τ) (main (F := F))) ⟨m, fun _ => 0, ρ⟩ (fun r => ∀ c : Dev nD,
      r.2.mem ((c.tc : Thread nD τ).loc main_v98) = Pipeline.afterTail₀ cfgs (dats m) 0 (V0 m) postOps c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).2 main_v98 (Pipeline.mem_restRefs_of main_v98 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 2).trans (((dats m 0 c).arrAt_in 2 rfl _).trans ((A_eq m c 2).trans (V_main_arg5 m c))),
    ((h c).2 main_arg6 (Pipeline.mem_restRefs_of main_arg6 (by decide) (by decide))).trans (W_main_arg6 m (dats m) c),
    ((h c).1 4).trans (((dats m 0 c).arrAt_in 4 rfl _).trans ((A_eq m c 4).trans (V_main_arg7 m c))),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c)⟩) (run_main m ρ)

/-- THE FRAME: every execution terminates, faults nowhere, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_args m ρ)

end Cert.Kernel.Hand

end
-- ==== Proof.KIFrame.lean ====
/-
  The frame of the program: its @main is a long stretch of host operations (index arithmetic, gathers of the
  embedding tables, the concatenation into one feature row per edge, three changes of float format), ONE
  pipelined region over 80 grid points — each point a block of 5000 edge rows through a two-layer perceptron —,
  and a short host tail (the symmetrization over the reversed edge). Here: the buffers' contents when the region
  is entered as the fold of the host operations before it; that no host operation writes an argument array; what
  the body leaves in the output block at a point (its one store, over the five input blocks); the body's triple;
  the proof data of the pipeline; the run of @main; and from it that every execution terminates, faults nowhere
  and ends with the fifteen argument arrays as launched. Everything is stated at any float instance.
-/
import proofs.«138913_j79413945303068_1_alg».proof.Proof.Gen.KernelIdeal.Launch
import proofs.«138913_j79413945303068_1_alg».proof.Proof.Gen.KernelIdeal.Skeleton
import proofs.«138913_j79413945303068_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch (a stretch ends where an outlined function's
    operations begin or end), in program order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]

/-- The host operations after the region: the symmetrization. -/
abbrev postOps : List (List (HloOp τ sig (Elt F))) := [hostOps1]

/-- Core `c`'s buffer contents when the region is entered: the fold of the host operations before it over the
    launch contents. Kept folded throughout. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem preOps_sub : (preOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub⟩

theorem preOps_fresh : (preOps : List (List (HloOp τ sig (Elt F)))).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh⟩

/-- @main is the host operations before the region, the region, the host operations after it: so it reduces to
    the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps postOps preOps_sub preOps_fresh main_chain

/-- The later lines touch the pipeline's arrays and the buffers that bypass it only. -/
theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ (postOps : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is none of the pipeline's six arrays. -/
theorem sfx_keeps : ∀ ops ∈ (postOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## No host operation writes an argument array -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, StableHlo.TRef.nullary, StableHlo.TRef.unary, StableHlo.TRef.binary, StableHlo.TRef.ternary, StableHlo.TRef.nary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes argument 0, and it is none of the pipeline's arrays: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and it is none of the pipeline's arrays: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and it is none of the pipeline's arrays: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) postOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and it is none of the pipeline's arrays: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) postOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and it is none of the pipeline's arrays: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) postOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 6, and it is none of the pipeline's arrays: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) postOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 8, and it is none of the pipeline's arrays: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) postOps c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes argument 9, and it is none of the pipeline's arrays: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) postOps c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes argument 10, and it is none of the pipeline's arrays: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) postOps c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes argument 11, and it is none of the pipeline's arrays: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) postOps c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes argument 12, and it is none of the pipeline's arrays: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) postOps c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes argument 13, and it is none of the pipeline's arrays: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) postOps c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes argument 14, and it is none of the pipeline's arrays: it ends as launched. -/
theorem W_main_arg14 (dats : (p : Fin 1) → (c : Dev nD) → Dat τ (Elt F) Unit ℕ (UR sig nD τ) ℕ (cfgs p) c) (c : Dev nD) :
    Pipeline.afterTail₀ cfgs dats 0 (V0 m) postOps c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or the block index has not moved since it did — for any proof data over the region-entry arrays whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or the block index has not moved since it did — for any proof data over the region-entry arrays whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or the block index has not moved since it did — for any proof data over the region-entry arrays whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or the block index has not moved since it did — for any proof data over the region-entry arrays whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there
    or the block index has not moved since it did — for any proof data over the region-entry arrays whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rectX : Rect S5000x480 := Rect.unit (s := S5000x480) ![0, 0] S5000x480.size inb_S5000x480_S5000x480_0_0
abbrev rectW1 : Rect S480x240 := Rect.unit (s := S480x240) ![0, 0] S480x240.size inb_S480x240_S480x240_0_0
abbrev rectB1 : Rect S240 := Rect.unit (s := S240) ![0] S240.size inb_S240_S240_0
abbrev rectW2 : Rect S240x4 := Rect.unit (s := S240x4) ![0, 0] S240x4.size inb_S240x4_S240x4_0_0
abbrev rectB2 : Rect S4 := Rect.unit (s := S4) ![0] S4.size inb_S4_S4_0
abbrev rectO : Rect S5000x4 := Rect.unit (s := S5000x4) ![0, 0] S5000x4.size inb_S5000x4_S5000x4_0_0

/-- The output block after the body: its one store — the perceptron's value on the block of rows, over the two
    weight matrices and the two bias rows — read back whole. -/
def outBlk (x : Vec F S5000x480 .bf16) (w1 : Vec F S480x240 .bf16) (b1 : Vec F S240 .f32) (w2 : Vec F S240x4 .bf16) (b2 : Vec F S4 .f32) :
    Vec F S5000x4 .f32 :=
  View.canon [⟨rectO, k0_pay1 (View.ld x rectX) (View.ld w1 rectW1) (View.ld b1 rectB1) (View.ld w2 rectW2) (View.ld b2 rectB2)⟩]

/-- The one store covers the block. -/
theorem outBlk_cover (p0 : Vec F S5000x4 .f32) (y : S5000x4.Idx) :
    ∃ pc ∈ ([⟨rectO, p0⟩] : List (View.Piece (Elt F) S5000x4 .f32)), y ∈ pc.1.set :=
  View.cover_of_tiled [⟨rectO, p0⟩] S5000x4.size (by rfl) y

/-! ## The body's triple -/

set_option maxHeartbeats 2000000 in
/-- The body on whole staging memrefs — the five inputs' at given contents, the output's at anything — runs to the
    continuation with the inputs' as they were and the output's at `outBlk` of them. -/
theorem sound_kernel (c : Dev nD) (E : Set ℕ) (i : grid0.Coords)
    (arg1 : Memref sig .tc .vmem S5000x480 .bf16) (harg1 : arg1.IsWhole) (arg2 : Memref sig .tc .vmem S480x240 .bf16) (harg2 : arg2.IsWhole)
    (arg3 : Memref sig .tc .vmem S240 .f32) (harg3 : arg3.IsWhole) (arg4 : Memref sig .tc .vmem S240x4 .bf16) (harg4 : arg4.IsWhole)
    (arg5 : Memref sig .tc .vmem S4 .f32) (harg5 : arg5.IsWhole) (arg6 : Memref sig .tc .vmem S5000x4 .f32) (harg6 : arg6.IsWhole)
    (x : Vec F S5000x480 .bf16) (w1 : Vec F S480x240 .bf16) (b1 : Vec F S240 .f32) (w2 : Vec F S240x4 .bf16) (b2 : Vec F S4 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlk_cover _)

/-! ## The pipeline's proof data -/

/-- The proof data of the pipeline on core `c`: the arrays as the region finds them; after the body at point `t`
    each input's buffer at its block and the output's at `outBlk` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the write-backs leave and every other unscoped buffer as the host tail
    leaves it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The run's post read at the result and at the fifteen argument arrays: the result is the host tail's fold over
    the region's arrays; an argument the pipeline stages is its array at the end, which for an input is its
    contents at the entry; any other argument is a buffer that bypasses the pipeline, which nothing wrote. -/
theorem run_args : θ_run defs (onTc (τ := τ) (main (F := F))) ⟨m, fun _ => 0, ρ⟩ (fun r => ∀ c : Dev nD,
      r.2.mem ((c.tc : Thread nD τ).loc main_v98) = Pipeline.afterTail₀ cfgs (dats m) 0 (V0 m) postOps c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).2 main_v98 (Pipeline.mem_restRefs_of main_v98 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 2).trans (((dats m 0 c).arrAt_in 2 rfl _).trans ((A_eq m c 2).trans (V_main_arg5 m c))),
    ((h c).2 main_arg6 (Pipeline.mem_restRefs_of main_arg6 (by decide) (by decide))).trans (W_main_arg6 m (dats m) c),
    ((h c).1 4).trans (((dats m 0 c).arrAt_in 4 rfl _).trans ((A_eq m c 4).trans (V_main_arg7 m c))),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c)⟩) (run_main m ρ)

/-- THE FRAME: every execution terminates, faults nowhere, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_args m ρ)

end Cert.KernelIdeal.Hand

end
-- ==== Proof.RefRun.Ops.lean ====
/- The reference program's @main as a list of host operations.
   Every call of a module-local function is replaced by the callee's operations, in order, over the buffer
   record of that call; a call nested in a callee is replaced in the same way. The list is cut in two after
   the concatenation that forms the 400000 × 480 feature matrix: what comes before it only builds that matrix
   (integer index arithmetic, gathers, scatters and prefix sums), what comes after is the two-layer perceptron
   and the symmetrization of its output. -/
import proofs.«138913_j79413945303068_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to and including the concatenation that writes the feature matrix (169 of them). -/
abbrev opsPre : List (HloOp τ sig (Elt F)) :=
  [ TRef.nullary main_call0.call0.c (constantI S_ 32 0#32),
    TRef.unary main_call0.call0.c main_call0.call0.v0 (broadcastInDim S_ ![] bcast_S_S_),
    TRef.binary (.of main_arg10 : StableHlo.TRef sig ⟨S50000, .i32⟩) main_call0.call0.v0 main_call0.call0.v1 (fun x v => Host.reduceWindow IntOp.addi ![50000] ![1] ![49999] ![0] x v reduceWindows_S50000_S50000_w50000s1p49999_0 h_S_),
    binary main_v0 main_arg10 main_v1 (subi : (⟨S50000, .i32⟩ : BufTy).Contents (Elt F) → (⟨S50000, .i32⟩ : BufTy).Contents (Elt F) → (⟨S50000, .i32⟩ : BufTy).Contents (Elt F)),
    nullary main_v2 (iotaInDim S50000 32 0),
    TRef.unary (.of main_arg10 : StableHlo.TRef sig ⟨S50000, .i32⟩) main_call1.v0 (extractStridedSlice S1 ![49999] · slices_S50000_S1_49999),
    TRef.unary (.of main_arg10 : StableHlo.TRef sig ⟨S50000, .i32⟩) main_call1.v1 (extractStridedSlice S49999 ![0] · slices_S50000_S49999_0),
    TRef.binary main_call1.v0 main_call1.v1 main_call1.v2 (fun a b => concatenate S50000 0 [⟨S1, a⟩, ⟨S49999, b⟩] concatenates_S1_S49999_S50000_d0),
    nullary main_c (constantI S_ 32 0#32),
    unary main_c main_v4 (broadcastInDim S1 ![] bcast_S_S1 : (⟨S_, .i32⟩ : BufTy).Contents (Elt F) → (⟨S1, .i32⟩ : BufTy).Contents (Elt F)),
    nullary main_c_0 (constantI S_ 32 0#32),
    ternary main_v3 main_v4 main_c_0 main_v5 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)),
    TRef.nullary main_call2.call0.c (constantI S_ 32 0#32),
    TRef.unary main_call2.call0.c main_call2.call0.v0 (broadcastInDim S_ ![] bcast_S_S_),
    TRef.binary (.of main_v5 : StableHlo.TRef sig ⟨S50000, .i32⟩) main_call2.call0.v0 main_call2.call0.v1 (fun x v => Host.reduceWindow IntOp.addi ![50000] ![1] ![49999] ![0] x v reduceWindows_S50000_S50000_w50000s1p49999_0 h_S_),
    nullary main_c_1 (constantI S_ 32 0#32),
    unary main_c_1 main_v7 (broadcastInDim S200000 ![] bcast_S_S200000 : (⟨S_, .i32⟩ : BufTy).Contents (Elt F) → (⟨S200000, .i32⟩ : BufTy).Contents (Elt F)),
    nullary main_c_2 (constantI S_ 32 0#32),
    unary main_c_2 main_v8 (broadcastInDim S50000 ![] bcast_S_S50000 : (⟨S_, .i32⟩ : BufTy).Contents (Elt F) → (⟨S50000, .i32⟩ : BufTy).Contents (Elt F)),
    binary main_v6 main_v8 main_v9 (cmpi .slt : (⟨S50000, .i32⟩ : BufTy).Contents (Elt F) → (⟨S50000, .i32⟩ : BufTy).Contents (Elt F) → (⟨S50000, .i1⟩ : BufTy).Contents (Elt F)),
    nullary main_c_3 (constantI S_ 32 200000#32),
    unary main_c_3 main_v10 (broadcastInDim S50000 ![] bcast_S_S50000 : (⟨S_, .i32⟩ : BufTy).Contents (Elt F) → (⟨S50000, .i32⟩ : BufTy).Contents (Elt F)),
    binary main_v6 main_v10 main_v11 (addi : (⟨S50000, .i32⟩ : BufTy).Contents (Elt F) → (⟨S50000, .i32⟩ : BufTy).Contents (Elt F) → (⟨S50000, .i32⟩ : BufTy).Contents (Elt F)),
    ternary main_v9 main_v11 main_v6 main_v12 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v12 main_v13 (broadcastInDim S50000x1 ![0] bcast_S50000_S50000x1_0 : (⟨S50000, .i32⟩ : BufTy).Contents (Elt F) → (⟨S50000x1, .i32⟩ : BufTy).Contents (Elt F)),
    nullary main_c_4 (constantI S_ 32 1#32),
    unary main_c_4 main_v14 (broadcastInDim S50000 ![] bcast_S_S50000 : (⟨S_, .i32⟩ : BufTy).Contents (Elt F) → (⟨S50000, .i32⟩ : BufTy).Contents (Elt F)),
    ternary main_v7 main_v13 main_v14 main_v15 ((fun x i u => Host.scatter scatter_S200000_S50000x1_S50000_n_0_0_1 IntOp.addi x i u) : (⟨S200000, .i32⟩ : BufTy).Contents (Elt F) → (⟨S50000x1, .i32⟩ : BufTy).Contents (Elt F) → (⟨S50000, .i32⟩ : BufTy).Contents (Elt F) → (⟨S200000, .i32⟩ : BufTy).Contents (Elt F)),
    TRef.nullary main_call3.call0.c (constantI S_ 32 0#32),
    TRef.unary main_call3.call0.c main_call3.call0.v0 (broadcastInDim S_ ![] bcast_S_S_),
    TRef.binary (.of main_v15 : StableHlo.TRef sig ⟨S200000, .i32⟩) main_call3.call0.v0 main_call3.call0.v1 (fun x v => Host.reduceWindow IntOp.addi ![200000] ![1] ![199999] ![0] x v reduceWindows_S200000_S200000_w200000s1p199999_0 h_S_),
    nullary main_c_5 (constantI S_ 32 1#32),
    unary main_c_5 main_v17 (broadcastInDim S200000 ![] bcast_S_S200000 : (⟨S_, .i32⟩ : BufTy).Contents (Elt F) → (⟨S200000, .i32⟩ : BufTy).Contents (Elt F)),
    binary main_v16 main_v17 main_v18 (subi : (⟨S200000, .i32⟩ : BufTy).Contents (Elt F) → (⟨S200000, .i32⟩ : BufTy).Contents (Elt F) → (⟨S200000, .i32⟩ : BufTy).Contents (Elt F)),
    TRef.nullary main_call4.c (constantI S_ 32 0#32),
    TRef.unary main_call4.c main_call4.v0 (broadcastInDim S200000 ![] bcast_S_S200000),
    TRef.binary (.of main_v18 : StableHlo.TRef sig ⟨S200000, .i32⟩) main_call4.v0 main_call4.v1 (cmpi .slt),
    TRef.nullary main_call4.c_0 (constantI S_ 32 50000#32),
    TRef.unary main_call4.c_0 main_call4.v2 (broadcastInDim S200000 ![] bcast_S_S200000),
    TRef.binary (.of main_v18 : StableHlo.TRef sig ⟨S200000, .i32⟩) main_call4.v2 main_call4.v3 addi,
    TRef.ternary main_call4.v1 main_call4.v3 (.of main_v18 : StableHlo.TRef sig ⟨S200000, .i32⟩) main_call4.call0.v0 select,
    TRef.unary main_call4.call0.v0 main_call4.v5 (broadcastInDim S200000x1 ![0] bcast_S200000_S200000x1_0),
    TRef.nullary main_call4.c_1 (constantI S1 32 49999#32),
    TRef.nullary main_call4.c_2 (constantI S_ 32 0#32),
    TRef.unary main_call4.c_2 main_call4.v6 (broadcastInDim S200000x1 ![] bcast_S_S200000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S200000x1 ![0, 1] bcast_S1x1_S200000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S200000x1_S200000_d1 h_S_),
    TRef.binary (.of main_v2 : StableHlo.TRef sig ⟨S50000, .i32⟩) main_call4.v5 main_call4.v13 (fun x i => Host.gather gather_S50000_S200000x1_S200000_n_0_n_n_0_1_1 x i),
    TRef.nullary main_call4.c_4 (constantI S_ 32 2147483648#32),
    TRef.unary main_call4.c_4 main_call4.v14 (broadcastInDim S200000 ![] bcast_S_S200000),
    TRef.ternary main_call4.v12 main_call4.v13 main_call4.v14 main_call4.v15 select,
    nullary main_v20 (iotaInDim S200000 32 0),
    nullary main_c_6 (constantI S_ 32 0#32),
    unary main_c_6 main_v21 (broadcastInDim S200000 ![] bcast_S_S200000 : (⟨S_, .i32⟩ : BufTy).Contents (Elt F) → (⟨S200000, .i32⟩ : BufTy).Contents (Elt F)),
    binary main_v19 main_v21 main_v22 (cmpi .slt : (⟨S200000, .i32⟩ : BufTy).Contents (Elt F) → (⟨S200000, .i32⟩ : BufTy).Contents (Elt F) → (⟨S200000, .i1⟩ : BufTy).Contents (Elt F)),
    nullary main_c_7 (constantI S_ 32 50000#32),
    unary main_c_7 main_v23 (broadcastInDim S200000 ![] bcast_S_S200000 : (⟨S_, .i32⟩ : BufTy).Contents (Elt F) → (⟨S200000, .i32⟩ : BufTy).Contents (Elt F)),
    binary main_v19 main_v23 main_v24 (addi : (⟨S200000, .i32⟩ : BufTy).Contents (Elt F) → (⟨S200000, .i32⟩ : BufTy).Contents (Elt F) → (⟨S200000, .i32⟩ : BufTy).Contents (Elt F)),
    ternary main_v22 main_v24 main_v19 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v25 main_v26 (broadcastInDim S200000x1 ![0] bcast_S200000_S200000x1_0 : (⟨S200000, .i32⟩ : BufTy).Contents (Elt F) → (⟨S200000x1, .i32⟩ : BufTy).Contents (Elt F)),
    binary main_v1 main_v26 main_v27 ((fun x i => Host.gather gather_S50000_S200000x1_S200000_n_0_n_n_0_1_1 x i) : (⟨S50000, .i32⟩ : BufTy).Contents (Elt F) → (⟨S200000x1, .i32⟩ : BufTy).Contents (Elt F) → (⟨S200000, .i32⟩ : BufTy).Contents (Elt F)),
    binary main_v20 main_v27 main_v28 (subi : (⟨S200000, .i32⟩ : BufTy).Contents (Elt F) → (⟨S200000, .i32⟩ : BufTy).Contents (Elt F) → (⟨S200000, .i32⟩ : BufTy).Contents (Elt F)),
    nullary main_c_8 (constantI S_ 32 1#32),
    unary main_c_8 main_v29 (broadcastInDim S200000 ![] bcast_S_S200000 : (⟨S_, .i32⟩ : BufTy).Contents (Elt F) → (⟨S200000, .i32⟩ : BufTy).Contents (Elt F)),
    binary main_v28 main_v29 main_v30 (addi : (⟨S200000, .i32⟩ : BufTy).Contents (Elt F) → (⟨S200000, .i32⟩ : BufTy).Contents (Elt F) → (⟨S200000, .i32⟩ : BufTy).Contents (Elt F)),
    nullary main_c_9 (constantI S_ 32 0#32),
    unary main_c_9 main_v31 (broadcastInDim S200000 ![] bcast_S_S200000 : (⟨S_, .i32⟩ : BufTy).Contents (Elt F) → (⟨S200000, .i32⟩ : BufTy).Contents (Elt F)),
    binary main_arg8 main_v31 main_v32 (cmpi .slt : (⟨S200000, .i32⟩ : BufTy).Contents (Elt F) → (⟨S200000, .i32⟩ : BufTy).Contents (Elt F) → (⟨S200000, .i1⟩ : BufTy).Contents (Elt F)),
    nullary main_c_10 (constantI S_ 32 100#32),
    unary main_c_10 main_v33 (broadcastInDim S200000 ![] bcast_S_S200000 : (⟨S_, .i32⟩ : BufTy).Contents (Elt F) → (⟨S200000, .i32⟩ : BufTy).Contents (Elt F)),
    binary main_arg8 main_v33 main_v34 (addi : (⟨S200000, .i32⟩ : BufTy).Contents (Elt F) → (⟨S200000, .i32⟩ : BufTy).Contents (Elt F) → (⟨S200000, .i32⟩ : BufTy).Contents (Elt F)),
    ternary main_v32 main_v34 main_arg8 main_v35 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v35 main_v36 (broadcastInDim S200000x1 ![0] bcast_S200000_S200000x1_0 : (⟨S200000, .i32⟩ : BufTy).Contents (Elt F) → (⟨S200000x1, .i32⟩ : BufTy).Contents (Elt F)),
    binary main_arg1 main_v36 main_v37 ((fun x i => Host.gather gather_S100x64_S200000x1_S200000x64_1_0_n_n_0_1_164 x i) : (⟨S100x64, .f32⟩ : BufTy).Contents (Elt F) → (⟨S200000x1, .i32⟩ : BufTy).Contents (Elt F) → (⟨S200000x64, .f32⟩ : BufTy).Contents (Elt F)),
    nullary main_c_11 (constantI S_ 32 0#32),
    unary main_c_11 main_v38 (broadcastInDim S200000 ![] bcast_S_S200000 : (⟨S_, .i32⟩ : BufTy).Contents (Elt F) → (⟨S200000, .i32⟩ : BufTy).Contents (Elt F)),
    binary main_arg9 main_v38 main_v39 (cmpi .slt : (⟨S200000, .i32⟩ : BufTy).Contents (Elt F) → (⟨S200000, .i32⟩ : BufTy).Contents (Elt F) → (⟨S200000, .i1⟩ : BufTy).Contents (Elt F)),
    nullary main_c_12 (constantI S_ 32 8#32),
    unary main_c_12 main_v40 (broadcastInDim S200000 ![] bcast_S_S200000 : (⟨S_, .i32⟩ : BufTy).Contents (Elt F) → (⟨S200000, .i32⟩ : BufTy).Contents (Elt F)),
    binary main_arg9 main_v40 main_v41 (addi : (⟨S200000, .i32⟩ : BufTy).Contents (Elt F) → (⟨S200000, .i32⟩ : BufTy).Contents (Elt F) → (⟨S200000, .i32⟩ : BufTy).Contents (Elt F)),
    ternary main_v39 main_v41 main_arg9 main_v42 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v42 main_v43 (broadcastInDim S200000x1 ![0] bcast_S200000_S200000x1_0 : (⟨S200000, .i32⟩ : BufTy).Contents (Elt F) → (⟨S200000x1, .i32⟩ : BufTy).Contents (Elt F)),
    binary main_arg2 main_v43 main_v44 ((fun x i => Host.gather gather_S8x16_S200000x1_S200000x16_1_0_n_n_0_1_116 x i) : (⟨S8x16, .f32⟩ : BufTy).Contents (Elt F) → (⟨S200000x1, .i32⟩ : BufTy).Contents (Elt F) → (⟨S200000x16, .f32⟩ : BufTy).Contents (Elt F)),
    nullary main_c_13 (constantI S_ 32 0#32),
    unary main_c_13 main_v45 (broadcastInDim S200000 ![] bcast_S_S200000 : (⟨S_, .i32⟩ : BufTy).Contents (Elt F) → (⟨S200000, .i32⟩ : BufTy).Contents (Elt F)),
    binary main_v30 main_v45 main_v46 (cmpi .slt : (⟨S200000, .i32⟩ : BufTy).Contents (Elt F) → (⟨S200000, .i32⟩ : BufTy).Contents (Elt F) → (⟨S200000, .i1⟩ : BufTy).Contents (Elt F)),
    nullary main_c_14 (constantI S_ 32 16#32),
    unary main_c_14 main_v47 (broadcastInDim S200000 ![] bcast_S_S200000 : (⟨S_, .i32⟩ : BufTy).Contents (Elt F) → (⟨S200000, .i32⟩ : BufTy).Contents (Elt F)),
    binary main_v30 main_v47 main_v48 (addi : (⟨S200000, .i32⟩ : BufTy).Contents (Elt F) → (⟨S200000, .i32⟩ : BufTy).Contents (Elt F) → (⟨S200000, .i32⟩ : BufTy).Contents (Elt F)),
    ternary main_v46 main_v48 main_v30 main_v49 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v49 main_v50 (broadcastInDim S200000x1 ![0] bcast_S200000_S200000x1_0 : (⟨S200000, .i32⟩ : BufTy).Contents (Elt F) → (⟨S200000x1, .i32⟩ : BufTy).Contents (Elt F)),
    binary main_arg3 main_v50 main_v51 ((fun x i => Host.gather gather_S16x32_S200000x1_S200000x32_1_0_n_n_0_1_132 x i) : (⟨S16x32, .f32⟩ : BufTy).Contents (Elt F) → (⟨S200000x1, .i32⟩ : BufTy).Contents (Elt F) → (⟨S200000x32, .f32⟩ : BufTy).Contents (Elt F)),
    nary ![main_v37, main_v44, main_v51] main_v52 (fun u => concatenate S200000x112 1 [⟨S200000x64, u 0⟩, ⟨S200000x16, u 1⟩, ⟨S200000x32, u 2⟩] concatenates_S200000x64_S200000x16_S200000x32_S200000x112_d1),
    TRef.unary (.of main_arg11 : StableHlo.TRef sig ⟨S50000, .i32⟩) main_call5.v0 (extractStridedSlice S1 ![49999] · slices_S50000_S1_49999),
    TRef.unary (.of main_arg11 : StableHlo.TRef sig ⟨S50000, .i32⟩) main_call5.v1 (extractStridedSlice S49999 ![0] · slices_S50000_S49999_0),
    TRef.binary main_call5.v0 main_call5.v1 main_call5.v2 (fun a b => concatenate S50000 0 [⟨S1, a⟩, ⟨S49999, b⟩] concatenates_S1_S49999_S50000_d0),
    nullary main_c_15 (constantI S_ 32 0#32),
    unary main_c_15 main_v54 (broadcastInDim S1 ![] bcast_S_S1 : (⟨S_, .i32⟩ : BufTy).Contents (Elt F) → (⟨S1, .i32⟩ : BufTy).Contents (Elt F)),
    nullary main_c_16 (constantI S_ 32 0#32),
    ternary main_v53 main_v54 main_c_16 main_v55 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)),
    TRef.nullary main_call6.call0.c (constantI S_ 32 0#32),
    TRef.unary main_call6.call0.c main_call6.call0.v0 (broadcastInDim S_ ![] bcast_S_S_),
    TRef.binary (.of main_v55 : StableHlo.TRef sig ⟨S50000, .i32⟩) main_call6.call0.v0 main_call6.call0.v1 (fun x v => Host.reduceWindow IntOp.addi ![50000] ![1] ![49999] ![0] x v reduceWindows_S50000_S50000_w50000s1p49999_0 h_S_),
    nullary main_c_17 (constantI S_ 32 0#32),
    unary main_c_17 main_v57 (broadcastInDim S400000 ![] bcast_S_S400000 : (⟨S_, .i32⟩ : BufTy).Contents (Elt F) → (⟨S400000, .i32⟩ : BufTy).Contents (Elt F)),
    nullary main_c_18 (constantI S_ 32 0#32),
    unary main_c_18 main_v58 (broadcastInDim S50000 ![] bcast_S_S50000 : (⟨S_, .i32⟩ : BufTy).Contents (Elt F) → (⟨S50000, .i32⟩ : BufTy).Contents (Elt F)),
    binary main_v56 main_v58 main_v59 (cmpi .slt : (⟨S50000, .i32⟩ : BufTy).Contents (Elt F) → (⟨S50000, .i32⟩ : BufTy).Contents (Elt F) → (⟨S50000, .i1⟩ : BufTy).Contents (Elt F)),
    nullary main_c_19 (constantI S_ 32 400000#32),
    unary main_c_19 main_v60 (broadcastInDim S50000 ![] bcast_S_S50000 : (⟨S_, .i32⟩ : BufTy).Contents (Elt F) → (⟨S50000, .i32⟩ : BufTy).Contents (Elt F)),
    binary main_v56 main_v60 main_v61 (addi : (⟨S50000, .i32⟩ : BufTy).Contents (Elt F) → (⟨S50000, .i32⟩ : BufTy).Contents (Elt F) → (⟨S50000, .i32⟩ : BufTy).Contents (Elt F)),
    ternary main_v59 main_v61 main_v56 main_v62 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v62 main_v63 (broadcastInDim S50000x1 ![0] bcast_S50000_S50000x1_0 : (⟨S50000, .i32⟩ : BufTy).Contents (Elt F) → (⟨S50000x1, .i32⟩ : BufTy).Contents (Elt F)),
    nullary main_c_20 (constantI S_ 32 1#32),
    unary main_c_20 main_v64 (broadcastInDim S50000 ![] bcast_S_S50000 : (⟨S_, .i32⟩ : BufTy).Contents (Elt F) → (⟨S50000, .i32⟩ : BufTy).Contents (Elt F)),
    ternary main_v57 main_v63 main_v64 main_v65 ((fun x i u => Host.scatter scatter_S400000_S50000x1_S50000_n_0_0_1 IntOp.addi x i u) : (⟨S400000, .i32⟩ : BufTy).Contents (Elt F) → (⟨S50000x1, .i32⟩ : BufTy).Contents (Elt F) → (⟨S50000, .i32⟩ : BufTy).Contents (Elt F) → (⟨S400000, .i32⟩ : BufTy).Contents (Elt F)),
    TRef.nullary main_call7.call0.c (constantI S_ 32 0#32),
    TRef.unary main_call7.call0.c main_call7.call0.v0 (broadcastInDim S_ ![] bcast_S_S_),
    TRef.binary (.of main_v65 : StableHlo.TRef sig ⟨S400000, .i32⟩) main_call7.call0.v0 main_call7.call0.v1 (fun x v => Host.reduceWindow IntOp.addi ![400000] ![1] ![399999] ![0] x v reduceWindows_S400000_S400000_w400000s1p399999_0 h_S_),
    nullary main_c_21 (constantI S_ 32 1#32),
    unary main_c_21 main_v67 (broadcastInDim S400000 ![] bcast_S_S400000 : (⟨S_, .i32⟩ : BufTy).Contents (Elt F) → (⟨S400000, .i32⟩ : BufTy).Contents (Elt F)),
    binary main_v66 main_v67 main_v68 (subi : (⟨S400000, .i32⟩ : BufTy).Contents (Elt F) → (⟨S400000, .i32⟩ : BufTy).Contents (Elt F) → (⟨S400000, .i32⟩ : BufTy).Contents (Elt F)),
    TRef.nullary main_call8.c (constantI S_ 32 0#32),
    TRef.unary main_call8.c main_call8.v0 (broadcastInDim S400000 ![] bcast_S_S400000),
    TRef.binary (.of main_v68 : StableHlo.TRef sig ⟨S400000, .i32⟩) main_call8.v0 main_call8.v1 (cmpi .slt),
    TRef.nullary main_call8.c_0 (constantI S_ 32 50000#32),
    TRef.unary main_call8.c_0 main_call8.v2 (broadcastInDim S400000 ![] bcast_S_S400000),
    TRef.binary (.of main_v68 : StableHlo.TRef sig ⟨S400000, .i32⟩) main_call8.v2 main_call8.v3 addi,
    TRef.ternary main_call8.v1 main_call8.v3 (.of main_v68 : StableHlo.TRef sig ⟨S400000, .i32⟩) main_call8.call0.v0 select,
    TRef.unary main_call8.call0.v0 main_call8.v5 (broadcastInDim S400000x1 ![0] bcast_S400000_S400000x1_0),
    TRef.nullary main_call8.c_1 (constantI S1 32 49999#32),
    TRef.nullary main_call8.c_2 (constantI S_ 32 0#32),
    TRef.unary main_call8.c_2 main_call8.v6 (broadcastInDim S400000x1 ![] bcast_S_S400000x1),
    TRef.binary main_call8.v5 main_call8.v6 main_call8.v7 (cmpi .sge),
    TRef.unary main_call8.c_1 main_call8.v8 (broadcastInDim S1x1 ![1] bcast_S1_S1x1_1),
    TRef.unary main_call8.v8 main_call8.v9 (broadcastInDim S400000x1 ![0, 1] bcast_S1x1_S400000x1_0_1),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S400000x1_S400000_d1 h_S_),
    TRef.binary (.of main_arg0 : StableHlo.TRef sig ⟨S50000x256, .f32⟩) main_call8.v5 main_call8.v13 (fun x i => Host.gather gather_S50000x256_S400000x1_S400000x256_1_0_n_n_0_1_1256 x i),
    TRef.unary main_call8.v12 main_call8.v14 (broadcastInDim S400000x256 ![0] bcast_S400000_S400000x256_0),
    TRef.nullary main_call8.cst (constant S_ .f32 0x7FC00000#32),
    TRef.unary main_call8.cst main_call8.v15 (broadcastInDim S400000x256 ![] bcast_S_S400000x256),
    TRef.ternary main_call8.v14 main_call8.v13 main_call8.v15 main_call8.v16 select,
    nullary main_c_22 (constantI S_ 32 0#32),
    unary main_c_22 main_v70 (broadcastInDim S400000 ![] bcast_S_S400000 : (⟨S_, .i32⟩ : BufTy).Contents (Elt F) → (⟨S400000, .i32⟩ : BufTy).Contents (Elt F)),
    binary main_arg12 main_v70 main_v71 (cmpi .slt : (⟨S400000, .i32⟩ : BufTy).Contents (Elt F) → (⟨S400000, .i32⟩ : BufTy).Contents (Elt F) → (⟨S400000, .i1⟩ : BufTy).Contents (Elt F)),
    nullary main_c_23 (constantI S_ 32 200000#32),
    unary main_c_23 main_v72 (broadcastInDim S400000 ![] bcast_S_S400000 : (⟨S_, .i32⟩ : BufTy).Contents (Elt F) → (⟨S400000, .i32⟩ : BufTy).Contents (Elt F)),
    binary main_arg12 main_v72 main_v73 (addi : (⟨S400000, .i32⟩ : BufTy).Contents (Elt F) → (⟨S400000, .i32⟩ : BufTy).Contents (Elt F) → (⟨S400000, .i32⟩ : BufTy).Contents (Elt F)),
    ternary main_v71 main_v73 main_arg12 main_v74 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v74 main_v75 (broadcastInDim S400000x1 ![0] bcast_S400000_S400000x1_0 : (⟨S400000, .i32⟩ : BufTy).Contents (Elt F) → (⟨S400000x1, .i32⟩ : BufTy).Contents (Elt F)),
    binary main_v52 main_v75 main_v76 ((fun x i => Host.gather gather_S200000x112_S400000x1_S400000x112_1_0_n_n_0_1_1112 x i) : (⟨S200000x112, .f32⟩ : BufTy).Contents (Elt F) → (⟨S400000x1, .i32⟩ : BufTy).Contents (Elt F) → (⟨S400000x112, .f32⟩ : BufTy).Contents (Elt F)),
    nullary main_c_24 (constantI S_ 32 0#32),
    unary main_c_24 main_v77 (broadcastInDim S400000 ![] bcast_S_S400000 : (⟨S_, .i32⟩ : BufTy).Contents (Elt F) → (⟨S400000, .i32⟩ : BufTy).Contents (Elt F)),
    binary main_arg13 main_v77 main_v78 (cmpi .slt : (⟨S400000, .i32⟩ : BufTy).Contents (Elt F) → (⟨S400000, .i32⟩ : BufTy).Contents (Elt F) → (⟨S400000, .i1⟩ : BufTy).Contents (Elt F)),
    nullary main_c_25 (constantI S_ 32 200000#32),
    unary main_c_25 main_v79 (broadcastInDim S400000 ![] bcast_S_S400000 : (⟨S_, .i32⟩ : BufTy).Contents (Elt F) → (⟨S400000, .i32⟩ : BufTy).Contents (Elt F)),
    binary main_arg13 main_v79 main_v80 (addi : (⟨S400000, .i32⟩ : BufTy).Contents (Elt F) → (⟨S400000, .i32⟩ : BufTy).Contents (Elt F) → (⟨S400000, .i32⟩ : BufTy).Contents (Elt F)),
    ternary main_v78 main_v80 main_arg13 main_v81 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v81 main_v82 (broadcastInDim S400000x1 ![0] bcast_S400000_S400000x1_0 : (⟨S400000, .i32⟩ : BufTy).Contents (Elt F) → (⟨S400000x1, .i32⟩ : BufTy).Contents (Elt F)),
    binary main_v52 main_v82 main_v83 ((fun x i => Host.gather gather_S200000x112_S400000x1_S400000x112_1_0_n_n_0_1_1112 x i) : (⟨S200000x112, .f32⟩ : BufTy).Contents (Elt F) → (⟨S400000x1, .i32⟩ : BufTy).Contents (Elt F) → (⟨S400000x112, .f32⟩ : BufTy).Contents (Elt F)),
    nary ![main_v76, main_v83, main_v69] main_v84 (fun u => concatenate S400000x480 1 [⟨S400000x112, u 0⟩, ⟨S400000x112, u 1⟩, ⟨S400000x256, u 2⟩] concatenates_S400000x112_S400000x112_S400000x256_S400000x480_d1) ]

/-- The remaining operations (24): the first affine layer, the rectifier, the second affine layer, and the
    average of the output with its gather along the pairing index. -/
abbrev opsPost : List (HloOp τ sig (Elt F)) :=
  [ binary main_v84 main_arg4 main_v85 ((fun l r => Host.dotGeneral dot_S400000x480_S480x240_S400000x240_1_0_0_1_n_n none l r) : (⟨S400000x480, .f32⟩ : BufTy).Contents (Elt F) → (⟨S480x240, .f32⟩ : BufTy).Contents (Elt F) → (⟨S400000x240, .f32⟩ : BufTy).Contents (Elt F)),
    unary main_arg5 main_v86 (broadcastInDim S1x240 ![1] bcast_S240_S1x240_1 : (⟨S240, .f32⟩ : BufTy).Contents (Elt F) → (⟨S1x240, .f32⟩ : BufTy).Contents (Elt F)),
    unary main_v86 main_v87 (broadcastInDim S400000x240 ![0, 1] bcast_S1x240_S400000x240_0_1 : (⟨S1x240, .f32⟩ : BufTy).Contents (Elt F) → (⟨S400000x240, .f32⟩ : BufTy).Contents (Elt F)),
    binary main_v85 main_v87 main_v88 (addf : (⟨S400000x240, .f32⟩ : BufTy).Contents (Elt F) → (⟨S400000x240, .f32⟩ : BufTy).Contents (Elt F) → (⟨S400000x240, .f32⟩ : BufTy).Contents (Elt F)),
    TRef.nullary main_call9.cst (constant S_ .f32 0x00000000#32),
    TRef.unary main_call9.cst main_call9.v0 (broadcastInDim S400000x240 ![] bcast_S_S400000x240),
    TRef.binary (.of main_v88 : StableHlo.TRef sig ⟨S400000x240, .f32⟩) main_call9.v0 main_call9.v1 maximumf,
    binary main_v89 main_arg6 main_v90 ((fun l r => Host.dotGeneral dot_S400000x240_S240x4_S400000x4_1_0_0_1_n_n none l r) : (⟨S400000x240, .f32⟩ : BufTy).Contents (Elt F) → (⟨S240x4, .f32⟩ : BufTy).Contents (Elt F) → (⟨S400000x4, .f32⟩ : BufTy).Contents (Elt F)),
    unary main_arg7 main_v91 (broadcastInDim S1x4 ![1] bcast_S4_S1x4_1 : (⟨S4, .f32⟩ : BufTy).Contents (Elt F) → (⟨S1x4, .f32⟩ : BufTy).Contents (Elt F)),
    unary main_v91 main_v92 (broadcastInDim S400000x4 ![0, 1] bcast_S1x4_S400000x4_0_1 : (⟨S1x4, .f32⟩ : BufTy).Contents (Elt F) → (⟨S400000x4, .f32⟩ : BufTy).Contents (Elt F)),
    binary main_v90 main_v92 main_v93 (addf : (⟨S400000x4, .f32⟩ : BufTy).Contents (Elt F) → (⟨S400000x4, .f32⟩ : BufTy).Contents (Elt F) → (⟨S400000x4, .f32⟩ : BufTy).Contents (Elt F)),
    nullary main_c_26 (constantI S_ 32 0#32),
    unary main_c_26 main_v94 (broadcastInDim S400000 ![] bcast_S_S400000 : (⟨S_, .i32⟩ : BufTy).Contents (Elt F) → (⟨S400000, .i32⟩ : BufTy).Contents (Elt F)),
    binary main_arg14 main_v94 main_v95 (cmpi .slt : (⟨S400000, .i32⟩ : BufTy).Contents (Elt F) → (⟨S400000, .i32⟩ : BufTy).Contents (Elt F) → (⟨S400000, .i1⟩ : BufTy).Contents (Elt F)),
    nullary main_c_27 (constantI S_ 32 400000#32),
    unary main_c_27 main_v96 (broadcastInDim S400000 ![] bcast_S_S400000 : (⟨S_, .i32⟩ : BufTy).Contents (Elt F) → (⟨S400000, .i32⟩ : BufTy).Contents (Elt F)),
    binary main_arg14 main_v96 main_v97 (addi : (⟨S400000, .i32⟩ : BufTy).Contents (Elt F) → (⟨S400000, .i32⟩ : BufTy).Contents (Elt F) → (⟨S400000, .i32⟩ : BufTy).Contents (Elt F)),
    ternary main_v95 main_v97 main_arg14 main_v98 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v98 main_v99 (broadcastInDim S400000x1 ![0] bcast_S400000_S400000x1_0 : (⟨S400000, .i32⟩ : BufTy).Contents (Elt F) → (⟨S400000x1, .i32⟩ : BufTy).Contents (Elt F)),
    binary main_v93 main_v99 main_v100 ((fun x i => Host.gather gather_S400000x4_S400000x1_S400000x4_1_0_n_n_0_1_14 x i) : (⟨S400000x4, .f32⟩ : BufTy).Contents (Elt F) → (⟨S400000x1, .i32⟩ : BufTy).Contents (Elt F) → (⟨S400000x4, .f32⟩ : BufTy).Contents (Elt F)),
    binary main_v93 main_v100 main_v101 (addf : (⟨S400000x4, .f32⟩ : BufTy).Contents (Elt F) → (⟨S400000x4, .f32⟩ : BufTy).Contents (Elt F) → (⟨S400000x4, .f32⟩ : BufTy).Contents (Elt F)),
    nullary main_cst (constant S_ .f32 0x3F000000#32),
    unary main_cst main_v102 (broadcastInDim S400000x4 ![] bcast_S_S400000x4 : (⟨S_, .f32⟩ : BufTy).Contents (Elt F) → (⟨S400000x4, .f32⟩ : BufTy).Contents (Elt F)),
    binary main_v102 main_v101 main_v103 (mulf : (⟨S400000x4, .f32⟩ : BufTy).Contents (Elt F) → (⟨S400000x4, .f32⟩ : BufTy).Contents (Elt F) → (⟨S400000x4, .f32⟩ : BufTy).Contents (Elt F)) ]

/-- All of @main's operations, in program order. -/
abbrev ops : List (HloOp τ sig (Elt F)) := opsPre ++ opsPost

/-- The buffers the first segment writes, one per operation, in order. -/
abbrev wPre : List (Ref sig .tc) :=
  [ main_call0.call0.c.ref, main_call0.call0.v0.ref, main_call0.call0.v1.ref, main_v1, main_v2, main_call1.v0.ref, main_call1.v1.ref, main_call1.v2.ref, main_c, main_v4, main_c_0, main_v5, main_call2.call0.c.ref, main_call2.call0.v0.ref, main_call2.call0.v1.ref, main_c_1, main_v7, main_c_2, main_v8, main_v9, main_c_3, main_v10, main_v11, main_v12, main_v13, main_c_4, main_v14, main_v15, main_call3.call0.c.ref, main_call3.call0.v0.ref, main_call3.call0.v1.ref, main_c_5, main_v17, main_v18, main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.c_4.ref, main_call4.v14.ref, main_call4.v15.ref, main_v20, main_c_6, main_v21, main_v22, main_c_7, main_v23, main_v24, main_v25, main_v26, main_v27, main_v28, main_c_8, main_v29, main_v30, main_c_9, main_v31, main_v32, main_c_10, main_v33, main_v34, main_v35, main_v36, main_v37, main_c_11, main_v38, main_v39, main_c_12, main_v40, main_v41, main_v42, main_v43, main_v44, main_c_13, main_v45, main_v46, main_c_14, main_v47, main_v48, main_v49, main_v50, main_v51, main_v52, main_call5.v0.ref, main_call5.v1.ref, main_call5.v2.ref, main_c_15, main_v54, main_c_16, main_v55, main_call6.call0.c.ref, main_call6.call0.v0.ref, main_call6.call0.v1.ref, main_c_17, main_v57, main_c_18, main_v58, main_v59, main_c_19, main_v60, main_v61, main_v62, main_v63, main_c_20, main_v64, main_v65, main_call7.call0.c.ref, main_call7.call0.v0.ref, main_call7.call0.v1.ref, main_c_21, main_v67, main_v68, main_call8.c.ref, main_call8.v0.ref, main_call8.v1.ref, main_call8.c_0.ref, main_call8.v2.ref, main_call8.v3.ref, main_call8.call0.v0.ref, main_call8.v5.ref, main_call8.c_1.ref, main_call8.c_2.ref, main_call8.v6.ref, main_call8.v7.ref, main_call8.v8.ref, main_call8.v9.ref, main_call8.v10.ref, main_call8.v11.ref, main_call8.c_3.ref, main_call8.v12.ref, main_call8.v13.ref, main_call8.v14.ref, main_call8.cst.ref, main_call8.v15.ref, main_call8.v16.ref, main_c_22, main_v70, main_v71, main_c_23, main_v72, main_v73, main_v74, main_v75, main_v76, main_c_24, main_v77, main_v78, main_c_25, main_v79, main_v80, main_v81, main_v82, main_v83, main_v84 ]

/-- The buffers the second segment writes, one per operation, in order. -/
abbrev wPost : List (Ref sig .tc) :=
  [ main_v85, main_v86, main_v87, main_v88, main_call9.cst.ref, main_call9.v0.ref, main_call9.v1.ref, main_v90, main_v91, main_v92, main_v93, main_c_26, main_v94, main_v95, main_c_27, main_v96, main_v97, main_v98, main_v99, main_v100, main_v101, main_cst, main_v102, main_v103 ]

end Cert.ReferenceIdeal.RefRun

end
-- ==== Proof.RefRun.MainEq.lean ====
/- @main of the reference program is the straight line of its operations: unfolding each module-local
   function at its call and re-associating the sequencing leaves one chain of host steps on both sides. -/
import proofs.«138913_j79413945303068_1_alg».proof.Proof.RefRun.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- @main is the first segment run, then the second. -/
theorem main_eq_split (c : Dev nD) :
    main (F := F) c = ((seq opsPre : Prog (TpuEff nD τ sig (Elt F) _ .tc) PUnit) >>= fun _ => seq opsPost) := by
  simp only [main, main_part0, main_part1, main_part2, fn_cumsum_0.body, fn_cumsum.body, fn_roll_static.body, fn_cumsum_2.body, fn_cumsum_1.body, fn_cumsum_4.body, fn_cumsum_3.body, fn_where.body, fn_take.body, fn_cumsum_6.body, fn_cumsum_5.body, fn_where_8.body, fn_take_7.body, fn_relu.body, seq, bind_assoc, pure_bind]

/-- @main is the straight line of all its operations. -/
theorem main_eq (c : Dev nD) : main (F := F) c = seq ops :=
  (main_eq_split c).trans (seq_append opsPre opsPost).symm

end Cert.ReferenceIdeal.RefRun

end
-- ==== Proof.RefRun.Sub.lean ====
/- Side conditions of the run, operation by operation: every operation touches TensorCore buffers only,
   determines its results, and writes exactly one buffer — the one listed for it in `wPre` / `wPost`. A buffer
   outside those lists (an argument of @main) therefore holds at the end what it held at the start. -/
import proofs.«138913_j79413945303068_1_alg».proof.Proof.RefRun.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
theorem opsPre_sub : (opsPre : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., binary_bufs_sub .., nullary_bufs_sub .., unary_bufs_sub .., nullary_bufs_sub .., ternary_bufs_sub ..,
    nullary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., nullary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nary_bufs_sub .., unary_bufs_sub .., unary_bufs_sub .., binary_bufs_sub .., nullary_bufs_sub ..,
    unary_bufs_sub .., nullary_bufs_sub .., ternary_bufs_sub .., nullary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub ..⟩

set_option maxRecDepth 65536 in
theorem opsPost_sub : (opsPost : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..⟩

/-- Every operation of @main touches TensorCore buffers only. -/
theorem ops_sub : (ops : List (HloOp τ sig (Elt F))).Forall fun op => op.bufs ⊆ tcRefs τ sig :=
  List.forall_iff_forall_mem.mpr fun op h =>
    (List.mem_append.mp h).elim (List.forall_iff_forall_mem.mp opsPre_sub op) (List.forall_iff_forall_mem.mp opsPost_sub op)

set_option maxRecDepth 65536 in
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl⟩

set_option maxRecDepth 65536 in
theorem opsPost_fresh : (opsPost : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩

/-- Every operation of @main determines its results. -/
theorem ops_fresh : ∀ op ∈ (ops : List (HloOp τ sig (Elt F))), op.fresh = ∅ := fun op h =>
  (List.mem_append.mp h).elim (List.forall_iff_forall_mem.mp opsPre_fresh op) (List.forall_iff_forall_mem.mp opsPost_fresh op)

/-- A single written buffer that is listed lies in the listed set. -/
theorem single_sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 65536 in
theorem opsPre_writes :
    (opsPre : List (HloOp τ sig (Elt F))).Forall fun op => op.writes ⊆ (wPre.map (Proc.devRef (τ := τ) .tc)).toFinset :=
  ⟨single_sub_of_mem (main_call0.call0.c.ref) (by decide), single_sub_of_mem (main_call0.call0.v0.ref) (by decide), single_sub_of_mem (main_call0.call0.v1.ref) (by decide),
    single_sub_of_mem main_v1 (by decide), single_sub_of_mem main_v2 (by decide), single_sub_of_mem (main_call1.v0.ref) (by decide),
    single_sub_of_mem (main_call1.v1.ref) (by decide), single_sub_of_mem (main_call1.v2.ref) (by decide), single_sub_of_mem main_c (by decide),
    single_sub_of_mem main_v4 (by decide), single_sub_of_mem main_c_0 (by decide), single_sub_of_mem main_v5 (by decide),
    single_sub_of_mem (main_call2.call0.c.ref) (by decide), single_sub_of_mem (main_call2.call0.v0.ref) (by decide), single_sub_of_mem (main_call2.call0.v1.ref) (by decide),
    single_sub_of_mem main_c_1 (by decide), single_sub_of_mem main_v7 (by decide), single_sub_of_mem main_c_2 (by decide),
    single_sub_of_mem main_v8 (by decide), single_sub_of_mem main_v9 (by decide), single_sub_of_mem main_c_3 (by decide),
    single_sub_of_mem main_v10 (by decide), single_sub_of_mem main_v11 (by decide), single_sub_of_mem main_v12 (by decide),
    single_sub_of_mem main_v13 (by decide), single_sub_of_mem main_c_4 (by decide), single_sub_of_mem main_v14 (by decide),
    single_sub_of_mem main_v15 (by decide), single_sub_of_mem (main_call3.call0.c.ref) (by decide), single_sub_of_mem (main_call3.call0.v0.ref) (by decide),
    single_sub_of_mem (main_call3.call0.v1.ref) (by decide), single_sub_of_mem main_c_5 (by decide), single_sub_of_mem main_v17 (by decide),
    single_sub_of_mem main_v18 (by decide), single_sub_of_mem (main_call4.c.ref) (by decide), single_sub_of_mem (main_call4.v0.ref) (by decide),
    single_sub_of_mem (main_call4.v1.ref) (by decide), single_sub_of_mem (main_call4.c_0.ref) (by decide), single_sub_of_mem (main_call4.v2.ref) (by decide),
    single_sub_of_mem (main_call4.v3.ref) (by decide), single_sub_of_mem (main_call4.call0.v0.ref) (by decide), single_sub_of_mem (main_call4.v5.ref) (by decide),
    single_sub_of_mem (main_call4.c_1.ref) (by decide), single_sub_of_mem (main_call4.c_2.ref) (by decide), single_sub_of_mem (main_call4.v6.ref) (by decide),
    single_sub_of_mem (main_call4.v7.ref) (by decide), single_sub_of_mem (main_call4.v8.ref) (by decide), single_sub_of_mem (main_call4.v9.ref) (by decide),
    single_sub_of_mem (main_call4.v10.ref) (by decide), single_sub_of_mem (main_call4.v11.ref) (by decide), single_sub_of_mem (main_call4.c_3.ref) (by decide),
    single_sub_of_mem (main_call4.v12.ref) (by decide), single_sub_of_mem (main_call4.v13.ref) (by decide), single_sub_of_mem (main_call4.c_4.ref) (by decide),
    single_sub_of_mem (main_call4.v14.ref) (by decide), single_sub_of_mem (main_call4.v15.ref) (by decide), single_sub_of_mem main_v20 (by decide),
    single_sub_of_mem main_c_6 (by decide), single_sub_of_mem main_v21 (by decide), single_sub_of_mem main_v22 (by decide),
    single_sub_of_mem main_c_7 (by decide), single_sub_of_mem main_v23 (by decide), single_sub_of_mem main_v24 (by decide),
    single_sub_of_mem main_v25 (by decide), single_sub_of_mem main_v26 (by decide), single_sub_of_mem main_v27 (by decide),
    single_sub_of_mem main_v28 (by decide), single_sub_of_mem main_c_8 (by decide), single_sub_of_mem main_v29 (by decide),
    single_sub_of_mem main_v30 (by decide), single_sub_of_mem main_c_9 (by decide), single_sub_of_mem main_v31 (by decide),
    single_sub_of_mem main_v32 (by decide), single_sub_of_mem main_c_10 (by decide), single_sub_of_mem main_v33 (by decide),
    single_sub_of_mem main_v34 (by decide), single_sub_of_mem main_v35 (by decide), single_sub_of_mem main_v36 (by decide),
    single_sub_of_mem main_v37 (by decide), single_sub_of_mem main_c_11 (by decide), single_sub_of_mem main_v38 (by decide),
    single_sub_of_mem main_v39 (by decide), single_sub_of_mem main_c_12 (by decide), single_sub_of_mem main_v40 (by decide),
    single_sub_of_mem main_v41 (by decide), single_sub_of_mem main_v42 (by decide), single_sub_of_mem main_v43 (by decide),
    single_sub_of_mem main_v44 (by decide), single_sub_of_mem main_c_13 (by decide), single_sub_of_mem main_v45 (by decide),
    single_sub_of_mem main_v46 (by decide), single_sub_of_mem main_c_14 (by decide), single_sub_of_mem main_v47 (by decide),
    single_sub_of_mem main_v48 (by decide), single_sub_of_mem main_v49 (by decide), single_sub_of_mem main_v50 (by decide),
    single_sub_of_mem main_v51 (by decide), single_sub_of_mem main_v52 (by decide), single_sub_of_mem (main_call5.v0.ref) (by decide),
    single_sub_of_mem (main_call5.v1.ref) (by decide), single_sub_of_mem (main_call5.v2.ref) (by decide), single_sub_of_mem main_c_15 (by decide),
    single_sub_of_mem main_v54 (by decide), single_sub_of_mem main_c_16 (by decide), single_sub_of_mem main_v55 (by decide),
    single_sub_of_mem (main_call6.call0.c.ref) (by decide), single_sub_of_mem (main_call6.call0.v0.ref) (by decide), single_sub_of_mem (main_call6.call0.v1.ref) (by decide),
    single_sub_of_mem main_c_17 (by decide), single_sub_of_mem main_v57 (by decide), single_sub_of_mem main_c_18 (by decide),
    single_sub_of_mem main_v58 (by decide), single_sub_of_mem main_v59 (by decide), single_sub_of_mem main_c_19 (by decide),
    single_sub_of_mem main_v60 (by decide), single_sub_of_mem main_v61 (by decide), single_sub_of_mem main_v62 (by decide),
    single_sub_of_mem main_v63 (by decide), single_sub_of_mem main_c_20 (by decide), single_sub_of_mem main_v64 (by decide),
    single_sub_of_mem main_v65 (by decide), single_sub_of_mem (main_call7.call0.c.ref) (by decide), single_sub_of_mem (main_call7.call0.v0.ref) (by decide),
    single_sub_of_mem (main_call7.call0.v1.ref) (by decide), single_sub_of_mem main_c_21 (by decide), single_sub_of_mem main_v67 (by decide),
    single_sub_of_mem main_v68 (by decide), single_sub_of_mem (main_call8.c.ref) (by decide), single_sub_of_mem (main_call8.v0.ref) (by decide),
    single_sub_of_mem (main_call8.v1.ref) (by decide), single_sub_of_mem (main_call8.c_0.ref) (by decide), single_sub_of_mem (main_call8.v2.ref) (by decide),
    single_sub_of_mem (main_call8.v3.ref) (by decide), single_sub_of_mem (main_call8.call0.v0.ref) (by decide), single_sub_of_mem (main_call8.v5.ref) (by decide),
    single_sub_of_mem (main_call8.c_1.ref) (by decide), single_sub_of_mem (main_call8.c_2.ref) (by decide), single_sub_of_mem (main_call8.v6.ref) (by decide),
    single_sub_of_mem (main_call8.v7.ref) (by decide), single_sub_of_mem (main_call8.v8.ref) (by decide), single_sub_of_mem (main_call8.v9.ref) (by decide),
    single_sub_of_mem (main_call8.v10.ref) (by decide), single_sub_of_mem (main_call8.v11.ref) (by decide), single_sub_of_mem (main_call8.c_3.ref) (by decide),
    single_sub_of_mem (main_call8.v12.ref) (by decide), single_sub_of_mem (main_call8.v13.ref) (by decide), single_sub_of_mem (main_call8.v14.ref) (by decide),
    single_sub_of_mem (main_call8.cst.ref) (by decide), single_sub_of_mem (main_call8.v15.ref) (by decide), single_sub_of_mem (main_call8.v16.ref) (by decide),
    single_sub_of_mem main_c_22 (by decide), single_sub_of_mem main_v70 (by decide), single_sub_of_mem main_v71 (by decide),
    single_sub_of_mem main_c_23 (by decide), single_sub_of_mem main_v72 (by decide), single_sub_of_mem main_v73 (by decide),
    single_sub_of_mem main_v74 (by decide), single_sub_of_mem main_v75 (by decide), single_sub_of_mem main_v76 (by decide),
    single_sub_of_mem main_c_24 (by decide), single_sub_of_mem main_v77 (by decide), single_sub_of_mem main_v78 (by decide),
    single_sub_of_mem main_c_25 (by decide), single_sub_of_mem main_v79 (by decide), single_sub_of_mem main_v80 (by decide),
    single_sub_of_mem main_v81 (by decide), single_sub_of_mem main_v82 (by decide), single_sub_of_mem main_v83 (by decide),
    single_sub_of_mem main_v84 (by decide)⟩

set_option maxRecDepth 65536 in
theorem opsPost_writes :
    (opsPost : List (HloOp τ sig (Elt F))).Forall fun op => op.writes ⊆ (wPost.map (Proc.devRef (τ := τ) .tc)).toFinset :=
  ⟨single_sub_of_mem main_v85 (by decide), single_sub_of_mem main_v86 (by decide), single_sub_of_mem main_v87 (by decide),
    single_sub_of_mem main_v88 (by decide), single_sub_of_mem (main_call9.cst.ref) (by decide), single_sub_of_mem (main_call9.v0.ref) (by decide),
    single_sub_of_mem (main_call9.v1.ref) (by decide), single_sub_of_mem main_v90 (by decide), single_sub_of_mem main_v91 (by decide),
    single_sub_of_mem main_v92 (by decide), single_sub_of_mem main_v93 (by decide), single_sub_of_mem main_c_26 (by decide),
    single_sub_of_mem main_v94 (by decide), single_sub_of_mem main_v95 (by decide), single_sub_of_mem main_c_27 (by decide),
    single_sub_of_mem main_v96 (by decide), single_sub_of_mem main_v97 (by decide), single_sub_of_mem main_v98 (by decide),
    single_sub_of_mem main_v99 (by decide), single_sub_of_mem main_v100 (by decide), single_sub_of_mem main_v101 (by decide),
    single_sub_of_mem main_cst (by decide), single_sub_of_mem main_v102 (by decide), single_sub_of_mem main_v103 (by decide)⟩

/-- A buffer the first segment does not write keeps its contents through it. -/
theorem keptPre (V : Valuation τ sig (Elt F)) {r : Ref sig .tc} (hr : r ∉ wPre) :
    after opsPre V (Proc.devRef .tc r) = V (Proc.devRef .tc r) :=
  after_of_writes_sub opsPre V opsPre_writes hr

/-- A buffer the second segment does not write keeps its contents through it. -/
theorem keptPost (V : Valuation τ sig (Elt F)) {r : Ref sig .tc} (hr : r ∉ wPost) :
    after opsPost V (Proc.devRef .tc r) = V (Proc.devRef .tc r) :=
  after_of_writes_sub opsPost V opsPost_writes hr

end Cert.ReferenceIdeal.RefRun

end
-- ==== Proof.RefRun.lean ====
/- The run of the reference program. From any memory with zero counters every weakly fair execution of @main
   terminates, and each TensorCore buffer ends at the fold of the operations over its launch contents. No operation
   writes an argument, so the arguments end as launched; and the result is a closed function of the feature matrix
   (the contents of the buffer the first segment ends by writing) and of five arguments: the two weight matrices,
   the two bias vectors and the pairing index. -/
import proofs.«138913_j79413945303068_1_alg».proof.Proof.RefRun.Ops
import proofs.«138913_j79413945303068_1_alg».proof.Proof.RefRun.MainEq
import proofs.«138913_j79413945303068_1_alg».proof.Proof.RefRun.Sub
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates, and every TensorCore buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-- A buffer neither segment writes keeps its contents through the whole line. -/
theorem kept (V : Valuation τ sig (Elt F)) {r : Ref sig .tc} (h₁ : r ∉ wPre) (h₂ : r ∉ wPost) :
    after ops V (Proc.devRef .tc r) = V (Proc.devRef .tc r) :=
  (congrFun (after_append opsPre opsPost V) _).trans ((keptPost _ h₂).trans (keptPre V h₁))

theorem kept_main_arg0 (m : (ℓ : Loc nD τ sig) → Buf (Elt F) ℓ) (d : Dev nD) :
    StableHlo.after ops (StableHlo.launchContents m d) (Proc.devRef .tc main_arg0) = m ((d.tc : Thread nD τ).loc main_arg0) :=
  kept (F := F) (StableHlo.launchContents m d) (by decide) (by decide)
theorem kept_main_arg1 (m : (ℓ : Loc nD τ sig) → Buf (Elt F) ℓ) (d : Dev nD) :
    StableHlo.after ops (StableHlo.launchContents m d) (Proc.devRef .tc main_arg1) = m ((d.tc : Thread nD τ).loc main_arg1) :=
  kept (F := F) (StableHlo.launchContents m d) (by decide) (by decide)
theorem kept_main_arg2 (m : (ℓ : Loc nD τ sig) → Buf (Elt F) ℓ) (d : Dev nD) :
    StableHlo.after ops (StableHlo.launchContents m d) (Proc.devRef .tc main_arg2) = m ((d.tc : Thread nD τ).loc main_arg2) :=
  kept (F := F) (StableHlo.launchContents m d) (by decide) (by decide)
theorem kept_main_arg3 (m : (ℓ : Loc nD τ sig) → Buf (Elt F) ℓ) (d : Dev nD) :
    StableHlo.after ops (StableHlo.launchContents m d) (Proc.devRef .tc main_arg3) = m ((d.tc : Thread nD τ).loc main_arg3) :=
  kept (F := F) (StableHlo.launchContents m d) (by decide) (by decide)
theorem kept_main_arg4 (m : (ℓ : Loc nD τ sig) → Buf (Elt F) ℓ) (d : Dev nD) :
    StableHlo.after ops (StableHlo.launchContents m d) (Proc.devRef .tc main_arg4) = m ((d.tc : Thread nD τ).loc main_arg4) :=
  kept (F := F) (StableHlo.launchContents m d) (by decide) (by decide)
theorem kept_main_arg5 (m : (ℓ : Loc nD τ sig) → Buf (Elt F) ℓ) (d : Dev nD) :
    StableHlo.after ops (StableHlo.launchContents m d) (Proc.devRef .tc main_arg5) = m ((d.tc : Thread nD τ).loc main_arg5) :=
  kept (F := F) (StableHlo.launchContents m d) (by decide) (by decide)
theorem kept_main_arg6 (m : (ℓ : Loc nD τ sig) → Buf (Elt F) ℓ) (d : Dev nD) :
    StableHlo.after ops (StableHlo.launchContents m d) (Proc.devRef .tc main_arg6) = m ((d.tc : Thread nD τ).loc main_arg6) :=
  kept (F := F) (StableHlo.launchContents m d) (by decide) (by decide)
theorem kept_main_arg7 (m : (ℓ : Loc nD τ sig) → Buf (Elt F) ℓ) (d : Dev nD) :
    StableHlo.after ops (StableHlo.launchContents m d) (Proc.devRef .tc main_arg7) = m ((d.tc : Thread nD τ).loc main_arg7) :=
  kept (F := F) (StableHlo.launchContents m d) (by decide) (by decide)
theorem kept_main_arg8 (m : (ℓ : Loc nD τ sig) → Buf (Elt F) ℓ) (d : Dev nD) :
    StableHlo.after ops (StableHlo.launchContents m d) (Proc.devRef .tc main_arg8) = m ((d.tc : Thread nD τ).loc main_arg8) :=
  kept (F := F) (StableHlo.launchContents m d) (by decide) (by decide)
theorem kept_main_arg9 (m : (ℓ : Loc nD τ sig) → Buf (Elt F) ℓ) (d : Dev nD) :
    StableHlo.after ops (StableHlo.launchContents m d) (Proc.devRef .tc main_arg9) = m ((d.tc : Thread nD τ).loc main_arg9) :=
  kept (F := F) (StableHlo.launchContents m d) (by decide) (by decide)
theorem kept_main_arg10 (m : (ℓ : Loc nD τ sig) → Buf (Elt F) ℓ) (d : Dev nD) :
    StableHlo.after ops (StableHlo.launchContents m d) (Proc.devRef .tc main_arg10) = m ((d.tc : Thread nD τ).loc main_arg10) :=
  kept (F := F) (StableHlo.launchContents m d) (by decide) (by decide)
theorem kept_main_arg11 (m : (ℓ : Loc nD τ sig) → Buf (Elt F) ℓ) (d : Dev nD) :
    StableHlo.after ops (StableHlo.launchContents m d) (Proc.devRef .tc main_arg11) = m ((d.tc : Thread nD τ).loc main_arg11) :=
  kept (F := F) (StableHlo.launchContents m d) (by decide) (by decide)
theorem kept_main_arg12 (m : (ℓ : Loc nD τ sig) → Buf (Elt F) ℓ) (d : Dev nD) :
    StableHlo.after ops (StableHlo.launchContents m d) (Proc.devRef .tc main_arg12) = m ((d.tc : Thread nD τ).loc main_arg12) :=
  kept (F := F) (StableHlo.launchContents m d) (by decide) (by decide)
theorem kept_main_arg13 (m : (ℓ : Loc nD τ sig) → Buf (Elt F) ℓ) (d : Dev nD) :
    StableHlo.after ops (StableHlo.launchContents m d) (Proc.devRef .tc main_arg13) = m ((d.tc : Thread nD τ).loc main_arg13) :=
  kept (F := F) (StableHlo.launchContents m d) (by decide) (by decide)
theorem kept_main_arg14 (m : (ℓ : Loc nD τ sig) → Buf (Elt F) ℓ) (d : Dev nD) :
    StableHlo.after ops (StableHlo.launchContents m d) (Proc.devRef .tc main_arg14) = m ((d.tc : Thread nD τ).loc main_arg14) :=
  kept (F := F) (StableHlo.launchContents m d) (by decide) (by decide)

/-- @main runs and its fifteen arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c)⟩)
    (run m ρ)

/-! ## The result as a function of the feature matrix -/

/-- The two-layer perceptron: `relu (x · w1 + b1) · w2 + b2`, the biases broadcast along the rows. -/
def refMlp (x : FVec F S400000x480 .f32) (w1 : FVec F S480x240 .f32) (b1 : FVec F S240 .f32) (w2 : FVec F S240x4 .f32)
    (b2 : FVec F S4 .f32) : FVec F S400000x4 .f32 :=
  addf
    (Host.dotGeneral dot_S400000x240_S240x4_S400000x4_1_0_0_1_n_n none
      (maximumf
        (addf (Host.dotGeneral dot_S400000x480_S480x240_S400000x240_1_0_0_1_n_n none x w1)
          (broadcastInDim S400000x240 ![0, 1] bcast_S1x240_S400000x240_0_1 (broadcastInDim S1x240 ![1] bcast_S240_S1x240_1 b1)))
        (broadcastInDim S400000x240 ![] bcast_S_S400000x240 (constant S_ .f32 0x00000000#32)))
      w2)
    (broadcastInDim S400000x4 ![0, 1] bcast_S1x4_S400000x4_0_1 (broadcastInDim S1x4 ![1] bcast_S4_S1x4_1 b2))

/-- The symmetrization: half of `y` plus `y` gathered along rows at the pairing index, a negative index counted
    from the end. -/
def tail (y : FVec F S400000x4 .f32) (a14 : IVec S400000 32) : FVec F S400000x4 .f32 :=
  mulf (broadcastInDim S400000x4 ![] bcast_S_S400000x4 (constant S_ .f32 0x3F000000#32))
    (addf y
      (Host.gather gather_S400000x4_S400000x1_S400000x4_1_0_n_n_0_1_14 y
        (broadcastInDim S400000x1 ![0] bcast_S400000_S400000x1_0
          (select (cmpi .slt a14 (broadcastInDim S400000 ![] bcast_S_S400000 (constantI S_ 32 0#32)))
            (addi a14 (broadcastInDim S400000 ![] bcast_S_S400000 (constantI S_ 32 400000#32))) a14))))

/-- What the second segment computes from the feature matrix and the five arguments it reads. -/
def refPost (x : FVec F S400000x480 .f32) (w1 : FVec F S480x240 .f32) (b1 : FVec F S240 .f32) (w2 : FVec F S240x4 .f32)
    (b2 : FVec F S4 .f32) (a14 : IVec S400000 32) : FVec F S400000x4 .f32 :=
  tail (refMlp x w1 b1 w2 b2) a14

set_option maxRecDepth 65536 in
set_option maxHeartbeats 4000000 in
/-- The second segment, from any contents: its last buffer holds `refPost` of what it reads. -/
theorem post_of (V : Valuation τ sig (Elt F)) :
    after opsPost V (Proc.devRef .tc main_v103)
      = refPost (V (Proc.devRef .tc main_v84)) (V (Proc.devRef .tc main_arg4)) (V (Proc.devRef .tc main_arg5))
          (V (Proc.devRef .tc main_arg6)) (V (Proc.devRef .tc main_arg7)) (V (Proc.devRef .tc main_arg14)) := by
  after_results <;> rfl

/-- The result of @main: `refPost` of the feature matrix — the first segment's fold at its last buffer, kept closed —
    and of the launch contents of the five arguments. -/
theorem post_eq (m : (ℓ : Loc nD τ sig) → Buf (Elt F) ℓ) (d : Dev nD) :
    StableHlo.after ops (StableHlo.launchContents m d) (Proc.devRef .tc main_v103)
      = refPost (StableHlo.after opsPre (StableHlo.launchContents m d) (Proc.devRef .tc main_v84))
          (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg14)) := by
  have h4 := keptPre (F := F) (StableHlo.launchContents m d) (r := main_arg4) (by decide)
  have h5 := keptPre (F := F) (StableHlo.launchContents m d) (r := main_arg5) (by decide)
  have h6 := keptPre (F := F) (StableHlo.launchContents m d) (r := main_arg6) (by decide)
  have h7 := keptPre (F := F) (StableHlo.launchContents m d) (r := main_arg7) (by decide)
  have h14 := keptPre (F := F) (StableHlo.launchContents m d) (r := main_arg14) (by decide)
  refine (congrFun (after_append opsPre opsPost _) _).trans ((post_of _).trans ?_)
  rw [h4, h5, h6, h7, h14]

end Cert.ReferenceIdeal.RefRun

end
-- ==== Proof.Mlp.lean ====
/-
  One row of a two-layer perceptron over the extended reals: a row `x` of 480 entries is sent through a
  480 × 240 matrix and a bias, cut below at zero, sent through a 240 × 4 matrix and a second bias.
  Entry `q` of the result is

      (∑ j, max ((∑ k, x k * W1 k j) + b1 j) 0 * W2 j q) + b2 q.

  Both programs of this certificate compute this function of a row of their input, each in its own
  spelling; the two are compared through it. Nothing here uses more of the extended reals than that the
  expression is written once: no distributivity and no cancellation, which fail at the infinities.
-/
import Idealize.ShloMosaic.PureOps.Ideal

open scoped BigOperators

namespace Cert.Mlp

/-- Entry `q` of the perceptron's value on the row `x`: first layer `W1`, `b1`, the cut at zero
    (`max · 0`), second layer `W2`, `b2`. Products are written entry-times-weight, the bias is the
    right summand, and zero is the right operand of `max`. -/
noncomputable def row (x : Fin 480 → EReal) (W1 : Fin 480 → Fin 240 → EReal) (b1 : Fin 240 → EReal)
    (W2 : Fin 240 → Fin 4 → EReal) (b2 : Fin 4 → EReal) (q : Fin 4) : EReal :=
  (∑ j : Fin 240, max ((∑ k : Fin 480, x k * W1 k j) + b1 j) 0 * W2 j q) + b2 q

end Cert.Mlp
-- ==== Proof.KernelPay.lean ====
/-
  The kernel body's payload, read at one entry of its 5000 × 4 block at the ideal values, is the two-layer
  perceptron `Cert.Mlp.row` of the matching row of the input block.

  The payload is  (relu (x · W1 + b1)) · W2 + b2  spelt in the kernel's operations: two matrix products, each
  accumulated into a zero splat; each bias cast to one row and broadcast down the rows; the cut at zero a
  maximum against a zero splat; a change of float format before the second product; and shape casts of the
  operands to their own shapes. At the ideal values a change of format and a cast to the same shape are the
  identity, a product into a zero accumulator is the plain sum over the contracted coordinate, and the zero
  pattern is the extended real `0`; the payload's entry is then literally `Cert.Mlp.row`: no law of
  arithmetic is used beyond `0 + s = s` inside the library's reading of the product.
-/
import proofs.«138913_j79413945303068_1_alg».proof.Proof.Gen.KernelIdeal.Skeleton
import proofs.«138913_j79413945303068_1_alg».proof.Proof.Mlp
import Idealize.ShloMosaic.Lib.StackMember

open Idealize.ShloMosaic Idealize.ShloMosaic.ValueIdx
open scoped BigOperators

namespace Cert.KernelIdeal.Pay

open Cert.KernelIdeal

/-- A product of an m × k by a k × n matrix accumulated into a zero splat, read at the entry (a, b): the sum
    over the contracted coordinate of the products of the entries. The dimension numbers are any record equal
    to the plain ones (contract the left operand's columns with the right operand's rows, no batch axis). -/
theorem matmul_plain_zero_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂)
    (a : Fin m) (b : Fin n) :
    matmul D none A B (constant ⟨2, ![m, n]⟩ .f32 0x00000000#32) (ix2 a b) = ∑ c : Fin k, A (ix2 a c) * B (ix2 c b) := by
  subst hD
  rw [matmul_zero_eq_dotGeneral]
  exact StackMember.dotGeneral_plain_apply none A B a b

/-- A vector of n entries cast to one row and broadcast down m rows, read at (r, t), is the vector at t. -/
theorem bias_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (t : Fin n) :
    broadcastTo ⟨2, ![m, n]⟩ (shapeCast ⟨2, ![1, n]⟩ x h1) hb (ix2 r t) = x (ix1 t) := by
  have e1 := broadcastTo_apply (shapeCast ⟨2, ![1, n]⟩ x h1) hb (ix2 r t) (ix2 (0 : Fin 1) t) (by
    intro a
    match a with
    | ⟨0, _⟩ => rfl
    | ⟨1, _⟩ =>
      show t.val = if n = 1 then 0 else t.val
      split
      · have := t.isLt; omega
      · rfl)
  have e2 := shapeCast_apply x h1 (ix2 (0 : Fin 1) t) (ix1 t) (by
    rw [Shape.rowMajor_val_two, Shape.rowMajor_val_one]; show t.val = 0 * n + t.val; omega)
  exact e1.trans e2

/-- THE PAYLOAD AT AN ENTRY: row `p`, column `q` of what the kernel body stores is the perceptron of row `p` of
    its input block. The outer product and bias are read first (the sum over the 240 hidden units plus the second
    bias), then, under the sum, the hidden unit `j`: the first product and bias under the maximum with zero. -/
theorem pay_apply (v0 : Vec Ideal Cert.KernelIdeal.S5000x480 .bf16) (v2 : Vec Ideal Cert.KernelIdeal.S480x240 .bf16)
    (v5 : Vec Ideal Cert.KernelIdeal.S240 .f32) (v12 : Vec Ideal Cert.KernelIdeal.S240x4 .bf16)
    (v15 : Vec Ideal Cert.KernelIdeal.S4 .f32) (p : Fin 5000) (q : Fin 4) :
    Cert.KernelIdeal.Gen.k0_pay1 (F := Ideal) v0 v2 v5 v12 v15 (ValueIdx.ix2 p q)
      = Cert.Mlp.row (fun k => v0 (ValueIdx.ix2 p k)) (fun k j => v2 (ValueIdx.ix2 k j)) (fun j => v5 (ValueIdx.ix1 j))
          (fun j q' => v12 (ValueIdx.ix2 j q')) (fun q' => v15 (ValueIdx.ix1 q')) q := by
  unfold Gen.k0_pay1 Cert.Mlp.row
  refine (congrArg₂ (· + ·) (matmul_plain_zero_apply (φ₁ := .bf16) (φ₂ := .bf16) _ rfl _ _ p q)
    (bias_apply v15 _ _ p q)).trans ?_
  refine congrArg (· + v15 (ix1 q)) (Finset.sum_congr rfl fun j _ => ?_)
  rw [shapeCast_self v12, shapeCast_self v0, shapeCast_self v2]
  refine congrArg (· * v12 (ix2 j q)) ?_
  show max (matmul _ none _ _ _ (ix2 p j) + broadcastTo _ _ _ (ix2 p j)) (Ideal.ofBits .f32 0x00000000#32) = _
  refine (congrArg₂ (fun a b => max (a + b) (Ideal.ofBits .f32 0x00000000#32))
    (matmul_plain_zero_apply (φ₁ := .bf16) (φ₂ := .bf16) _ rfl v0 v2 p j) (bias_apply v5 _ _ p j)).trans ?_
  rw [Ideal.ofBits_zero_f32]

end Cert.KernelIdeal.Pay
-- ==== Proof.KIValue.lean ====
/-
  What the idealized kernel program's result array holds. Grid point t writes back rows 5000·t … 5000·t + 4999 of
  the logits, and row i of the logits depends on row i of the edge features only: entry (i, q) is the two-layer
  perceptron of feature row i — a sum over the 480 features into each of 240 hidden units, the bias, the positive
  part, a sum over the hidden units, the second bias. So the 80 blocks are the restrictions of ONE function of the
  arrays the region finds, and they tile the 400000 rows: the logits array ends at that function. The result of
  @main is the host tail (half the sum of the logits and their rows gathered at the reversed edge) of it.
-/
import proofs.«138913_j79413945303068_1_alg».proof.Proof.KIFrame
import proofs.«138913_j79413945303068_1_alg».proof.Proof.KernelPay
import proofs.«138913_j79413945303068_1_alg».proof.Proof.Mlp
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The logits as one function of the feature rows, the two weight matrices and the two bias rows: entry (i, q) is
    the perceptron of feature row i at output q. -/
def logits (X : S400000x480.Idx → Elt Ideal .bf16) (W1 : S480x240.Idx → Elt Ideal .bf16) (b1 : S240.Idx → Elt Ideal .f32)
    (W2 : S240x4.Idx → Elt Ideal .bf16) (b2 : S4.Idx → Elt Ideal .f32) : S400000x4.Idx → Elt Ideal .f32 := fun j =>
  Cert.Mlp.row (fun k : Fin 480 => X (ix2 (show Fin 400000 from j 0) k)) (fun (k : Fin 480) (h : Fin 240) => W1 (ix2 k h)) (fun h : Fin 240 => b1 (ix1 h))
    (fun (h : Fin 240) (q : Fin 4) => W2 (ix2 h q)) (fun q : Fin 4 => b2 (ix1 q)) (show Fin 4 from j 1)

/-- The perceptron of a row depends on its arguments pointwise. -/
theorem row_congr {x x' : Fin 480 → EReal} {A A' : Fin 480 → Fin 240 → EReal} {a a' : Fin 240 → EReal} {B B' : Fin 240 → Fin 4 → EReal}
    {b b' : Fin 4 → EReal} {q q' : Fin 4} (hx : ∀ k, x k = x' k) (hA : ∀ k h, A k h = A' k h) (ha : ∀ h, a h = a' h)
    (hB : ∀ h q, B h q = B' h q) (hb : ∀ q, b q = b' q) (hq : q = q') :
    Cert.Mlp.row x A a B b q = Cert.Mlp.row x' A' a' B' b' q' := by
  obtain rfl : x = x' := funext hx
  obtain rfl : A = A' := funext fun k => funext (hA k)
  obtain rfl : a = a' := funext ha
  obtain rfl : B = B' := funext fun h => funext (hB h)
  obtain rfl : b = b' := funext hb
  subst hq; rfl

/-- The printed index maps over the 80 grid points: the feature block and the logits block move together along the
    rows, every other block index is zero, and the logits' row block is the point's number. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 79 :=
  (by decide +kernel : ∀ t : Fin grid0.N, _)

/-- Every block of 5000 rows is some point's. -/
theorem idx_onto : ∀ r : Fin 80, ∃ t : Fin cfg0.N, win0_5.index t = ![r.val, 0] :=
  (by decide +kernel : ∀ r : Fin 80, ∃ t : Fin grid0.N, win0_5.index t = ![r.val, 0])

/-- What point t writes back is block t of the logits of the arrays the region finds. -/
theorem flushed_eq (c : Dev nD) (t : Fin cfg0.N) :
    (dats m 0 c).flushed 5 t = ((cfg0.win 5).blk t).view.read (Elt Ideal)
      (logits (V m c main_v85) (V m c main_v86) (V m c main_arg5) (V m c main_v87) (V m c main_arg7)) := by
  show (cfg0.win 5).cut (grid0.coords t) ((dats m 0 c).after 5 t) = _
  rw [after5]
  unfold outBlk
  rw [View.canon_unit_zero zero2]
  simp only [View.ld_unit_zero (S := S5000x480) zero2, View.ld_unit_zero (S := S480x240) zero2, View.ld_unit_zero (S := S240) zero1,
    View.ld_unit_zero (S := S240x4) zero2, View.ld_unit_zero (S := S4) zero1]
  obtain ⟨e00, e01, e10, e11, e20, e30, e31, e40, e51, -⟩ := idx_facts t
  show (k0_pay1 (iblk m c 0 t) (iblk m c 1 t) (iblk m c 2 t) (iblk m c 3 t) (iblk m c 4 t) : S5000x4.Idx → Elt Ideal .f32)
    = fun j : S5000x4.Idx => logits (V m c main_v85) (V m c main_v86) (V m c main_arg5) (V m c main_v87) (V m c main_arg7) (((cfg0.win 5).blk t).view.emb j)
  funext j
  obtain ⟨p, q, rfl⟩ : ∃ (p : Fin 5000) (q : Fin 4), j = ix2 p q := ⟨j 0, j 1, eq_ix2 j⟩
  refine (Cert.KernelIdeal.Pay.pay_apply (iblk m c 0 t) (iblk m c 1 t) (iblk m c 2 t) (iblk m c 3 t) (iblk m c 4 t) p q).trans ?_
  unfold logits
  refine row_congr ?_ ?_ ?_ ?_ ?_ ?_
  · intro k
    show V m c main_v85 (((cfg0.win 0).blk t).view.emb (ix2 p k)) = V m c main_v85 (ix2 _ k)
    refine congrArg (V m c main_v85) ?_
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 480 + 1 * k.val = k.val; omega
  · intro k h
    show V m c main_v86 (((cfg0.win 1).blk t).view.emb (ix2 k h)) = V m c main_v86 (ix2 k h)
    refine congrArg (V m c main_v86) ?_
    funext a; apply Fin.ext
    match a with
    | ⟨0, _⟩ => show win0_1.index t (0 : Fin 2) * 480 + 1 * k.val = k.val; omega
    | ⟨1, _⟩ => show win0_1.index t (1 : Fin 2) * 240 + 1 * h.val = h.val; omega
  · intro h
    show V m c main_arg5 (((cfg0.win 2).blk t).view.emb (ix1 h)) = V m c main_arg5 (ix1 h)
    refine congrArg (V m c main_arg5) ?_
    funext a; apply Fin.ext
    match a with
    | ⟨0, _⟩ => show win0_2.index t (0 : Fin 1) * 240 + 1 * h.val = h.val; omega
  · intro h q'
    show V m c main_v87 (((cfg0.win 3).blk t).view.emb (ix2 h q')) = V m c main_v87 (ix2 h q')
    refine congrArg (V m c main_v87) ?_
    funext a; apply Fin.ext
    match a with
    | ⟨0, _⟩ => show win0_3.index t (0 : Fin 2) * 240 + 1 * h.val = h.val; omega
    | ⟨1, _⟩ => show win0_3.index t (1 : Fin 2) * 4 + 1 * q'.val = q'.val; omega
  · intro q'
    show V m c main_arg7 (((cfg0.win 4).blk t).view.emb (ix1 q')) = V m c main_arg7 (ix1 q')
    refine congrArg (V m c main_arg7) ?_
    funext a; apply Fin.ext
    match a with
    | ⟨0, _⟩ => show win0_4.index t (0 : Fin 1) * 4 + 1 * q'.val = q'.val; omega
  · apply Fin.ext
    show q.val = win0_5.index t (1 : Fin 2) * 4 + 1 * q.val
    omega

/-- An index of the logits array is in point t's block iff each coordinate is in the block's range on its axis. -/
theorem mem_blk (t : Fin cfg0.N) (i : S400000x4.Idx) :
    i ∈ ((cfg0.win 5).blk t).view.set ↔ ∀ a : Fin 2, win0_5.index t a * S5000x4.size a ≤ (i a).val ∧ (i a).val < win0_5.index t a * S5000x4.size a + S5000x4.size a := by
  show i ∈ ((View.whole main_v88).slice (win0_5.rect t)).set ↔ _
  rw [View.set_slice_whole, Rect.mem_set_unit]
  exact Iff.rfl

/-- The blocks tile the rows: row r is in the block of point r / 5000. -/
theorem cover (i : S400000x4.Idx) : ∃ t : Fin cfg0.N, (cfg0.win 5).flush t = true ∧ i ∈ ((cfg0.win 5).blk t).view.set := by
  have hi0 : (i 0).val < 400000 := idx2_lt0 i
  have hi1 : (i 1).val < 4 := idx2_lt1 i
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 4 ≤ (i 1).val ∧ (i 1).val < win0_5.index t (1 : Fin 2) * 4 + 4; omega

set_option backward.isDefEq.respectTransparency.types false in
/-- The logits array after the region. -/
theorem final (c : Dev nD) : (dats m 0 c).arrAt 5 cfg0.N
    = logits (V m c main_v85) (V m c main_v86) (V m c main_arg5) (V m c main_v87) (V m c main_arg7) :=
  (dats m 0 c).arrAt_eq_of_cover 5 _ (fun t _ => flushed_eq m c t) cover

end Cert.KernelIdeal.HandValue

end
-- ==== Proof.KITail.lean ====
/-
  The host tail of the program as one function, and the result of @main through it: the last buffer written is half
  the sum of the logits and the logits' rows gathered at the reversed edge.
-/
import proofs.«138913_j79413945303068_1_alg».proof.Proof.KIFrame
import Idealize.ShloMosaic.Lib.Pipeline.Value
import Idealize.ShloMosaic.Lib.ValueIdx
import Idealize.ShloMosaic.Lib.StableHlo.Run

set_option maxRecDepth 16384

noncomputable section

namespace Cert.KernelIdeal.HandTail

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The host tail as one function of the logits and the reversed-edge index: half the sum of the logits and their
    rows gathered at the reversed edge (a negative index first wrapped by the number of edges). -/
def tail (y : (⟨S400000x4, .f32⟩ : BufTy).Contents (Elt F)) (a14 : (⟨S400000, .i32⟩ : BufTy).Contents (Elt F)) : (⟨S400000x4, .f32⟩ : BufTy).Contents (Elt F) :=
  mulf (broadcastInDim S400000x4 ![] bcast_S_S400000x4 (constant (F := F) S_ .f32 0x3F000000#32))
    (addf y (Host.gather gather_S400000x4_S400000x1_S400000x4_1_0_n_n_0_1_14 y
      (broadcastInDim S400000x1 ![0] bcast_S400000_S400000x1_0
        (select (cmpi .slt a14 (broadcastInDim S400000 ![] bcast_S_S400000 (constantI S_ 32 0#32)))
          (addi a14 (broadcastInDim S400000 ![] bcast_S_S400000 (constantI S_ 32 400000#32))) a14))))

/-- The host tail's fold over any contents: its last buffer is `tail` of what the logits buffer and the reversed-edge
    argument hold. -/
theorem tail_of (W : Valuation τ sig (Elt F)) :
    StableHlo.after hostOps1 W (Proc.devRef .tc main_v98) = tail (W (Proc.devRef .tc main_v88)) (W (Proc.devRef .tc main_arg14)) := by
  simp only [hostOps1]
  after_results
  rfl

/-- The result of @main is the host tail of the logits array the region leaves and the reversed-edge argument. -/
theorem result_eq (c : Dev nD) :
    Pipeline.afterTail₀ cfgs (dats m) 0 (V0 m) postOps c main_v98
      = tail ((dats m 0 c).arrAt 5 cfg0.N) (m ((c : Thread nD τ).loc main_arg14)) := by
  unfold Pipeline.afterTail₀
  refine (tail_of _).trans ?_
  rw [Pipeline.withArrays_of_ne _ c (V0 m c) _ main_arg14 (by exact (by decide : ∀ w, Pipeline.arrRef spec0 w ≠ main_arg14))]
  rw [show V0 m c (Proc.devRef .tc main_arg14) = m ((c : Thread nD τ).loc main_arg14) from V_main_arg14 m c]
  exact congrArg (fun y => tail y _) (Pipeline.withArrays_arr spec0 launch0.win.arr_inj c _ _ 5)

end Cert.KernelIdeal.HandTail

end
-- ==== Proof.KIPre.lean ====
/-
  What the three changes of float format at the end of the host prefix wrote: the region's feature array is the
  concatenated feature rows, and its two weight arrays are the two weight arguments, each passed through the change
  of format (at the ideal instance the identity). Each is read off the fold of the host operations before the region.
-/
import proofs.«138913_j79413945303068_1_alg».proof.Proof.KIFrame
import Idealize.ShloMosaic.Lib.StableHlo.Run

set_option maxRecDepth 16384

noncomputable section

namespace Cert.KernelIdeal.HandPre

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The region's first weight array is the first weight argument through the change of format. -/
theorem V_v86 (c : Dev nD) : V m c main_v86 = truncf .bf16 (m ((c : Thread nD τ).loc main_arg4)) bitsLt_bf16_f32 := by
  dsimp only [V, V0, preOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp

set_option maxHeartbeats 4000000 in
/-- The region's second weight array is the second weight argument through the change of format. -/
theorem V_v87 (c : Dev nD) : V m c main_v87 = truncf .bf16 (m ((c : Thread nD τ).loc main_arg6)) bitsLt_bf16_f32 := by
  dsimp only [V, V0, preOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp

set_option maxHeartbeats 8000000 in
/-- The region's feature array is the concatenated feature rows through the change of format. -/
theorem V_v85 (c : Dev nD) : V m c main_v85 = truncf .bf16 (V m c main_v84) bitsLt_bf16_f32 := by
  dsimp only [V, V0, preOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp

end Cert.KernelIdeal.HandPre

end
-- ==== Proof.RefMlp.lean ====
/-
  The reference's host perceptron, read at one entry of its 400000 × 4 result at the ideal values, is the
  two-layer perceptron `Cert.Mlp.row` of the matching row of its input.

  `mlp` is the last part of the reference's host program, composed as one function of its five operands:
  the product with the first weight matrix (`dot_general`), the first bias broadcast to one row and that row
  down the rows, their sum, the cut at zero (a maximum against a broadcast zero constant, the body of the
  reference's `relu`), the product with the second weight matrix, the second bias broadcast the same way, and
  the sum. At the ideal values the host's product is the plain sum over the contracted coordinate and the zero
  pattern is the extended real `0`, so an entry of `mlp` is literally `Cert.Mlp.row`: no law of arithmetic
  is used beyond `0 + s = s` inside the library's reading of the product.

  The shape facts the operations cite are fields of the program's `Facts₀`; the statements here take any
  instance of it.
-/
import proofs.«138913_j79413945303068_1_alg».proof.ReferenceIdeal
import proofs.«138913_j79413945303068_1_alg».proof.Proof.Mlp
import Idealize.ShloMosaic.Lib.StackMember

noncomputable section

open Idealize.ShloMosaic Idealize.ShloMosaic.ValueIdx
open scoped BigOperators

namespace Cert.ReferenceIdeal.RefMlp

open Cert.ReferenceIdeal Cert.ReferenceIdeal.Facts₀

variable [Facts₀]

/-- The host's product of an m × k by a k × n matrix, read at the entry (a, b): the sum over the contracted
    coordinate of the products of the entries. The dimension numbers are any record equal to the plain ones
    (contract the left operand's columns with the right operand's rows, no batch axis). -/
theorem dotGeneral_plain_apply' {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂)
    (a : Fin m) (b : Fin n) :
    Host.dotGeneral (F := Ideal) D none A B (ix2 a b) = ∑ c : Fin k, A (ix2 a c) * B (ix2 c b) := by
  subst hD
  exact StackMember.dotGeneral_plain_apply none A B a b

/-- A vector of n entries broadcast to one row (along axis 1) and that row broadcast down m rows, read at
    (r, t), is the vector at t. -/
theorem bias_apply {α : Type} {m n : Nat} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (t : Fin n) :
    broadcastInDim ⟨2, ![m, n]⟩ ![0, 1] h2 (broadcastInDim ⟨2, ![1, n]⟩ ![1] h1 x) (ix2 r t) = x (ix1 t) := by
  refine (broadcastInDim_oneRow_apply h2 _ r t).trans ?_
  refine broadcastInDim_apply ![1] h1 x (ix2 (0 : Fin 1) t) (ix1 t) ?_
  intro a
  match a with
  | ⟨0, _⟩ =>
    show t.val = if n = 1 then 0 else t.val
    split
    · have := t.isLt; omega
    · rfl

/-- The reference's perceptron as one function of the gathered rows `X` and the four parameters: its host
    operations from the first `dot_general` to the last `add`, in the program's order, the call of `relu`
    replaced by that function's body (a zero constant, its broadcast, the maximum). -/
def mlp (X : FVec Ideal S400000x480 .f32) (W1 : FVec Ideal S480x240 .f32) (b1 : FVec Ideal S240 .f32)
    (W2 : FVec Ideal S240x4 .f32) (b2 : FVec Ideal S4 .f32) : FVec Ideal S400000x4 .f32 :=
  have v85 : FVec Ideal S400000x240 .f32 :=
    Host.dotGeneral (F := Ideal) dot_S400000x480_S480x240_S400000x240_1_0_0_1_n_n none X W1
  have v86 : FVec Ideal S1x240 .f32 := broadcastInDim S1x240 ![1] bcast_S240_S1x240_1 b1
  have v87 : FVec Ideal S400000x240 .f32 := broadcastInDim S400000x240 ![0, 1] bcast_S1x240_S400000x240_0_1 v86
  have v88 : FVec Ideal S400000x240 .f32 := addf v85 v87
  have cst : FVec Ideal S_ .f32 := constant (F := Ideal) S_ .f32 0x00000000#32
  have r0 : FVec Ideal S400000x240 .f32 := broadcastInDim S400000x240 ![] bcast_S_S400000x240 cst
  have v89 : FVec Ideal S400000x240 .f32 := maximumf v88 r0
  have v90 : FVec Ideal S400000x4 .f32 :=
    Host.dotGeneral (F := Ideal) dot_S400000x240_S240x4_S400000x4_1_0_0_1_n_n none v89 W2
  have v91 : FVec Ideal S1x4 .f32 := broadcastInDim S1x4 ![1] bcast_S4_S1x4_1 b2
  have v92 : FVec Ideal S400000x4 .f32 := broadcastInDim S400000x4 ![0, 1] bcast_S1x4_S400000x4_0_1 v91
  addf v90 v92

/-- `mlp` with its intermediate values substituted: one term over the operands. -/
theorem mlp_eq (X : FVec Ideal S400000x480 .f32) (W1 : FVec Ideal S480x240 .f32) (b1 : FVec Ideal S240 .f32)
    (W2 : FVec Ideal S240x4 .f32) (b2 : FVec Ideal S4 .f32) :
    mlp X W1 b1 W2 b2
      = addf
          (Host.dotGeneral (F := Ideal) dot_S400000x240_S240x4_S400000x4_1_0_0_1_n_n none
            (maximumf
              (addf (Host.dotGeneral (F := Ideal) dot_S400000x480_S480x240_S400000x240_1_0_0_1_n_n none X W1)
                (broadcastInDim S400000x240 ![0, 1] bcast_S1x240_S400000x240_0_1
                  (broadcastInDim S1x240 ![1] bcast_S240_S1x240_1 b1)))
              (broadcastInDim S400000x240 ![] bcast_S_S400000x240 (constant (F := Ideal) S_ .f32 0x00000000#32)))
            W2)
          (broadcastInDim S400000x4 ![0, 1] bcast_S1x4_S400000x4_0_1 (broadcastInDim S1x4 ![1] bcast_S4_S1x4_1 b2)) :=
  rfl

/-- THE REFERENCE'S PERCEPTRON AT AN ENTRY: row `i`, column `q` of `mlp` is the perceptron of row `i` of `X`.
    The outer product and bias are read first (the sum over the 240 hidden units plus the second bias), then,
    under the sum, the hidden unit `j`: the first product and bias under the maximum with zero. -/
theorem mlp_apply (X : FVec Ideal S400000x480 .f32) (W1 : FVec Ideal S480x240 .f32) (b1 : FVec Ideal S240 .f32)
    (W2 : FVec Ideal S240x4 .f32) (b2 : FVec Ideal S4 .f32) (i : Fin 400000) (q : Fin 4) :
    mlp X W1 b1 W2 b2 (ValueIdx.ix2 i q)
      = Cert.Mlp.row (fun k => X (ValueIdx.ix2 i k)) (fun k j => W1 (ValueIdx.ix2 k j)) (fun j => b1 (ValueIdx.ix1 j))
          (fun j q' => W2 (ValueIdx.ix2 j q')) (fun q' => b2 (ValueIdx.ix1 q')) q := by
  unfold mlp Cert.Mlp.row
  refine (congrArg₂ (· + ·) (dotGeneral_plain_apply' (φ₁ := .f32) (φ₂ := .f32) _ rfl _ W2 i q)
    (bias_apply b2 _ _ i q)).trans ?_
  refine congrArg (· + b2 (ix1 q)) (Finset.sum_congr rfl fun j _ => ?_)
  refine congrArg (· * W2 (ix2 j q)) ?_
  show max (Host.dotGeneral (F := Ideal) _ none _ _ (ix2 i j) + broadcastInDim _ _ _ _ (ix2 i j))
      (Ideal.ofBits .f32 0x00000000#32) = _
  refine (congrArg₂ (fun a b => max (a + b) (Ideal.ofBits .f32 0x00000000#32))
    (dotGeneral_plain_apply' (φ₁ := .f32) (φ₂ := .f32) _ rfl X W1 i j) (bias_apply b1 _ _ i j)).trans ?_
  rw [Ideal.ofBits_zero_f32]

end Cert.ReferenceIdeal.RefMlp

end
-- ==== Proof.RefSeg.lean ====
/-
  The reference's host prefix cut into consecutive stretches, each stretch the operations of one outlined function or
  of one run of @main's own lines — the same cuts at which the kernel program's host prefix is stated — and the prefix
  as their concatenation.
-/
import proofs.«138913_j79413945303068_1_alg».proof.Proof.RefRun.Ops

set_option maxRecDepth 16384

noncomputable section

namespace Cert.ReferenceIdeal.RefSeg

open Cert.ReferenceIdeal Cert.ReferenceIdeal.Gen Idealize.ShloMosaic Idealize.ShloMosaic.TcCoe Idealize.SL.Sem Idealize.ShloMosaic.StableHlo

variable {F : FTy → Type} [FloatOps F]

/-- Stretch 0 of the host prefix (3 operations). -/
abbrev T0 : List (HloOp τ sig (Elt F)) :=
  [ TRef.nullary main_call0.call0.c (constantI S_ 32 0#32),
    TRef.unary main_call0.call0.c main_call0.call0.v0 (broadcastInDim S_ ![] bcast_S_S_),
    TRef.binary (.of main_arg10 : StableHlo.TRef sig ⟨S50000, .i32⟩) main_call0.call0.v0 main_call0.call0.v1 (fun x v => Host.reduceWindow IntOp.addi ![50000] ![1] ![49999] ![0] x v reduceWindows_S50000_S50000_w50000s1p49999_0 h_S_) ]

/-- Stretch 1 of the host prefix (2 operations). -/
abbrev T1 : List (HloOp τ sig (Elt F)) :=
  [ binary main_v0 main_arg10 main_v1 (subi : (⟨S50000, .i32⟩ : BufTy).Contents (Elt F) → (⟨S50000, .i32⟩ : BufTy).Contents (Elt F) → (⟨S50000, .i32⟩ : BufTy).Contents (Elt F)),
    nullary main_v2 (iotaInDim S50000 32 0) ]

/-- Stretch 2 of the host prefix (3 operations). -/
abbrev T2 : List (HloOp τ sig (Elt F)) :=
  [ TRef.unary (.of main_arg10 : StableHlo.TRef sig ⟨S50000, .i32⟩) main_call1.v0 (extractStridedSlice S1 ![49999] · slices_S50000_S1_49999),
    TRef.unary (.of main_arg10 : StableHlo.TRef sig ⟨S50000, .i32⟩) main_call1.v1 (extractStridedSlice S49999 ![0] · slices_S50000_S49999_0),
    TRef.binary main_call1.v0 main_call1.v1 main_call1.v2 (fun a b => concatenate S50000 0 [⟨S1, a⟩, ⟨S49999, b⟩] concatenates_S1_S49999_S50000_d0) ]

/-- Stretch 3 of the host prefix (4 operations). -/
abbrev T3 : List (HloOp τ sig (Elt F)) :=
  [ nullary main_c (constantI S_ 32 0#32),
    unary main_c main_v4 (broadcastInDim S1 ![] bcast_S_S1 : (⟨S_, .i32⟩ : BufTy).Contents (Elt F) → (⟨S1, .i32⟩ : BufTy).Contents (Elt F)),
    nullary main_c_0 (constantI S_ 32 0#32),
    ternary main_v3 main_v4 main_c_0 main_v5 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)) ]

/-- Stretch 4 of the host prefix (3 operations). -/
abbrev T4 : List (HloOp τ sig (Elt F)) :=
  [ TRef.nullary main_call2.call0.c (constantI S_ 32 0#32),
    TRef.unary main_call2.call0.c main_call2.call0.v0 (broadcastInDim S_ ![] bcast_S_S_),
    TRef.binary (.of main_v5 : StableHlo.TRef sig ⟨S50000, .i32⟩) main_call2.call0.v0 main_call2.call0.v1 (fun x v => Host.reduceWindow IntOp.addi ![50000] ![1] ![49999] ![0] x v reduceWindows_S50000_S50000_w50000s1p49999_0 h_S_) ]

/-- Stretch 5 of the host prefix (13 operations). -/
abbrev T5 : List (HloOp τ sig (Elt F)) :=
  [ nullary main_c_1 (constantI S_ 32 0#32),
    unary main_c_1 main_v7 (broadcastInDim S200000 ![] bcast_S_S200000 : (⟨S_, .i32⟩ : BufTy).Contents (Elt F) → (⟨S200000, .i32⟩ : BufTy).Contents (Elt F)),
    nullary main_c_2 (constantI S_ 32 0#32),
    unary main_c_2 main_v8 (broadcastInDim S50000 ![] bcast_S_S50000 : (⟨S_, .i32⟩ : BufTy).Contents (Elt F) → (⟨S50000, .i32⟩ : BufTy).Contents (Elt F)),
    binary main_v6 main_v8 main_v9 (cmpi .slt : (⟨S50000, .i32⟩ : BufTy).Contents (Elt F) → (⟨S50000, .i32⟩ : BufTy).Contents (Elt F) → (⟨S50000, .i1⟩ : BufTy).Contents (Elt F)),
    nullary main_c_3 (constantI S_ 32 200000#32),
    unary main_c_3 main_v10 (broadcastInDim S50000 ![] bcast_S_S50000 : (⟨S_, .i32⟩ : BufTy).Contents (Elt F) → (⟨S50000, .i32⟩ : BufTy).Contents (Elt F)),
    binary main_v6 main_v10 main_v11 (addi : (⟨S50000, .i32⟩ : BufTy).Contents (Elt F) → (⟨S50000, .i32⟩ : BufTy).Contents (Elt F) → (⟨S50000, .i32⟩ : BufTy).Contents (Elt F)),
    ternary main_v9 main_v11 main_v6 main_v12 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v12 main_v13 (broadcastInDim S50000x1 ![0] bcast_S50000_S50000x1_0 : (⟨S50000, .i32⟩ : BufTy).Contents (Elt F) → (⟨S50000x1, .i32⟩ : BufTy).Contents (Elt F)),
    nullary main_c_4 (constantI S_ 32 1#32),
    unary main_c_4 main_v14 (broadcastInDim S50000 ![] bcast_S_S50000 : (⟨S_, .i32⟩ : BufTy).Contents (Elt F) → (⟨S50000, .i32⟩ : BufTy).Contents (Elt F)),
    ternary main_v7 main_v13 main_v14 main_v15 ((fun x i u => Host.scatter scatter_S200000_S50000x1_S50000_n_0_0_1 IntOp.addi x i u) : (⟨S200000, .i32⟩ : BufTy).Contents (Elt F) → (⟨S50000x1, .i32⟩ : BufTy).Contents (Elt F) → (⟨S50000, .i32⟩ : BufTy).Contents (Elt F) → (⟨S200000, .i32⟩ : BufTy).Contents (Elt F)) ]

/-- Stretch 6 of the host prefix (3 operations). -/
abbrev T6 : List (HloOp τ sig (Elt F)) :=
  [ TRef.nullary main_call3.call0.c (constantI S_ 32 0#32),
    TRef.unary main_call3.call0.c main_call3.call0.v0 (broadcastInDim S_ ![] bcast_S_S_),
    TRef.binary (.of main_v15 : StableHlo.TRef sig ⟨S200000, .i32⟩) main_call3.call0.v0 main_call3.call0.v1 (fun x v => Host.reduceWindow IntOp.addi ![200000] ![1] ![199999] ![0] x v reduceWindows_S200000_S200000_w200000s1p199999_0 h_S_) ]

/-- Stretch 7 of the host prefix (3 operations). -/
abbrev T7 : List (HloOp τ sig (Elt F)) :=
  [ nullary main_c_5 (constantI S_ 32 1#32),
    unary main_c_5 main_v17 (broadcastInDim S200000 ![] bcast_S_S200000 : (⟨S_, .i32⟩ : BufTy).Contents (Elt F) → (⟨S200000, .i32⟩ : BufTy).Contents (Elt F)),
    binary main_v16 main_v17 main_v18 (subi : (⟨S200000, .i32⟩ : BufTy).Contents (Elt F) → (⟨S200000, .i32⟩ : BufTy).Contents (Elt F) → (⟨S200000, .i32⟩ : BufTy).Contents (Elt F)) ]

/-- Stretch 8 of the host prefix (22 operations). -/
abbrev T8 : List (HloOp τ sig (Elt F)) :=
  [ TRef.nullary main_call4.c (constantI S_ 32 0#32),
    TRef.unary main_call4.c main_call4.v0 (broadcastInDim S200000 ![] bcast_S_S200000),
    TRef.binary (.of main_v18 : StableHlo.TRef sig ⟨S200000, .i32⟩) main_call4.v0 main_call4.v1 (cmpi .slt),
    TRef.nullary main_call4.c_0 (constantI S_ 32 50000#32),
    TRef.unary main_call4.c_0 main_call4.v2 (broadcastInDim S200000 ![] bcast_S_S200000),
    TRef.binary (.of main_v18 : StableHlo.TRef sig ⟨S200000, .i32⟩) main_call4.v2 main_call4.v3 addi,
    TRef.ternary main_call4.v1 main_call4.v3 (.of main_v18 : StableHlo.TRef sig ⟨S200000, .i32⟩) main_call4.call0.v0 select,
    TRef.unary main_call4.call0.v0 main_call4.v5 (broadcastInDim S200000x1 ![0] bcast_S200000_S200000x1_0),
    TRef.nullary main_call4.c_1 (constantI S1 32 49999#32),
    TRef.nullary main_call4.c_2 (constantI S_ 32 0#32),
    TRef.unary main_call4.c_2 main_call4.v6 (broadcastInDim S200000x1 ![] bcast_S_S200000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S200000x1 ![0, 1] bcast_S1x1_S200000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S200000x1_S200000_d1 h_S_),
    TRef.binary (.of main_v2 : StableHlo.TRef sig ⟨S50000, .i32⟩) main_call4.v5 main_call4.v13 (fun x i => Host.gather gather_S50000_S200000x1_S200000_n_0_n_n_0_1_1 x i),
    TRef.nullary main_call4.c_4 (constantI S_ 32 2147483648#32),
    TRef.unary main_call4.c_4 main_call4.v14 (broadcastInDim S200000 ![] bcast_S_S200000),
    TRef.ternary main_call4.v12 main_call4.v13 main_call4.v14 main_call4.v15 select ]

/-- Stretch 9 of the host prefix (42 operations). -/
abbrev T9 : List (HloOp τ sig (Elt F)) :=
  [ nullary main_v20 (iotaInDim S200000 32 0),
    nullary main_c_6 (constantI S_ 32 0#32),
    unary main_c_6 main_v21 (broadcastInDim S200000 ![] bcast_S_S200000 : (⟨S_, .i32⟩ : BufTy).Contents (Elt F) → (⟨S200000, .i32⟩ : BufTy).Contents (Elt F)),
    binary main_v19 main_v21 main_v22 (cmpi .slt : (⟨S200000, .i32⟩ : BufTy).Contents (Elt F) → (⟨S200000, .i32⟩ : BufTy).Contents (Elt F) → (⟨S200000, .i1⟩ : BufTy).Contents (Elt F)),
    nullary main_c_7 (constantI S_ 32 50000#32),
    unary main_c_7 main_v23 (broadcastInDim S200000 ![] bcast_S_S200000 : (⟨S_, .i32⟩ : BufTy).Contents (Elt F) → (⟨S200000, .i32⟩ : BufTy).Contents (Elt F)),
    binary main_v19 main_v23 main_v24 (addi : (⟨S200000, .i32⟩ : BufTy).Contents (Elt F) → (⟨S200000, .i32⟩ : BufTy).Contents (Elt F) → (⟨S200000, .i32⟩ : BufTy).Contents (Elt F)),
    ternary main_v22 main_v24 main_v19 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v25 main_v26 (broadcastInDim S200000x1 ![0] bcast_S200000_S200000x1_0 : (⟨S200000, .i32⟩ : BufTy).Contents (Elt F) → (⟨S200000x1, .i32⟩ : BufTy).Contents (Elt F)),
    binary main_v1 main_v26 main_v27 ((fun x i => Host.gather gather_S50000_S200000x1_S200000_n_0_n_n_0_1_1 x i) : (⟨S50000, .i32⟩ : BufTy).Contents (Elt F) → (⟨S200000x1, .i32⟩ : BufTy).Contents (Elt F) → (⟨S200000, .i32⟩ : BufTy).Contents (Elt F)),
    binary main_v20 main_v27 main_v28 (subi : (⟨S200000, .i32⟩ : BufTy).Contents (Elt F) → (⟨S200000, .i32⟩ : BufTy).Contents (Elt F) → (⟨S200000, .i32⟩ : BufTy).Contents (Elt F)),
    nullary main_c_8 (constantI S_ 32 1#32),
    unary main_c_8 main_v29 (broadcastInDim S200000 ![] bcast_S_S200000 : (⟨S_, .i32⟩ : BufTy).Contents (Elt F) → (⟨S200000, .i32⟩ : BufTy).Contents (Elt F)),
    binary main_v28 main_v29 main_v30 (addi : (⟨S200000, .i32⟩ : BufTy).Contents (Elt F) → (⟨S200000, .i32⟩ : BufTy).Contents (Elt F) → (⟨S200000, .i32⟩ : BufTy).Contents (Elt F)),
    nullary main_c_9 (constantI S_ 32 0#32),
    unary main_c_9 main_v31 (broadcastInDim S200000 ![] bcast_S_S200000 : (⟨S_, .i32⟩ : BufTy).Contents (Elt F) → (⟨S200000, .i32⟩ : BufTy).Contents (Elt F)),
    binary main_arg8 main_v31 main_v32 (cmpi .slt : (⟨S200000, .i32⟩ : BufTy).Contents (Elt F) → (⟨S200000, .i32⟩ : BufTy).Contents (Elt F) → (⟨S200000, .i1⟩ : BufTy).Contents (Elt F)),
    nullary main_c_10 (constantI S_ 32 100#32),
    unary main_c_10 main_v33 (broadcastInDim S200000 ![] bcast_S_S200000 : (⟨S_, .i32⟩ : BufTy).Contents (Elt F) → (⟨S200000, .i32⟩ : BufTy).Contents (Elt F)),
    binary main_arg8 main_v33 main_v34 (addi : (⟨S200000, .i32⟩ : BufTy).Contents (Elt F) → (⟨S200000, .i32⟩ : BufTy).Contents (Elt F) → (⟨S200000, .i32⟩ : BufTy).Contents (Elt F)),
    ternary main_v32 main_v34 main_arg8 main_v35 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v35 main_v36 (broadcastInDim S200000x1 ![0] bcast_S200000_S200000x1_0 : (⟨S200000, .i32⟩ : BufTy).Contents (Elt F) → (⟨S200000x1, .i32⟩ : BufTy).Contents (Elt F)),
    binary main_arg1 main_v36 main_v37 ((fun x i => Host.gather gather_S100x64_S200000x1_S200000x64_1_0_n_n_0_1_164 x i) : (⟨S100x64, .f32⟩ : BufTy).Contents (Elt F) → (⟨S200000x1, .i32⟩ : BufTy).Contents (Elt F) → (⟨S200000x64, .f32⟩ : BufTy).Contents (Elt F)),
    nullary main_c_11 (constantI S_ 32 0#32),
    unary main_c_11 main_v38 (broadcastInDim S200000 ![] bcast_S_S200000 : (⟨S_, .i32⟩ : BufTy).Contents (Elt F) → (⟨S200000, .i32⟩ : BufTy).Contents (Elt F)),
    binary main_arg9 main_v38 main_v39 (cmpi .slt : (⟨S200000, .i32⟩ : BufTy).Contents (Elt F) → (⟨S200000, .i32⟩ : BufTy).Contents (Elt F) → (⟨S200000, .i1⟩ : BufTy).Contents (Elt F)),
    nullary main_c_12 (constantI S_ 32 8#32),
    unary main_c_12 main_v40 (broadcastInDim S200000 ![] bcast_S_S200000 : (⟨S_, .i32⟩ : BufTy).Contents (Elt F) → (⟨S200000, .i32⟩ : BufTy).Contents (Elt F)),
    binary main_arg9 main_v40 main_v41 (addi : (⟨S200000, .i32⟩ : BufTy).Contents (Elt F) → (⟨S200000, .i32⟩ : BufTy).Contents (Elt F) → (⟨S200000, .i32⟩ : BufTy).Contents (Elt F)),
    ternary main_v39 main_v41 main_arg9 main_v42 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v42 main_v43 (broadcastInDim S200000x1 ![0] bcast_S200000_S200000x1_0 : (⟨S200000, .i32⟩ : BufTy).Contents (Elt F) → (⟨S200000x1, .i32⟩ : BufTy).Contents (Elt F)),
    binary main_arg2 main_v43 main_v44 ((fun x i => Host.gather gather_S8x16_S200000x1_S200000x16_1_0_n_n_0_1_116 x i) : (⟨S8x16, .f32⟩ : BufTy).Contents (Elt F) → (⟨S200000x1, .i32⟩ : BufTy).Contents (Elt F) → (⟨S200000x16, .f32⟩ : BufTy).Contents (Elt F)),
    nullary main_c_13 (constantI S_ 32 0#32),
    unary main_c_13 main_v45 (broadcastInDim S200000 ![] bcast_S_S200000 : (⟨S_, .i32⟩ : BufTy).Contents (Elt F) → (⟨S200000, .i32⟩ : BufTy).Contents (Elt F)),
    binary main_v30 main_v45 main_v46 (cmpi .slt : (⟨S200000, .i32⟩ : BufTy).Contents (Elt F) → (⟨S200000, .i32⟩ : BufTy).Contents (Elt F) → (⟨S200000, .i1⟩ : BufTy).Contents (Elt F)),
    nullary main_c_14 (constantI S_ 32 16#32),
    unary main_c_14 main_v47 (broadcastInDim S200000 ![] bcast_S_S200000 : (⟨S_, .i32⟩ : BufTy).Contents (Elt F) → (⟨S200000, .i32⟩ : BufTy).Contents (Elt F)),
    binary main_v30 main_v47 main_v48 (addi : (⟨S200000, .i32⟩ : BufTy).Contents (Elt F) → (⟨S200000, .i32⟩ : BufTy).Contents (Elt F) → (⟨S200000, .i32⟩ : BufTy).Contents (Elt F)),
    ternary main_v46 main_v48 main_v30 main_v49 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v49 main_v50 (broadcastInDim S200000x1 ![0] bcast_S200000_S200000x1_0 : (⟨S200000, .i32⟩ : BufTy).Contents (Elt F) → (⟨S200000x1, .i32⟩ : BufTy).Contents (Elt F)),
    binary main_arg3 main_v50 main_v51 ((fun x i => Host.gather gather_S16x32_S200000x1_S200000x32_1_0_n_n_0_1_132 x i) : (⟨S16x32, .f32⟩ : BufTy).Contents (Elt F) → (⟨S200000x1, .i32⟩ : BufTy).Contents (Elt F) → (⟨S200000x32, .f32⟩ : BufTy).Contents (Elt F)),
    nary ![main_v37, main_v44, main_v51] main_v52 (fun u => concatenate S200000x112 1 [⟨S200000x64, u 0⟩, ⟨S200000x16, u 1⟩, ⟨S200000x32, u 2⟩] concatenates_S200000x64_S200000x16_S200000x32_S200000x112_d1) ]

/-- Stretch 10 of the host prefix (3 operations). -/
abbrev T10 : List (HloOp τ sig (Elt F)) :=
  [ TRef.unary (.of main_arg11 : StableHlo.TRef sig ⟨S50000, .i32⟩) main_call5.v0 (extractStridedSlice S1 ![49999] · slices_S50000_S1_49999),
    TRef.unary (.of main_arg11 : StableHlo.TRef sig ⟨S50000, .i32⟩) main_call5.v1 (extractStridedSlice S49999 ![0] · slices_S50000_S49999_0),
    TRef.binary main_call5.v0 main_call5.v1 main_call5.v2 (fun a b => concatenate S50000 0 [⟨S1, a⟩, ⟨S49999, b⟩] concatenates_S1_S49999_S50000_d0) ]

/-- Stretch 11 of the host prefix (4 operations). -/
abbrev T11 : List (HloOp τ sig (Elt F)) :=
  [ nullary main_c_15 (constantI S_ 32 0#32),
    unary main_c_15 main_v54 (broadcastInDim S1 ![] bcast_S_S1 : (⟨S_, .i32⟩ : BufTy).Contents (Elt F) → (⟨S1, .i32⟩ : BufTy).Contents (Elt F)),
    nullary main_c_16 (constantI S_ 32 0#32),
    ternary main_v53 main_v54 main_c_16 main_v55 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)) ]

/-- Stretch 12 of the host prefix (3 operations). -/
abbrev T12 : List (HloOp τ sig (Elt F)) :=
  [ TRef.nullary main_call6.call0.c (constantI S_ 32 0#32),
    TRef.unary main_call6.call0.c main_call6.call0.v0 (broadcastInDim S_ ![] bcast_S_S_),
    TRef.binary (.of main_v55 : StableHlo.TRef sig ⟨S50000, .i32⟩) main_call6.call0.v0 main_call6.call0.v1 (fun x v => Host.reduceWindow IntOp.addi ![50000] ![1] ![49999] ![0] x v reduceWindows_S50000_S50000_w50000s1p49999_0 h_S_) ]

/-- Stretch 13 of the host prefix (13 operations). -/
abbrev T13 : List (HloOp τ sig (Elt F)) :=
  [ nullary main_c_17 (constantI S_ 32 0#32),
    unary main_c_17 main_v57 (broadcastInDim S400000 ![] bcast_S_S400000 : (⟨S_, .i32⟩ : BufTy).Contents (Elt F) → (⟨S400000, .i32⟩ : BufTy).Contents (Elt F)),
    nullary main_c_18 (constantI S_ 32 0#32),
    unary main_c_18 main_v58 (broadcastInDim S50000 ![] bcast_S_S50000 : (⟨S_, .i32⟩ : BufTy).Contents (Elt F) → (⟨S50000, .i32⟩ : BufTy).Contents (Elt F)),
    binary main_v56 main_v58 main_v59 (cmpi .slt : (⟨S50000, .i32⟩ : BufTy).Contents (Elt F) → (⟨S50000, .i32⟩ : BufTy).Contents (Elt F) → (⟨S50000, .i1⟩ : BufTy).Contents (Elt F)),
    nullary main_c_19 (constantI S_ 32 400000#32),
    unary main_c_19 main_v60 (broadcastInDim S50000 ![] bcast_S_S50000 : (⟨S_, .i32⟩ : BufTy).Contents (Elt F) → (⟨S50000, .i32⟩ : BufTy).Contents (Elt F)),
    binary main_v56 main_v60 main_v61 (addi : (⟨S50000, .i32⟩ : BufTy).Contents (Elt F) → (⟨S50000, .i32⟩ : BufTy).Contents (Elt F) → (⟨S50000, .i32⟩ : BufTy).Contents (Elt F)),
    ternary main_v59 main_v61 main_v56 main_v62 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v62 main_v63 (broadcastInDim S50000x1 ![0] bcast_S50000_S50000x1_0 : (⟨S50000, .i32⟩ : BufTy).Contents (Elt F) → (⟨S50000x1, .i32⟩ : BufTy).Contents (Elt F)),
    nullary main_c_20 (constantI S_ 32 1#32),
    unary main_c_20 main_v64 (broadcastInDim S50000 ![] bcast_S_S50000 : (⟨S_, .i32⟩ : BufTy).Contents (Elt F) → (⟨S50000, .i32⟩ : BufTy).Contents (Elt F)),
    ternary main_v57 main_v63 main_v64 main_v65 ((fun x i u => Host.scatter scatter_S400000_S50000x1_S50000_n_0_0_1 IntOp.addi x i u) : (⟨S400000, .i32⟩ : BufTy).Contents (Elt F) → (⟨S50000x1, .i32⟩ : BufTy).Contents (Elt F) → (⟨S50000, .i32⟩ : BufTy).Contents (Elt F) → (⟨S400000, .i32⟩ : BufTy).Contents (Elt F)) ]

/-- Stretch 14 of the host prefix (3 operations). -/
abbrev T14 : List (HloOp τ sig (Elt F)) :=
  [ TRef.nullary main_call7.call0.c (constantI S_ 32 0#32),
    TRef.unary main_call7.call0.c main_call7.call0.v0 (broadcastInDim S_ ![] bcast_S_S_),
    TRef.binary (.of main_v65 : StableHlo.TRef sig ⟨S400000, .i32⟩) main_call7.call0.v0 main_call7.call0.v1 (fun x v => Host.reduceWindow IntOp.addi ![400000] ![1] ![399999] ![0] x v reduceWindows_S400000_S400000_w400000s1p399999_0 h_S_) ]

/-- Stretch 15 of the host prefix (3 operations). -/
abbrev T15 : List (HloOp τ sig (Elt F)) :=
  [ nullary main_c_21 (constantI S_ 32 1#32),
    unary main_c_21 main_v67 (broadcastInDim S400000 ![] bcast_S_S400000 : (⟨S_, .i32⟩ : BufTy).Contents (Elt F) → (⟨S400000, .i32⟩ : BufTy).Contents (Elt F)),
    binary main_v66 main_v67 main_v68 (subi : (⟨S400000, .i32⟩ : BufTy).Contents (Elt F) → (⟨S400000, .i32⟩ : BufTy).Contents (Elt F) → (⟨S400000, .i32⟩ : BufTy).Contents (Elt F)) ]

/-- Stretch 16 of the host prefix (23 operations). -/
abbrev T16 : List (HloOp τ sig (Elt F)) :=
  [ TRef.nullary main_call8.c (constantI S_ 32 0#32),
    TRef.unary main_call8.c main_call8.v0 (broadcastInDim S400000 ![] bcast_S_S400000),
    TRef.binary (.of main_v68 : StableHlo.TRef sig ⟨S400000, .i32⟩) main_call8.v0 main_call8.v1 (cmpi .slt),
    TRef.nullary main_call8.c_0 (constantI S_ 32 50000#32),
    TRef.unary main_call8.c_0 main_call8.v2 (broadcastInDim S400000 ![] bcast_S_S400000),
    TRef.binary (.of main_v68 : StableHlo.TRef sig ⟨S400000, .i32⟩) main_call8.v2 main_call8.v3 addi,
    TRef.ternary main_call8.v1 main_call8.v3 (.of main_v68 : StableHlo.TRef sig ⟨S400000, .i32⟩) main_call8.call0.v0 select,
    TRef.unary main_call8.call0.v0 main_call8.v5 (broadcastInDim S400000x1 ![0] bcast_S400000_S400000x1_0),
    TRef.nullary main_call8.c_1 (constantI S1 32 49999#32),
    TRef.nullary main_call8.c_2 (constantI S_ 32 0#32),
    TRef.unary main_call8.c_2 main_call8.v6 (broadcastInDim S400000x1 ![] bcast_S_S400000x1),
    TRef.binary main_call8.v5 main_call8.v6 main_call8.v7 (cmpi .sge),
    TRef.unary main_call8.c_1 main_call8.v8 (broadcastInDim S1x1 ![1] bcast_S1_S1x1_1),
    TRef.unary main_call8.v8 main_call8.v9 (broadcastInDim S400000x1 ![0, 1] bcast_S1x1_S400000x1_0_1),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S400000x1_S400000_d1 h_S_),
    TRef.binary (.of main_arg0 : StableHlo.TRef sig ⟨S50000x256, .f32⟩) main_call8.v5 main_call8.v13 (fun x i => Host.gather gather_S50000x256_S400000x1_S400000x256_1_0_n_n_0_1_1256 x i),
    TRef.unary main_call8.v12 main_call8.v14 (broadcastInDim S400000x256 ![0] bcast_S400000_S400000x256_0),
    TRef.nullary main_call8.cst (constant S_ .f32 0x7FC00000#32),
    TRef.unary main_call8.cst main_call8.v15 (broadcastInDim S400000x256 ![] bcast_S_S400000x256),
    TRef.ternary main_call8.v14 main_call8.v13 main_call8.v15 main_call8.v16 select ]

/-- Stretch 17 of the host prefix (19 operations). -/
abbrev T17 : List (HloOp τ sig (Elt F)) :=
  [ nullary main_c_22 (constantI S_ 32 0#32),
    unary main_c_22 main_v70 (broadcastInDim S400000 ![] bcast_S_S400000 : (⟨S_, .i32⟩ : BufTy).Contents (Elt F) → (⟨S400000, .i32⟩ : BufTy).Contents (Elt F)),
    binary main_arg12 main_v70 main_v71 (cmpi .slt : (⟨S400000, .i32⟩ : BufTy).Contents (Elt F) → (⟨S400000, .i32⟩ : BufTy).Contents (Elt F) → (⟨S400000, .i1⟩ : BufTy).Contents (Elt F)),
    nullary main_c_23 (constantI S_ 32 200000#32),
    unary main_c_23 main_v72 (broadcastInDim S400000 ![] bcast_S_S400000 : (⟨S_, .i32⟩ : BufTy).Contents (Elt F) → (⟨S400000, .i32⟩ : BufTy).Contents (Elt F)),
    binary main_arg12 main_v72 main_v73 (addi : (⟨S400000, .i32⟩ : BufTy).Contents (Elt F) → (⟨S400000, .i32⟩ : BufTy).Contents (Elt F) → (⟨S400000, .i32⟩ : BufTy).Contents (Elt F)),
    ternary main_v71 main_v73 main_arg12 main_v74 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v74 main_v75 (broadcastInDim S400000x1 ![0] bcast_S400000_S400000x1_0 : (⟨S400000, .i32⟩ : BufTy).Contents (Elt F) → (⟨S400000x1, .i32⟩ : BufTy).Contents (Elt F)),
    binary main_v52 main_v75 main_v76 ((fun x i => Host.gather gather_S200000x112_S400000x1_S400000x112_1_0_n_n_0_1_1112 x i) : (⟨S200000x112, .f32⟩ : BufTy).Contents (Elt F) → (⟨S400000x1, .i32⟩ : BufTy).Contents (Elt F) → (⟨S400000x112, .f32⟩ : BufTy).Contents (Elt F)),
    nullary main_c_24 (constantI S_ 32 0#32),
    unary main_c_24 main_v77 (broadcastInDim S400000 ![] bcast_S_S400000 : (⟨S_, .i32⟩ : BufTy).Contents (Elt F) → (⟨S400000, .i32⟩ : BufTy).Contents (Elt F)),
    binary main_arg13 main_v77 main_v78 (cmpi .slt : (⟨S400000, .i32⟩ : BufTy).Contents (Elt F) → (⟨S400000, .i32⟩ : BufTy).Contents (Elt F) → (⟨S400000, .i1⟩ : BufTy).Contents (Elt F)),
    nullary main_c_25 (constantI S_ 32 200000#32),
    unary main_c_25 main_v79 (broadcastInDim S400000 ![] bcast_S_S400000 : (⟨S_, .i32⟩ : BufTy).Contents (Elt F) → (⟨S400000, .i32⟩ : BufTy).Contents (Elt F)),
    binary main_arg13 main_v79 main_v80 (addi : (⟨S400000, .i32⟩ : BufTy).Contents (Elt F) → (⟨S400000, .i32⟩ : BufTy).Contents (Elt F) → (⟨S400000, .i32⟩ : BufTy).Contents (Elt F)),
    ternary main_v78 main_v80 main_arg13 main_v81 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v81 main_v82 (broadcastInDim S400000x1 ![0] bcast_S400000_S400000x1_0 : (⟨S400000, .i32⟩ : BufTy).Contents (Elt F) → (⟨S400000x1, .i32⟩ : BufTy).Contents (Elt F)),
    binary main_v52 main_v82 main_v83 ((fun x i => Host.gather gather_S200000x112_S400000x1_S400000x112_1_0_n_n_0_1_1112 x i) : (⟨S200000x112, .f32⟩ : BufTy).Contents (Elt F) → (⟨S400000x1, .i32⟩ : BufTy).Contents (Elt F) → (⟨S400000x112, .f32⟩ : BufTy).Contents (Elt F)),
    nary ![main_v76, main_v83, main_v69] main_v84 (fun u => concatenate S400000x480 1 [⟨S400000x112, u 0⟩, ⟨S400000x112, u 1⟩, ⟨S400000x256, u 2⟩] concatenates_S400000x112_S400000x112_S400000x256_S400000x480_d1) ]

/-- The host prefix is its stretches in order. -/
theorem opsPre_split : (Cert.ReferenceIdeal.RefRun.opsPre (F := F))
    = T0 ++ (T1 ++ (T2 ++ (T3 ++ (T4 ++ (T5 ++ (T6 ++ (T7 ++ (T8 ++ (T9 ++ (T10 ++ (T11 ++ (T12 ++ (T13 ++ (T14 ++ (T15 ++ (T16 ++ (T17))))))))))))))))) := rfl

end Cert.ReferenceIdeal.RefSeg

end
-- ==== Proof.SegDefs.lean ====
/-
  The two host prefixes, stretch by stretch: which buffers a later stretch still reads after each cut (the live
  buffers: a handful of intermediate results and the arguments not yet consumed), as the statement that the two
  programs' contents agree on them. The prefixes are the same operations on the same buffers, so agreement on the live
  buffers before a stretch gives agreement on the live buffers after it.
-/
import proofs.«138913_j79413945303068_1_alg».proof.Proof.KIFrame
import proofs.«138913_j79413945303068_1_alg».proof.Proof.RefSeg
import Idealize.ShloMosaic.Lib.StableHlo.Run

set_option maxRecDepth 16384

noncomputable section

namespace Cert.Seg

open Idealize.ShloMosaic Idealize.ShloMosaic.TcCoe Idealize.SL.Sem Idealize.ShloMosaic.StableHlo

variable {F : FTy → Type} [FloatOps F]

/-- The three entries of a literal family of three. -/
theorem vec3_zero {α : Type} (a b c : α) : (![a, b, c] : Fin 3 → α) 0 = a := rfl
theorem vec3_one {α : Type} (a b c : α) : (![a, b, c] : Fin 3 → α) 1 = b := rfl
theorem vec3_two {α : Type} (a b c : α) : (![a, b, c] : Fin 3 → α) 2 = c := rfl

/-- A concatenation of three pieces depends on the pieces only. -/
theorem concat3_congr {α : Type} {t : Shape} {a : Fin t.rank} {s0 s1 s2 : Shape} {e0 e0' : s0.Idx → α} {e1 e1' : s1.Idx → α} {e2 e2' : s2.Idx → α}
    {h : Shape.Concatenates (([⟨s0, e0⟩, ⟨s1, e1⟩, ⟨s2, e2⟩] : List ((s : Shape) × (s.Idx → α))).map (·.1)) t a}
    {h' : Shape.Concatenates (([⟨s0, e0'⟩, ⟨s1, e1'⟩, ⟨s2, e2'⟩] : List ((s : Shape) × (s.Idx → α))).map (·.1)) t a}
    (h0 : e0 = e0') (h1 : e1 = e1') (h2 : e2 = e2') :
    concatenate t a [⟨s0, e0⟩, ⟨s1, e1⟩, ⟨s2, e2⟩] h = concatenate t a [⟨s0, e0'⟩, ⟨s1, e1'⟩, ⟨s2, e2'⟩] h' := by
  subst h0 h1 h2; rfl

/-- A concatenation of two pieces depends on the pieces only. -/
theorem concat2_congr {α : Type} {t : Shape} {a : Fin t.rank} {s0 s1 : Shape} {e0 e0' : s0.Idx → α} {e1 e1' : s1.Idx → α}
    {h : Shape.Concatenates (([⟨s0, e0⟩, ⟨s1, e1⟩] : List ((s : Shape) × (s.Idx → α))).map (·.1)) t a}
    {h' : Shape.Concatenates (([⟨s0, e0'⟩, ⟨s1, e1'⟩] : List ((s : Shape) × (s.Idx → α))).map (·.1)) t a}
    (h0 : e0 = e0') (h1 : e1 = e1') :
    concatenate t a [⟨s0, e0⟩, ⟨s1, e1⟩] h = concatenate t a [⟨s0, e0'⟩, ⟨s1, e1'⟩] h' := by
  subst h0 h1; rfl

/-- The two programs' buffer contents agree on: arg10, arg8, arg9, arg1, arg2, arg3, arg11, arg0, arg12, arg13. -/
def AgreeInit (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_arg10) = WK (Proc.devRef .tc Cert.KernelIdeal.main_arg10))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v0, arg10, arg8, arg9, arg1, arg2, arg3, arg11, arg0, arg12, arg13. -/
def Agree0 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v0) = WK (Proc.devRef .tc Cert.KernelIdeal.main_v0))
  ∧ (WR (Proc.devRef .tc Cert.ReferenceIdeal.main_arg10) = WK (Proc.devRef .tc Cert.KernelIdeal.main_arg10))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, arg10, arg8, arg9, arg1, arg2, arg3, arg11, arg0, arg12, arg13. -/
def Agree1 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_arg10) = WK (Proc.devRef .tc Cert.KernelIdeal.main_arg10))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v3, arg8, arg9, arg1, arg2, arg3, arg11, arg0, arg12, arg13. -/
def Agree2 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v3) = WK (Proc.devRef .tc Cert.KernelIdeal.main_v3))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v5, arg8, arg9, arg1, arg2, arg3, arg11, arg0, arg12, arg13. -/
def Agree3 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v5) = WK (Proc.devRef .tc Cert.KernelIdeal.main_v5))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v6, arg8, arg9, arg1, arg2, arg3, arg11, arg0, arg12, arg13. -/
def Agree4 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v6) = WK (Proc.devRef .tc Cert.KernelIdeal.main_v6))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v15, arg8, arg9, arg1, arg2, arg3, arg11, arg0, arg12, arg13. -/
def Agree5 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v15) = WK (Proc.devRef .tc Cert.KernelIdeal.main_v15))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v16, arg8, arg9, arg1, arg2, arg3, arg11, arg0, arg12, arg13. -/
def Agree6 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v16) = WK (Proc.devRef .tc Cert.KernelIdeal.main_v16))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v2, v18, arg8, arg9, arg1, arg2, arg3, arg11, arg0, arg12, arg13. -/
def Agree7 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v2) = WK (Proc.devRef .tc Cert.KernelIdeal.main_v2))
  ∧ (WR (Proc.devRef .tc Cert.ReferenceIdeal.main_v18) = WK (Proc.devRef .tc Cert.KernelIdeal.main_v18))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v1, v19, arg8, arg9, arg1, arg2, arg3, arg11, arg0, arg12, arg13. -/
def Agree8 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v1) = WK (Proc.devRef .tc Cert.KernelIdeal.main_v1))
  ∧ (WR (Proc.devRef .tc Cert.ReferenceIdeal.main_v19) = WK (Proc.devRef .tc Cert.KernelIdeal.main_v19))
  ∧ (WR (Proc.devRef .tc Cert.ReferenceIdeal.main_arg8) = WK (Proc.devRef .tc Cert.KernelIdeal.main_arg8))
  ∧ (WR (Proc.devRef .tc Cert.ReferenceIdeal.main_arg9) = WK (Proc.devRef .tc Cert.KernelIdeal.main_arg9))
  ∧ (WR (Proc.devRef .tc Cert.ReferenceIdeal.main_arg1) = WK (Proc.devRef .tc Cert.KernelIdeal.main_arg1))
  ∧ (WR (Proc.devRef .tc Cert.ReferenceIdeal.main_arg2) = WK (Proc.devRef .tc Cert.KernelIdeal.main_arg2))
  ∧ (WR (Proc.devRef .tc Cert.ReferenceIdeal.main_arg3) = WK (Proc.devRef .tc Cert.KernelIdeal.main_arg3))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, arg11, arg0, arg12, arg13. -/
def Agree9 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_arg11) = WK (Proc.devRef .tc Cert.KernelIdeal.main_arg11))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v53, arg0, arg12, arg13. -/
def Agree10 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v53) = WK (Proc.devRef .tc Cert.KernelIdeal.main_v53))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v55, arg0, arg12, arg13. -/
def Agree11 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v55) = WK (Proc.devRef .tc Cert.KernelIdeal.main_v55))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v56, arg0, arg12, arg13. -/
def Agree12 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v56) = WK (Proc.devRef .tc Cert.KernelIdeal.main_v56))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v65, arg0, arg12, arg13. -/
def Agree13 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v65) = WK (Proc.devRef .tc Cert.KernelIdeal.main_v65))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v66, arg0, arg12, arg13. -/
def Agree14 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v66) = WK (Proc.devRef .tc Cert.KernelIdeal.main_v66))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v68, arg0, arg12, arg13. -/
def Agree15 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v68) = WK (Proc.devRef .tc Cert.KernelIdeal.main_v68))
  ∧ (WR (Proc.devRef .tc Cert.ReferenceIdeal.main_arg0) = WK (Proc.devRef .tc Cert.KernelIdeal.main_arg0))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v52, v69, arg12, arg13. -/
def Agree16 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v52) = WK (Proc.devRef .tc Cert.KernelIdeal.main_v52))
  ∧ (WR (Proc.devRef .tc Cert.ReferenceIdeal.main_v69) = WK (Proc.devRef .tc Cert.KernelIdeal.main_v69))
  ∧ (WR (Proc.devRef .tc Cert.ReferenceIdeal.main_arg12) = WK (Proc.devRef .tc Cert.KernelIdeal.main_arg12))
  ∧ (WR (Proc.devRef .tc Cert.ReferenceIdeal.main_arg13) = WK (Proc.devRef .tc Cert.KernelIdeal.main_arg13))

/-- The two programs' buffer contents agree on: v84. -/
def Agree17 (WR : Valuation Cert.ReferenceIdeal.τ Cert.ReferenceIdeal.sig (Elt F)) (WK : Valuation Cert.KernelIdeal.τ Cert.KernelIdeal.sig (Elt F)) : Prop :=
  (WR (Proc.devRef .tc Cert.ReferenceIdeal.main_v84) = WK (Proc.devRef .tc Cert.KernelIdeal.main_v84))

end Cert.Seg

end
-- ==== Proof.StepsA.lean ====
/-
  The first nine stretches of the two host prefixes (the running sums of the shapes' sizes, the segment ids of the atoms): each
  live buffer after a stretch is the same function, on both sides, of the live buffers before it.
-/
import proofs.«138913_j79413945303068_1_alg».proof.Proof.SegDefs

set_option maxRecDepth 16384

noncomputable section

namespace Cert.Seg

open Idealize.ShloMosaic Idealize.ShloMosaic.TcCoe Idealize.SL.Sem Idealize.ShloMosaic.StableHlo

variable {F : FTy → Type} [FloatOps F]

set_option backward.isDefEq.respectTransparency.types false in
set_option maxHeartbeats 4000000 in
theorem step0_v0 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_v0) = StableHlo.after Cert.KernelIdeal.Gen.hostOps0 WK (Proc.devRef .tc Cert.KernelIdeal.main_v0) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg10 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg10) = StableHlo.after Cert.KernelIdeal.Gen.hostOps0 WK (Proc.devRef .tc Cert.KernelIdeal.main_arg10) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg8 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg8) = StableHlo.after Cert.KernelIdeal.Gen.hostOps0 WK (Proc.devRef .tc Cert.KernelIdeal.main_arg8) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg9 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg9) = StableHlo.after Cert.KernelIdeal.Gen.hostOps0 WK (Proc.devRef .tc Cert.KernelIdeal.main_arg9) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg1 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg1) = StableHlo.after Cert.KernelIdeal.Gen.hostOps0 WK (Proc.devRef .tc Cert.KernelIdeal.main_arg1) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg2 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg2) = StableHlo.after Cert.KernelIdeal.Gen.hostOps0 WK (Proc.devRef .tc Cert.KernelIdeal.main_arg2) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg3 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg3) = StableHlo.after Cert.KernelIdeal.Gen.hostOps0 WK (Proc.devRef .tc Cert.KernelIdeal.main_arg3) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg11 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg11) = StableHlo.after Cert.KernelIdeal.Gen.hostOps0 WK (Proc.devRef .tc Cert.KernelIdeal.main_arg11) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg0 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg0) = StableHlo.after Cert.KernelIdeal.Gen.hostOps0 WK (Proc.devRef .tc Cert.KernelIdeal.main_arg0) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg12 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg12) = StableHlo.after Cert.KernelIdeal.Gen.hostOps0 WK (Proc.devRef .tc Cert.KernelIdeal.main_arg12) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

set_option backward.isDefEq.respectTransparency.types false in
set_option maxHeartbeats 4000000 in
theorem step0_arg13 (WR : Valuation Cert.ReferenceIdeal.τ Cert.ReferenceIdeal.sig (Elt F)) (WK : Valuation Cert.KernelIdeal.τ Cert.KernelIdeal.sig (Elt F))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T0 WR (Proc.devRef .tc Cert.ReferenceIdeal.main_arg13) = StableHlo.after Cert.KernelIdeal.Gen.hostOps0 WK (Proc.devRef .tc Cert.KernelIdeal.main_arg13) := by
  simp only [Cert.ReferenceIdeal.RefSeg.T0, Cert.KernelIdeal.Gen.hostOps0]
  after_results_simp
  (try simp only [h_arg10, h_arg8, h_arg9, h_arg1, h_arg2, h_arg3, h_arg11, h_arg0, h_arg12, h_arg13]) <;> (try rfl)

/-- Stretch 0: agreement on the live buffers before it gives agreement on the live buffers after it. -/
theorem step0 (WR : Valuation Cert.ReferenceIdeal.τ Cert.ReferenceIdeal.sig (Elt F)) (WK : Valuation Cert.KernelIdeal.τ Cert.KernelIdeal.sig (Elt F)) (h : AgreeInit WR WK) :
    Agree0 (StableHlo.after Cert.ReferenceIdeal.RefSeg.T0 WR) (StableHlo.after Cert.KernelIdeal.Gen.hostOps0 WK) := by
  obtain ⟨h_arg10, h_arg8, h_arg9, h_arg1, h_arg2, h_arg3, h_arg11, h_arg0, h_arg12, h_arg13⟩ := h
  exact ⟨step0_v0 WR WK h_arg10 h_arg8 h_arg9 h_arg1 h_arg2 h_arg3 h_arg11 h_arg0 h_arg12 h_arg13,
    step0_arg10 WR WK h_arg10 h_arg8 h_arg9 h_arg1 h_arg2 h_arg3 h_arg11 h_arg0 h_arg12 h_arg13,
    step0_arg8 WR WK h_arg10 h_arg8 h_arg9 h_arg1 h_arg2 h_arg3 h_arg11 h_arg0 h_arg12 h_arg13,
    step0_arg9 WR WK h_arg10 h_arg8 h_arg9 h_arg1 h_arg2 h_arg3 h_arg11 h_arg0 h_arg12 h_arg13,
    step0_arg1 WR WK h_arg10 h_arg8 h_arg9 h_arg1 h_arg2 h_arg3 h_arg11 h_arg0 h_arg12 h_arg13,
    step0_arg2 WR WK h_arg10 h_arg8 h_arg9 h_arg1 h_arg2 h_arg3 h_arg11 h_arg0 h_arg12 h_arg13,
    step0_arg3 WR WK h_arg10 h_arg8 h_arg9 h_arg1 h_arg2 h_arg3 h_arg11 h_arg0 h_arg12 h_arg13,
    step0_arg11 WR WK h_arg10 h_arg8 h_arg9 h_arg1 h_arg2 h_arg3 h_arg11 h_arg0 h_arg12 h_arg13,
    step0_arg0 WR WK h_arg10 h_arg8 h_arg9 h_arg1 h_arg2 h_arg3 h_arg11 h_arg0 h_arg12 h_arg13,
    step0_arg12 WR WK h_arg10 h_arg8 h_arg9 h_arg1 h_arg2 h_arg3 h_arg11 h_arg0 h_arg12 h_arg13,
    step0_arg13 WR WK h_arg10 h_arg8 h_arg9 h_arg1 h_arg2 h_arg3 h_arg11 h_arg0 h_arg12 h_arg13⟩

set_option backward.isDefEq.respectTransparency.types false in
set_option maxHeartbeats 4000000 in
theorem step1_v1 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_v1) = StableHlo.after Cert.KernelIdeal.Gen.hostOps0_1 WK (Proc.devRef .tc Cert.KernelIdeal.main_v1) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_v2 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_v2) = StableHlo.after Cert.KernelIdeal.Gen.hostOps0_1 WK (Proc.devRef .tc Cert.KernelIdeal.main_v2) := by
  simp only [Cert.ReferenceIdeal.RefSeg.T1, Cert.KernelIdeal.Gen.hostOps0_1]
  after_results_simp
  all_goals ((try simp only [h_v0, h_arg10, h_arg8, h_arg9, h_arg1, h_arg2, h_arg3, h_arg11, h_arg0, h_arg12, h_arg13]) <;> (try rfl))

set_option backward.isDefEq.respectTransparency.types false in
set_option maxHeartbeats 4000000 in
theorem step1_arg10 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg10) = StableHlo.after Cert.KernelIdeal.Gen.hostOps0_1 WK (Proc.devRef .tc Cert.KernelIdeal.main_arg10) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg8 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg8) = StableHlo.after Cert.KernelIdeal.Gen.hostOps0_1 WK (Proc.devRef .tc Cert.KernelIdeal.main_arg8) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg9 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg9) = StableHlo.after Cert.KernelIdeal.Gen.hostOps0_1 WK (Proc.devRef .tc Cert.KernelIdeal.main_arg9) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg1 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg1) = StableHlo.after Cert.KernelIdeal.Gen.hostOps0_1 WK (Proc.devRef .tc Cert.KernelIdeal.main_arg1) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg2 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg2) = StableHlo.after Cert.KernelIdeal.Gen.hostOps0_1 WK (Proc.devRef .tc Cert.KernelIdeal.main_arg2) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg3 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg3) = StableHlo.after Cert.KernelIdeal.Gen.hostOps0_1 WK (Proc.devRef .tc Cert.KernelIdeal.main_arg3) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg11 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg11) = StableHlo.after Cert.KernelIdeal.Gen.hostOps0_1 WK (Proc.devRef .tc Cert.KernelIdeal.main_arg11) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg0 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg0) = StableHlo.after Cert.KernelIdeal.Gen.hostOps0_1 WK (Proc.devRef .tc Cert.KernelIdeal.main_arg0) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg12 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg12) = StableHlo.after Cert.KernelIdeal.Gen.hostOps0_1 WK (Proc.devRef .tc Cert.KernelIdeal.main_arg12) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

set_option backward.isDefEq.respectTransparency.types false in
set_option maxHeartbeats 4000000 in
theorem step1_arg13 (WR : Valuation Cert.ReferenceIdeal.τ Cert.ReferenceIdeal.sig (Elt F)) (WK : Valuation Cert.KernelIdeal.τ Cert.KernelIdeal.sig (Elt F))
    (h_v0 : WR (Proc.devRef .tc Cert.ReferenceIdeal.main_v0) = WK (Proc.devRef .tc Cert.KernelIdeal.main_v0))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T1 WR (Proc.devRef .tc Cert.ReferenceIdeal.main_arg13) = StableHlo.after Cert.KernelIdeal.Gen.hostOps0_1 WK (Proc.devRef .tc Cert.KernelIdeal.main_arg13) := by
  simp only [Cert.ReferenceIdeal.RefSeg.T1, Cert.KernelIdeal.Gen.hostOps0_1]
  after_results_simp
  (try simp only [h_v0, h_arg10, h_arg8, h_arg9, h_arg1, h_arg2, h_arg3, h_arg11, h_arg0, h_arg12, h_arg13]) <;> (try rfl)

/-- Stretch 1: agreement on the live buffers before it gives agreement on the live buffers after it. -/
theorem step1 (WR : Valuation Cert.ReferenceIdeal.τ Cert.ReferenceIdeal.sig (Elt F)) (WK : Valuation Cert.KernelIdeal.τ Cert.KernelIdeal.sig (Elt F)) (h : Agree0 WR WK) :
    Agree1 (StableHlo.after Cert.ReferenceIdeal.RefSeg.T1 WR) (StableHlo.after Cert.KernelIdeal.Gen.hostOps0_1 WK) := by
  obtain ⟨h_v0, h_arg10, h_arg8, h_arg9, h_arg1, h_arg2, h_arg3, h_arg11, h_arg0, h_arg12, h_arg13⟩ := h
  exact ⟨step1_v1 WR WK h_v0 h_arg10 h_arg8 h_arg9 h_arg1 h_arg2 h_arg3 h_arg11 h_arg0 h_arg12 h_arg13,
    step1_v2 WR WK h_v0 h_arg10 h_arg8 h_arg9 h_arg1 h_arg2 h_arg3 h_arg11 h_arg0 h_arg12 h_arg13,
    step1_arg10 WR WK h_v0 h_arg10 h_arg8 h_arg9 h_arg1 h_arg2 h_arg3 h_arg11 h_arg0 h_arg12 h_arg13,
    step1_arg8 WR WK h_v0 h_arg10 h_arg8 h_arg9 h_arg1 h_arg2 h_arg3 h_arg11 h_arg0 h_arg12 h_arg13,
    step1_arg9 WR WK h_v0 h_arg10 h_arg8 h_arg9 h_arg1 h_arg2 h_arg3 h_arg11 h_arg0 h_arg12 h_arg13,
    step1_arg1 WR WK h_v0 h_arg10 h_arg8 h_arg9 h_arg1 h_arg2 h_arg3 h_arg11 h_arg0 h_arg12 h_arg13,
    step1_arg2 WR WK h_v0 h_arg10 h_arg8 h_arg9 h_arg1 h_arg2 h_arg3 h_arg11 h_arg0 h_arg12 h_arg13,
    step1_arg3 WR WK h_v0 h_arg10 h_arg8 h_arg9 h_arg1 h_arg2 h_arg3 h_arg11 h_arg0 h_arg12 h_arg13,
    step1_arg11 WR WK h_v0 h_arg10 h_arg8 h_arg9 h_arg1 h_arg2 h_arg3 h_arg11 h_arg0 h_arg12 h_arg13,
    step1_arg0 WR WK h_v0 h_arg10 h_arg8 h_arg9 h_arg1 h_arg2 h_arg3 h_arg11 h_arg0 h_arg12 h_arg13,
    step1_arg12 WR WK h_v0 h_arg10 h_arg8 h_arg9 h_arg1 h_arg2 h_arg3 h_arg11 h_arg0 h_arg12 h_arg13,
    step1_arg13 WR WK h_v0 h_arg10 h_arg8 h_arg9 h_arg1 h_arg2 h_arg3 h_arg11 h_arg0 h_arg12 h_arg13⟩

set_option backward.isDefEq.respectTransparency.types false in
set_option maxHeartbeats 4000000 in
theorem step2_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_v1) = StableHlo.after Cert.KernelIdeal.Gen.hostOps0_2 WK (Proc.devRef .tc Cert.KernelIdeal.main_v1) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_v2) = StableHlo.after Cert.KernelIdeal.Gen.hostOps0_2 WK (Proc.devRef .tc Cert.KernelIdeal.main_v2) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_v3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_v3) = StableHlo.after Cert.KernelIdeal.Gen.hostOps0_2 WK (Proc.devRef .tc Cert.KernelIdeal.main_v3) := by
  simp only [Cert.ReferenceIdeal.RefSeg.T2, Cert.KernelIdeal.Gen.hostOps0_2]
  after_results
  dsimp only [TRef.of]
  rw [h_arg10] <;> (try rfl)

set_option backward.isDefEq.respectTransparency.types false in
set_option maxHeartbeats 4000000 in
theorem step2_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg8) = StableHlo.after Cert.KernelIdeal.Gen.hostOps0_2 WK (Proc.devRef .tc Cert.KernelIdeal.main_arg8) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg9) = StableHlo.after Cert.KernelIdeal.Gen.hostOps0_2 WK (Proc.devRef .tc Cert.KernelIdeal.main_arg9) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg1) = StableHlo.after Cert.KernelIdeal.Gen.hostOps0_2 WK (Proc.devRef .tc Cert.KernelIdeal.main_arg1) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg2) = StableHlo.after Cert.KernelIdeal.Gen.hostOps0_2 WK (Proc.devRef .tc Cert.KernelIdeal.main_arg2) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg3) = StableHlo.after Cert.KernelIdeal.Gen.hostOps0_2 WK (Proc.devRef .tc Cert.KernelIdeal.main_arg3) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg11) = StableHlo.after Cert.KernelIdeal.Gen.hostOps0_2 WK (Proc.devRef .tc Cert.KernelIdeal.main_arg11) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg0) = StableHlo.after Cert.KernelIdeal.Gen.hostOps0_2 WK (Proc.devRef .tc Cert.KernelIdeal.main_arg0) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg12) = StableHlo.after Cert.KernelIdeal.Gen.hostOps0_2 WK (Proc.devRef .tc Cert.KernelIdeal.main_arg12) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

set_option backward.isDefEq.respectTransparency.types false in
set_option maxHeartbeats 4000000 in
theorem step2_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_arg10 : WR (Proc.devRef .tc Cert.ReferenceIdeal.main_arg10) = WK (Proc.devRef .tc Cert.KernelIdeal.main_arg10))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T2 WR (Proc.devRef .tc Cert.ReferenceIdeal.main_arg13) = StableHlo.after Cert.KernelIdeal.Gen.hostOps0_2 WK (Proc.devRef .tc Cert.KernelIdeal.main_arg13) := by
  simp only [Cert.ReferenceIdeal.RefSeg.T2, Cert.KernelIdeal.Gen.hostOps0_2]
  after_results_simp
  (try simp only [h_v1, h_v2, h_arg10, h_arg8, h_arg9, h_arg1, h_arg2, h_arg3, h_arg11, h_arg0, h_arg12, h_arg13]) <;> (try rfl)

/-- Stretch 2: agreement on the live buffers before it gives agreement on the live buffers after it. -/
theorem step2 (WR : Valuation Cert.ReferenceIdeal.τ Cert.ReferenceIdeal.sig (Elt F)) (WK : Valuation Cert.KernelIdeal.τ Cert.KernelIdeal.sig (Elt F)) (h : Agree1 WR WK) :
    Agree2 (StableHlo.after Cert.ReferenceIdeal.RefSeg.T2 WR) (StableHlo.after Cert.KernelIdeal.Gen.hostOps0_2 WK) := by
  obtain ⟨h_v1, h_v2, h_arg10, h_arg8, h_arg9, h_arg1, h_arg2, h_arg3, h_arg11, h_arg0, h_arg12, h_arg13⟩ := h
  exact ⟨step2_v1 WR WK h_v1 h_v2 h_arg10 h_arg8 h_arg9 h_arg1 h_arg2 h_arg3 h_arg11 h_arg0 h_arg12 h_arg13,
    step2_v2 WR WK h_v1 h_v2 h_arg10 h_arg8 h_arg9 h_arg1 h_arg2 h_arg3 h_arg11 h_arg0 h_arg12 h_arg13,
    step2_v3 WR WK h_v1 h_v2 h_arg10 h_arg8 h_arg9 h_arg1 h_arg2 h_arg3 h_arg11 h_arg0 h_arg12 h_arg13,
    step2_arg8 WR WK h_v1 h_v2 h_arg10 h_arg8 h_arg9 h_arg1 h_arg2 h_arg3 h_arg11 h_arg0 h_arg12 h_arg13,
    step2_arg9 WR WK h_v1 h_v2 h_arg10 h_arg8 h_arg9 h_arg1 h_arg2 h_arg3 h_arg11 h_arg0 h_arg12 h_arg13,
    step2_arg1 WR WK h_v1 h_v2 h_arg10 h_arg8 h_arg9 h_arg1 h_arg2 h_arg3 h_arg11 h_arg0 h_arg12 h_arg13,
    step2_arg2 WR WK h_v1 h_v2 h_arg10 h_arg8 h_arg9 h_arg1 h_arg2 h_arg3 h_arg11 h_arg0 h_arg12 h_arg13,
    step2_arg3 WR WK h_v1 h_v2 h_arg10 h_arg8 h_arg9 h_arg1 h_arg2 h_arg3 h_arg11 h_arg0 h_arg12 h_arg13,
    step2_arg11 WR WK h_v1 h_v2 h_arg10 h_arg8 h_arg9 h_arg1 h_arg2 h_arg3 h_arg11 h_arg0 h_arg12 h_arg13,
    step2_arg0 WR WK h_v1 h_v2 h_arg10 h_arg8 h_arg9 h_arg1 h_arg2 h_arg3 h_arg11 h_arg0 h_arg12 h_arg13,
    step2_arg12 WR WK h_v1 h_v2 h_arg10 h_arg8 h_arg9 h_arg1 h_arg2 h_arg3 h_arg11 h_arg0 h_arg12 h_arg13,
    step2_arg13 WR WK h_v1 h_v2 h_arg10 h_arg8 h_arg9 h_arg1 h_arg2 h_arg3 h_arg11 h_arg0 h_arg12 h_arg13⟩

set_option backward.isDefEq.respectTransparency.types false in
set_option maxHeartbeats 4000000 in
theorem step3_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_v1) = StableHlo.after Cert.KernelIdeal.Gen.hostOps0_3 WK (Proc.devRef .tc Cert.KernelIdeal.main_v1) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_v2) = StableHlo.after Cert.KernelIdeal.Gen.hostOps0_3 WK (Proc.devRef .tc Cert.KernelIdeal.main_v2) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_v5 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_v5) = StableHlo.after Cert.KernelIdeal.Gen.hostOps0_3 WK (Proc.devRef .tc Cert.KernelIdeal.main_v5) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg8) = StableHlo.after Cert.KernelIdeal.Gen.hostOps0_3 WK (Proc.devRef .tc Cert.KernelIdeal.main_arg8) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg9) = StableHlo.after Cert.KernelIdeal.Gen.hostOps0_3 WK (Proc.devRef .tc Cert.KernelIdeal.main_arg9) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg1) = StableHlo.after Cert.KernelIdeal.Gen.hostOps0_3 WK (Proc.devRef .tc Cert.KernelIdeal.main_arg1) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg2) = StableHlo.after Cert.KernelIdeal.Gen.hostOps0_3 WK (Proc.devRef .tc Cert.KernelIdeal.main_arg2) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg3) = StableHlo.after Cert.KernelIdeal.Gen.hostOps0_3 WK (Proc.devRef .tc Cert.KernelIdeal.main_arg3) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg11) = StableHlo.after Cert.KernelIdeal.Gen.hostOps0_3 WK (Proc.devRef .tc Cert.KernelIdeal.main_arg11) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg0) = StableHlo.after Cert.KernelIdeal.Gen.hostOps0_3 WK (Proc.devRef .tc Cert.KernelIdeal.main_arg0) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg12) = StableHlo.after Cert.KernelIdeal.Gen.hostOps0_3 WK (Proc.devRef .tc Cert.KernelIdeal.main_arg12) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

set_option backward.isDefEq.respectTransparency.types false in
set_option maxHeartbeats 4000000 in
theorem step3_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v3 : WR (Proc.devRef .tc Cert.ReferenceIdeal.main_v3) = WK (Proc.devRef .tc Cert.KernelIdeal.main_v3))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T3 WR (Proc.devRef .tc Cert.ReferenceIdeal.main_arg13) = StableHlo.after Cert.KernelIdeal.Gen.hostOps0_3 WK (Proc.devRef .tc Cert.KernelIdeal.main_arg13) := by
  simp only [Cert.ReferenceIdeal.RefSeg.T3, Cert.KernelIdeal.Gen.hostOps0_3]
  after_results_simp
  (try simp only [h_v1, h_v2, h_v3, h_arg8, h_arg9, h_arg1, h_arg2, h_arg3, h_arg11, h_arg0, h_arg12, h_arg13]) <;> (try rfl)

/-- Stretch 3: agreement on the live buffers before it gives agreement on the live buffers after it. -/
theorem step3 (WR : Valuation Cert.ReferenceIdeal.τ Cert.ReferenceIdeal.sig (Elt F)) (WK : Valuation Cert.KernelIdeal.τ Cert.KernelIdeal.sig (Elt F)) (h : Agree2 WR WK) :
    Agree3 (StableHlo.after Cert.ReferenceIdeal.RefSeg.T3 WR) (StableHlo.after Cert.KernelIdeal.Gen.hostOps0_3 WK) := by
  obtain ⟨h_v1, h_v2, h_v3, h_arg8, h_arg9, h_arg1, h_arg2, h_arg3, h_arg11, h_arg0, h_arg12, h_arg13⟩ := h
  exact ⟨step3_v1 WR WK h_v1 h_v2 h_v3 h_arg8 h_arg9 h_arg1 h_arg2 h_arg3 h_arg11 h_arg0 h_arg12 h_arg13,
    step3_v2 WR WK h_v1 h_v2 h_v3 h_arg8 h_arg9 h_arg1 h_arg2 h_arg3 h_arg11 h_arg0 h_arg12 h_arg13,
    step3_v5 WR WK h_v1 h_v2 h_v3 h_arg8 h_arg9 h_arg1 h_arg2 h_arg3 h_arg11 h_arg0 h_arg12 h_arg13,
    step3_arg8 WR WK h_v1 h_v2 h_v3 h_arg8 h_arg9 h_arg1 h_arg2 h_arg3 h_arg11 h_arg0 h_arg12 h_arg13,
    step3_arg9 WR WK h_v1 h_v2 h_v3 h_arg8 h_arg9 h_arg1 h_arg2 h_arg3 h_arg11 h_arg0 h_arg12 h_arg13,
    step3_arg1 WR WK h_v1 h_v2 h_v3 h_arg8 h_arg9 h_arg1 h_arg2 h_arg3 h_arg11 h_arg0 h_arg12 h_arg13,
    step3_arg2 WR WK h_v1 h_v2 h_v3 h_arg8 h_arg9 h_arg1 h_arg2 h_arg3 h_arg11 h_arg0 h_arg12 h_arg13,
    step3_arg3 WR WK h_v1 h_v2 h_v3 h_arg8 h_arg9 h_arg1 h_arg2 h_arg3 h_arg11 h_arg0 h_arg12 h_arg13,
    step3_arg11 WR WK h_v1 h_v2 h_v3 h_arg8 h_arg9 h_arg1 h_arg2 h_arg3 h_arg11 h_arg0 h_arg12 h_arg13,
    step3_arg0 WR WK h_v1 h_v2 h_v3 h_arg8 h_arg9 h_arg1 h_arg2 h_arg3 h_arg11 h_arg0 h_arg12 h_arg13,
    step3_arg12 WR WK h_v1 h_v2 h_v3 h_arg8 h_arg9 h_arg1 h_arg2 h_arg3 h_arg11 h_arg0 h_arg12 h_arg13,
    step3_arg13 WR WK h_v1 h_v2 h_v3 h_arg8 h_arg9 h_arg1 h_arg2 h_arg3 h_arg11 h_arg0 h_arg12 h_arg13⟩

set_option backward.isDefEq.respectTransparency.types false in
set_option maxHeartbeats 4000000 in
theorem step4_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_v1) = StableHlo.after Cert.KernelIdeal.Gen.hostOps0_4 WK (Proc.devRef .tc Cert.KernelIdeal.main_v1) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_v2) = StableHlo.after Cert.KernelIdeal.Gen.hostOps0_4 WK (Proc.devRef .tc Cert.KernelIdeal.main_v2) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_v6 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_v6) = StableHlo.after Cert.KernelIdeal.Gen.hostOps0_4 WK (Proc.devRef .tc Cert.KernelIdeal.main_v6) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg8) = StableHlo.after Cert.KernelIdeal.Gen.hostOps0_4 WK (Proc.devRef .tc Cert.KernelIdeal.main_arg8) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg9) = StableHlo.after Cert.KernelIdeal.Gen.hostOps0_4 WK (Proc.devRef .tc Cert.KernelIdeal.main_arg9) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg1) = StableHlo.after Cert.KernelIdeal.Gen.hostOps0_4 WK (Proc.devRef .tc Cert.KernelIdeal.main_arg1) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg2) = StableHlo.after Cert.KernelIdeal.Gen.hostOps0_4 WK (Proc.devRef .tc Cert.KernelIdeal.main_arg2) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg3) = StableHlo.after Cert.KernelIdeal.Gen.hostOps0_4 WK (Proc.devRef .tc Cert.KernelIdeal.main_arg3) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg11) = StableHlo.after Cert.KernelIdeal.Gen.hostOps0_4 WK (Proc.devRef .tc Cert.KernelIdeal.main_arg11) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg0) = StableHlo.after Cert.KernelIdeal.Gen.hostOps0_4 WK (Proc.devRef .tc Cert.KernelIdeal.main_arg0) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg12) = StableHlo.after Cert.KernelIdeal.Gen.hostOps0_4 WK (Proc.devRef .tc Cert.KernelIdeal.main_arg12) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

set_option backward.isDefEq.respectTransparency.types false in
set_option maxHeartbeats 4000000 in
theorem step4_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v5 : WR (Proc.devRef .tc Cert.ReferenceIdeal.main_v5) = WK (Proc.devRef .tc Cert.KernelIdeal.main_v5))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T4 WR (Proc.devRef .tc Cert.ReferenceIdeal.main_arg13) = StableHlo.after Cert.KernelIdeal.Gen.hostOps0_4 WK (Proc.devRef .tc Cert.KernelIdeal.main_arg13) := by
  simp only [Cert.ReferenceIdeal.RefSeg.T4, Cert.KernelIdeal.Gen.hostOps0_4]
  after_results_simp
  (try simp only [h_v1, h_v2, h_v5, h_arg8, h_arg9, h_arg1, h_arg2, h_arg3, h_arg11, h_arg0, h_arg12, h_arg13]) <;> (try rfl)

/-- Stretch 4: agreement on the live buffers before it gives agreement on the live buffers after it. -/
theorem step4 (WR : Valuation Cert.ReferenceIdeal.τ Cert.ReferenceIdeal.sig (Elt F)) (WK : Valuation Cert.KernelIdeal.τ Cert.KernelIdeal.sig (Elt F)) (h : Agree3 WR WK) :
    Agree4 (StableHlo.after Cert.ReferenceIdeal.RefSeg.T4 WR) (StableHlo.after Cert.KernelIdeal.Gen.hostOps0_4 WK) := by
  obtain ⟨h_v1, h_v2, h_v5, h_arg8, h_arg9, h_arg1, h_arg2, h_arg3, h_arg11, h_arg0, h_arg12, h_arg13⟩ := h
  exact ⟨step4_v1 WR WK h_v1 h_v2 h_v5 h_arg8 h_arg9 h_arg1 h_arg2 h_arg3 h_arg11 h_arg0 h_arg12 h_arg13,
    step4_v2 WR WK h_v1 h_v2 h_v5 h_arg8 h_arg9 h_arg1 h_arg2 h_arg3 h_arg11 h_arg0 h_arg12 h_arg13,
    step4_v6 WR WK h_v1 h_v2 h_v5 h_arg8 h_arg9 h_arg1 h_arg2 h_arg3 h_arg11 h_arg0 h_arg12 h_arg13,
    step4_arg8 WR WK h_v1 h_v2 h_v5 h_arg8 h_arg9 h_arg1 h_arg2 h_arg3 h_arg11 h_arg0 h_arg12 h_arg13,
    step4_arg9 WR WK h_v1 h_v2 h_v5 h_arg8 h_arg9 h_arg1 h_arg2 h_arg3 h_arg11 h_arg0 h_arg12 h_arg13,
    step4_arg1 WR WK h_v1 h_v2 h_v5 h_arg8 h_arg9 h_arg1 h_arg2 h_arg3 h_arg11 h_arg0 h_arg12 h_arg13,
    step4_arg2 WR WK h_v1 h_v2 h_v5 h_arg8 h_arg9 h_arg1 h_arg2 h_arg3 h_arg11 h_arg0 h_arg12 h_arg13,
    step4_arg3 WR WK h_v1 h_v2 h_v5 h_arg8 h_arg9 h_arg1 h_arg2 h_arg3 h_arg11 h_arg0 h_arg12 h_arg13,
    step4_arg11 WR WK h_v1 h_v2 h_v5 h_arg8 h_arg9 h_arg1 h_arg2 h_arg3 h_arg11 h_arg0 h_arg12 h_arg13,
    step4_arg0 WR WK h_v1 h_v2 h_v5 h_arg8 h_arg9 h_arg1 h_arg2 h_arg3 h_arg11 h_arg0 h_arg12 h_arg13,
    step4_arg12 WR WK h_v1 h_v2 h_v5 h_arg8 h_arg9 h_arg1 h_arg2 h_arg3 h_arg11 h_arg0 h_arg12 h_arg13,
    step4_arg13 WR WK h_v1 h_v2 h_v5 h_arg8 h_arg9 h_arg1 h_arg2 h_arg3 h_arg11 h_arg0 h_arg12 h_arg13⟩

set_option backward.isDefEq.respectTransparency.types false in
set_option maxHeartbeats 4000000 in
theorem step5_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_v1) = StableHlo.after Cert.KernelIdeal.Gen.hostOps0_5 WK (Proc.devRef .tc Cert.KernelIdeal.main_v1) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_v2) = StableHlo.after Cert.KernelIdeal.Gen.hostOps0_5 WK (Proc.devRef .tc Cert.KernelIdeal.main_v2) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_v15 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_v15) = StableHlo.after Cert.KernelIdeal.Gen.hostOps0_5 WK (Proc.devRef .tc Cert.KernelIdeal.main_v15) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg8) = StableHlo.after Cert.KernelIdeal.Gen.hostOps0_5 WK (Proc.devRef .tc Cert.KernelIdeal.main_arg8) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg9) = StableHlo.after Cert.KernelIdeal.Gen.hostOps0_5 WK (Proc.devRef .tc Cert.KernelIdeal.main_arg9) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg1) = StableHlo.after Cert.KernelIdeal.Gen.hostOps0_5 WK (Proc.devRef .tc Cert.KernelIdeal.main_arg1) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg2) = StableHlo.after Cert.KernelIdeal.Gen.hostOps0_5 WK (Proc.devRef .tc Cert.KernelIdeal.main_arg2) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg3) = StableHlo.after Cert.KernelIdeal.Gen.hostOps0_5 WK (Proc.devRef .tc Cert.KernelIdeal.main_arg3) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg11) = StableHlo.after Cert.KernelIdeal.Gen.hostOps0_5 WK (Proc.devRef .tc Cert.KernelIdeal.main_arg11) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg0) = StableHlo.after Cert.KernelIdeal.Gen.hostOps0_5 WK (Proc.devRef .tc Cert.KernelIdeal.main_arg0) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg12) = StableHlo.after Cert.KernelIdeal.Gen.hostOps0_5 WK (Proc.devRef .tc Cert.KernelIdeal.main_arg12) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

set_option backward.isDefEq.respectTransparency.types false in
set_option maxHeartbeats 4000000 in
theorem step5_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v6 : WR (Proc.devRef .tc Cert.ReferenceIdeal.main_v6) = WK (Proc.devRef .tc Cert.KernelIdeal.main_v6))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T5 WR (Proc.devRef .tc Cert.ReferenceIdeal.main_arg13) = StableHlo.after Cert.KernelIdeal.Gen.hostOps0_5 WK (Proc.devRef .tc Cert.KernelIdeal.main_arg13) := by
  simp only [Cert.ReferenceIdeal.RefSeg.T5, Cert.KernelIdeal.Gen.hostOps0_5]
  after_results_simp
  (try simp only [h_v1, h_v2, h_v6, h_arg8, h_arg9, h_arg1, h_arg2, h_arg3, h_arg11, h_arg0, h_arg12, h_arg13]) <;> (try rfl)

/-- Stretch 5: agreement on the live buffers before it gives agreement on the live buffers after it. -/
theorem step5 (WR : Valuation Cert.ReferenceIdeal.τ Cert.ReferenceIdeal.sig (Elt F)) (WK : Valuation Cert.KernelIdeal.τ Cert.KernelIdeal.sig (Elt F)) (h : Agree4 WR WK) :
    Agree5 (StableHlo.after Cert.ReferenceIdeal.RefSeg.T5 WR) (StableHlo.after Cert.KernelIdeal.Gen.hostOps0_5 WK) := by
  obtain ⟨h_v1, h_v2, h_v6, h_arg8, h_arg9, h_arg1, h_arg2, h_arg3, h_arg11, h_arg0, h_arg12, h_arg13⟩ := h
  exact ⟨step5_v1 WR WK h_v1 h_v2 h_v6 h_arg8 h_arg9 h_arg1 h_arg2 h_arg3 h_arg11 h_arg0 h_arg12 h_arg13,
    step5_v2 WR WK h_v1 h_v2 h_v6 h_arg8 h_arg9 h_arg1 h_arg2 h_arg3 h_arg11 h_arg0 h_arg12 h_arg13,
    step5_v15 WR WK h_v1 h_v2 h_v6 h_arg8 h_arg9 h_arg1 h_arg2 h_arg3 h_arg11 h_arg0 h_arg12 h_arg13,
    step5_arg8 WR WK h_v1 h_v2 h_v6 h_arg8 h_arg9 h_arg1 h_arg2 h_arg3 h_arg11 h_arg0 h_arg12 h_arg13,
    step5_arg9 WR WK h_v1 h_v2 h_v6 h_arg8 h_arg9 h_arg1 h_arg2 h_arg3 h_arg11 h_arg0 h_arg12 h_arg13,
    step5_arg1 WR WK h_v1 h_v2 h_v6 h_arg8 h_arg9 h_arg1 h_arg2 h_arg3 h_arg11 h_arg0 h_arg12 h_arg13,
    step5_arg2 WR WK h_v1 h_v2 h_v6 h_arg8 h_arg9 h_arg1 h_arg2 h_arg3 h_arg11 h_arg0 h_arg12 h_arg13,
    step5_arg3 WR WK h_v1 h_v2 h_v6 h_arg8 h_arg9 h_arg1 h_arg2 h_arg3 h_arg11 h_arg0 h_arg12 h_arg13,
    step5_arg11 WR WK h_v1 h_v2 h_v6 h_arg8 h_arg9 h_arg1 h_arg2 h_arg3 h_arg11 h_arg0 h_arg12 h_arg13,
    step5_arg0 WR WK h_v1 h_v2 h_v6 h_arg8 h_arg9 h_arg1 h_arg2 h_arg3 h_arg11 h_arg0 h_arg12 h_arg13,
    step5_arg12 WR WK h_v1 h_v2 h_v6 h_arg8 h_arg9 h_arg1 h_arg2 h_arg3 h_arg11 h_arg0 h_arg12 h_arg13,
    step5_arg13 WR WK h_v1 h_v2 h_v6 h_arg8 h_arg9 h_arg1 h_arg2 h_arg3 h_arg11 h_arg0 h_arg12 h_arg13⟩

set_option backward.isDefEq.respectTransparency.types false in
set_option maxHeartbeats 4000000 in
theorem step6_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_v1) = StableHlo.after Cert.KernelIdeal.Gen.hostOps0_6 WK (Proc.devRef .tc Cert.KernelIdeal.main_v1) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_v2) = StableHlo.after Cert.KernelIdeal.Gen.hostOps0_6 WK (Proc.devRef .tc Cert.KernelIdeal.main_v2) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_v16 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_v16) = StableHlo.after Cert.KernelIdeal.Gen.hostOps0_6 WK (Proc.devRef .tc Cert.KernelIdeal.main_v16) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg8) = StableHlo.after Cert.KernelIdeal.Gen.hostOps0_6 WK (Proc.devRef .tc Cert.KernelIdeal.main_arg8) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg9) = StableHlo.after Cert.KernelIdeal.Gen.hostOps0_6 WK (Proc.devRef .tc Cert.KernelIdeal.main_arg9) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg1) = StableHlo.after Cert.KernelIdeal.Gen.hostOps0_6 WK (Proc.devRef .tc Cert.KernelIdeal.main_arg1) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg2) = StableHlo.after Cert.KernelIdeal.Gen.hostOps0_6 WK (Proc.devRef .tc Cert.KernelIdeal.main_arg2) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg3) = StableHlo.after Cert.KernelIdeal.Gen.hostOps0_6 WK (Proc.devRef .tc Cert.KernelIdeal.main_arg3) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg11) = StableHlo.after Cert.KernelIdeal.Gen.hostOps0_6 WK (Proc.devRef .tc Cert.KernelIdeal.main_arg11) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg0) = StableHlo.after Cert.KernelIdeal.Gen.hostOps0_6 WK (Proc.devRef .tc Cert.KernelIdeal.main_arg0) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg12) = StableHlo.after Cert.KernelIdeal.Gen.hostOps0_6 WK (Proc.devRef .tc Cert.KernelIdeal.main_arg12) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

set_option backward.isDefEq.respectTransparency.types false in
set_option maxHeartbeats 4000000 in
theorem step6_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v15 : WR (Proc.devRef .tc Cert.ReferenceIdeal.main_v15) = WK (Proc.devRef .tc Cert.KernelIdeal.main_v15))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T6 WR (Proc.devRef .tc Cert.ReferenceIdeal.main_arg13) = StableHlo.after Cert.KernelIdeal.Gen.hostOps0_6 WK (Proc.devRef .tc Cert.KernelIdeal.main_arg13) := by
  simp only [Cert.ReferenceIdeal.RefSeg.T6, Cert.KernelIdeal.Gen.hostOps0_6]
  after_results_simp
  (try simp only [h_v1, h_v2, h_v15, h_arg8, h_arg9, h_arg1, h_arg2, h_arg3, h_arg11, h_arg0, h_arg12, h_arg13]) <;> (try rfl)

/-- Stretch 6: agreement on the live buffers before it gives agreement on the live buffers after it. -/
theorem step6 (WR : Valuation Cert.ReferenceIdeal.τ Cert.ReferenceIdeal.sig (Elt F)) (WK : Valuation Cert.KernelIdeal.τ Cert.KernelIdeal.sig (Elt F)) (h : Agree5 WR WK) :
    Agree6 (StableHlo.after Cert.ReferenceIdeal.RefSeg.T6 WR) (StableHlo.after Cert.KernelIdeal.Gen.hostOps0_6 WK) := by
  obtain ⟨h_v1, h_v2, h_v15, h_arg8, h_arg9, h_arg1, h_arg2, h_arg3, h_arg11, h_arg0, h_arg12, h_arg13⟩ := h
  exact ⟨step6_v1 WR WK h_v1 h_v2 h_v15 h_arg8 h_arg9 h_arg1 h_arg2 h_arg3 h_arg11 h_arg0 h_arg12 h_arg13,
    step6_v2 WR WK h_v1 h_v2 h_v15 h_arg8 h_arg9 h_arg1 h_arg2 h_arg3 h_arg11 h_arg0 h_arg12 h_arg13,
    step6_v16 WR WK h_v1 h_v2 h_v15 h_arg8 h_arg9 h_arg1 h_arg2 h_arg3 h_arg11 h_arg0 h_arg12 h_arg13,
    step6_arg8 WR WK h_v1 h_v2 h_v15 h_arg8 h_arg9 h_arg1 h_arg2 h_arg3 h_arg11 h_arg0 h_arg12 h_arg13,
    step6_arg9 WR WK h_v1 h_v2 h_v15 h_arg8 h_arg9 h_arg1 h_arg2 h_arg3 h_arg11 h_arg0 h_arg12 h_arg13,
    step6_arg1 WR WK h_v1 h_v2 h_v15 h_arg8 h_arg9 h_arg1 h_arg2 h_arg3 h_arg11 h_arg0 h_arg12 h_arg13,
    step6_arg2 WR WK h_v1 h_v2 h_v15 h_arg8 h_arg9 h_arg1 h_arg2 h_arg3 h_arg11 h_arg0 h_arg12 h_arg13,
    step6_arg3 WR WK h_v1 h_v2 h_v15 h_arg8 h_arg9 h_arg1 h_arg2 h_arg3 h_arg11 h_arg0 h_arg12 h_arg13,
    step6_arg11 WR WK h_v1 h_v2 h_v15 h_arg8 h_arg9 h_arg1 h_arg2 h_arg3 h_arg11 h_arg0 h_arg12 h_arg13,
    step6_arg0 WR WK h_v1 h_v2 h_v15 h_arg8 h_arg9 h_arg1 h_arg2 h_arg3 h_arg11 h_arg0 h_arg12 h_arg13,
    step6_arg12 WR WK h_v1 h_v2 h_v15 h_arg8 h_arg9 h_arg1 h_arg2 h_arg3 h_arg11 h_arg0 h_arg12 h_arg13,
    step6_arg13 WR WK h_v1 h_v2 h_v15 h_arg8 h_arg9 h_arg1 h_arg2 h_arg3 h_arg11 h_arg0 h_arg12 h_arg13⟩

set_option backward.isDefEq.respectTransparency.types false in
set_option maxHeartbeats 4000000 in
theorem step7_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_v1) = StableHlo.after Cert.KernelIdeal.Gen.hostOps0_7 WK (Proc.devRef .tc Cert.KernelIdeal.main_v1) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_v2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_v2) = StableHlo.after Cert.KernelIdeal.Gen.hostOps0_7 WK (Proc.devRef .tc Cert.KernelIdeal.main_v2) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_v18 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_v18) = StableHlo.after Cert.KernelIdeal.Gen.hostOps0_7 WK (Proc.devRef .tc Cert.KernelIdeal.main_v18) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg8) = StableHlo.after Cert.KernelIdeal.Gen.hostOps0_7 WK (Proc.devRef .tc Cert.KernelIdeal.main_arg8) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg9) = StableHlo.after Cert.KernelIdeal.Gen.hostOps0_7 WK (Proc.devRef .tc Cert.KernelIdeal.main_arg9) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg1) = StableHlo.after Cert.KernelIdeal.Gen.hostOps0_7 WK (Proc.devRef .tc Cert.KernelIdeal.main_arg1) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg2) = StableHlo.after Cert.KernelIdeal.Gen.hostOps0_7 WK (Proc.devRef .tc Cert.KernelIdeal.main_arg2) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg3) = StableHlo.after Cert.KernelIdeal.Gen.hostOps0_7 WK (Proc.devRef .tc Cert.KernelIdeal.main_arg3) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg11) = StableHlo.after Cert.KernelIdeal.Gen.hostOps0_7 WK (Proc.devRef .tc Cert.KernelIdeal.main_arg11) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg0) = StableHlo.after Cert.KernelIdeal.Gen.hostOps0_7 WK (Proc.devRef .tc Cert.KernelIdeal.main_arg0) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg12) = StableHlo.after Cert.KernelIdeal.Gen.hostOps0_7 WK (Proc.devRef .tc Cert.KernelIdeal.main_arg12) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

set_option backward.isDefEq.respectTransparency.types false in
set_option maxHeartbeats 4000000 in
theorem step7_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v16 : WR (Proc.devRef .tc Cert.ReferenceIdeal.main_v16) = WK (Proc.devRef .tc Cert.KernelIdeal.main_v16))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T7 WR (Proc.devRef .tc Cert.ReferenceIdeal.main_arg13) = StableHlo.after Cert.KernelIdeal.Gen.hostOps0_7 WK (Proc.devRef .tc Cert.KernelIdeal.main_arg13) := by
  simp only [Cert.ReferenceIdeal.RefSeg.T7, Cert.KernelIdeal.Gen.hostOps0_7]
  after_results_simp
  (try simp only [h_v1, h_v2, h_v16, h_arg8, h_arg9, h_arg1, h_arg2, h_arg3, h_arg11, h_arg0, h_arg12, h_arg13]) <;> (try rfl)

/-- Stretch 7: agreement on the live buffers before it gives agreement on the live buffers after it. -/
theorem step7 (WR : Valuation Cert.ReferenceIdeal.τ Cert.ReferenceIdeal.sig (Elt F)) (WK : Valuation Cert.KernelIdeal.τ Cert.KernelIdeal.sig (Elt F)) (h : Agree6 WR WK) :
    Agree7 (StableHlo.after Cert.ReferenceIdeal.RefSeg.T7 WR) (StableHlo.after Cert.KernelIdeal.Gen.hostOps0_7 WK) := by
  obtain ⟨h_v1, h_v2, h_v16, h_arg8, h_arg9, h_arg1, h_arg2, h_arg3, h_arg11, h_arg0, h_arg12, h_arg13⟩ := h
  exact ⟨step7_v1 WR WK h_v1 h_v2 h_v16 h_arg8 h_arg9 h_arg1 h_arg2 h_arg3 h_arg11 h_arg0 h_arg12 h_arg13,
    step7_v2 WR WK h_v1 h_v2 h_v16 h_arg8 h_arg9 h_arg1 h_arg2 h_arg3 h_arg11 h_arg0 h_arg12 h_arg13,
    step7_v18 WR WK h_v1 h_v2 h_v16 h_arg8 h_arg9 h_arg1 h_arg2 h_arg3 h_arg11 h_arg0 h_arg12 h_arg13,
    step7_arg8 WR WK h_v1 h_v2 h_v16 h_arg8 h_arg9 h_arg1 h_arg2 h_arg3 h_arg11 h_arg0 h_arg12 h_arg13,
    step7_arg9 WR WK h_v1 h_v2 h_v16 h_arg8 h_arg9 h_arg1 h_arg2 h_arg3 h_arg11 h_arg0 h_arg12 h_arg13,
    step7_arg1 WR WK h_v1 h_v2 h_v16 h_arg8 h_arg9 h_arg1 h_arg2 h_arg3 h_arg11 h_arg0 h_arg12 h_arg13,
    step7_arg2 WR WK h_v1 h_v2 h_v16 h_arg8 h_arg9 h_arg1 h_arg2 h_arg3 h_arg11 h_arg0 h_arg12 h_arg13,
    step7_arg3 WR WK h_v1 h_v2 h_v16 h_arg8 h_arg9 h_arg1 h_arg2 h_arg3 h_arg11 h_arg0 h_arg12 h_arg13,
    step7_arg11 WR WK h_v1 h_v2 h_v16 h_arg8 h_arg9 h_arg1 h_arg2 h_arg3 h_arg11 h_arg0 h_arg12 h_arg13,
    step7_arg0 WR WK h_v1 h_v2 h_v16 h_arg8 h_arg9 h_arg1 h_arg2 h_arg3 h_arg11 h_arg0 h_arg12 h_arg13,
    step7_arg12 WR WK h_v1 h_v2 h_v16 h_arg8 h_arg9 h_arg1 h_arg2 h_arg3 h_arg11 h_arg0 h_arg12 h_arg13,
    step7_arg13 WR WK h_v1 h_v2 h_v16 h_arg8 h_arg9 h_arg1 h_arg2 h_arg3 h_arg11 h_arg0 h_arg12 h_arg13⟩

set_option backward.isDefEq.respectTransparency.types false in
set_option maxHeartbeats 4000000 in
theorem step8_v1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_v1) = StableHlo.after Cert.KernelIdeal.Gen.hostOps0_8 WK (Proc.devRef .tc Cert.KernelIdeal.main_v1) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_v19 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_v19) = StableHlo.after Cert.KernelIdeal.Gen.hostOps0_8 WK (Proc.devRef .tc Cert.KernelIdeal.main_v19) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg8 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg8) = StableHlo.after Cert.KernelIdeal.Gen.hostOps0_8 WK (Proc.devRef .tc Cert.KernelIdeal.main_arg8) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg9 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg9) = StableHlo.after Cert.KernelIdeal.Gen.hostOps0_8 WK (Proc.devRef .tc Cert.KernelIdeal.main_arg9) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg1 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg1) = StableHlo.after Cert.KernelIdeal.Gen.hostOps0_8 WK (Proc.devRef .tc Cert.KernelIdeal.main_arg1) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg2 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg2) = StableHlo.after Cert.KernelIdeal.Gen.hostOps0_8 WK (Proc.devRef .tc Cert.KernelIdeal.main_arg2) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg3 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg3) = StableHlo.after Cert.KernelIdeal.Gen.hostOps0_8 WK (Proc.devRef .tc Cert.KernelIdeal.main_arg3) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg11) = StableHlo.after Cert.KernelIdeal.Gen.hostOps0_8 WK (Proc.devRef .tc Cert.KernelIdeal.main_arg11) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg0) = StableHlo.after Cert.KernelIdeal.Gen.hostOps0_8 WK (Proc.devRef .tc Cert.KernelIdeal.main_arg0) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg12) = StableHlo.after Cert.KernelIdeal.Gen.hostOps0_8 WK (Proc.devRef .tc Cert.KernelIdeal.main_arg12) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

set_option backward.isDefEq.respectTransparency.types false in
set_option maxHeartbeats 4000000 in
theorem step8_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v2 : WR (Proc.devRef .tc Cert.ReferenceIdeal.main_v2) = WK (Proc.devRef .tc Cert.KernelIdeal.main_v2))
    (h_v18 : WR (Proc.devRef .tc Cert.ReferenceIdeal.main_v18) = WK (Proc.devRef .tc Cert.KernelIdeal.main_v18))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T8 WR (Proc.devRef .tc Cert.ReferenceIdeal.main_arg13) = StableHlo.after Cert.KernelIdeal.Gen.hostOps0_8 WK (Proc.devRef .tc Cert.KernelIdeal.main_arg13) := by
  simp only [Cert.ReferenceIdeal.RefSeg.T8, Cert.KernelIdeal.Gen.hostOps0_8]
  after_results_simp
  (try simp only [h_v1, h_v2, h_v18, h_arg8, h_arg9, h_arg1, h_arg2, h_arg3, h_arg11, h_arg0, h_arg12, h_arg13]) <;> (try rfl)

/-- Stretch 8: agreement on the live buffers before it gives agreement on the live buffers after it. -/
theorem step8 (WR : Valuation Cert.ReferenceIdeal.τ Cert.ReferenceIdeal.sig (Elt F)) (WK : Valuation Cert.KernelIdeal.τ Cert.KernelIdeal.sig (Elt F)) (h : Agree7 WR WK) :
    Agree8 (StableHlo.after Cert.ReferenceIdeal.RefSeg.T8 WR) (StableHlo.after Cert.KernelIdeal.Gen.hostOps0_8 WK) := by
  obtain ⟨h_v1, h_v2, h_v18, h_arg8, h_arg9, h_arg1, h_arg2, h_arg3, h_arg11, h_arg0, h_arg12, h_arg13⟩ := h
  exact ⟨step8_v1 WR WK h_v1 h_v2 h_v18 h_arg8 h_arg9 h_arg1 h_arg2 h_arg3 h_arg11 h_arg0 h_arg12 h_arg13,
    step8_v19 WR WK h_v1 h_v2 h_v18 h_arg8 h_arg9 h_arg1 h_arg2 h_arg3 h_arg11 h_arg0 h_arg12 h_arg13,
    step8_arg8 WR WK h_v1 h_v2 h_v18 h_arg8 h_arg9 h_arg1 h_arg2 h_arg3 h_arg11 h_arg0 h_arg12 h_arg13,
    step8_arg9 WR WK h_v1 h_v2 h_v18 h_arg8 h_arg9 h_arg1 h_arg2 h_arg3 h_arg11 h_arg0 h_arg12 h_arg13,
    step8_arg1 WR WK h_v1 h_v2 h_v18 h_arg8 h_arg9 h_arg1 h_arg2 h_arg3 h_arg11 h_arg0 h_arg12 h_arg13,
    step8_arg2 WR WK h_v1 h_v2 h_v18 h_arg8 h_arg9 h_arg1 h_arg2 h_arg3 h_arg11 h_arg0 h_arg12 h_arg13,
    step8_arg3 WR WK h_v1 h_v2 h_v18 h_arg8 h_arg9 h_arg1 h_arg2 h_arg3 h_arg11 h_arg0 h_arg12 h_arg13,
    step8_arg11 WR WK h_v1 h_v2 h_v18 h_arg8 h_arg9 h_arg1 h_arg2 h_arg3 h_arg11 h_arg0 h_arg12 h_arg13,
    step8_arg0 WR WK h_v1 h_v2 h_v18 h_arg8 h_arg9 h_arg1 h_arg2 h_arg3 h_arg11 h_arg0 h_arg12 h_arg13,
    step8_arg12 WR WK h_v1 h_v2 h_v18 h_arg8 h_arg9 h_arg1 h_arg2 h_arg3 h_arg11 h_arg0 h_arg12 h_arg13,
    step8_arg13 WR WK h_v1 h_v2 h_v18 h_arg8 h_arg9 h_arg1 h_arg2 h_arg3 h_arg11 h_arg0 h_arg12 h_arg13⟩

end Cert.Seg

end
-- ==== Proof.StepsB.lean ====
/-
  The last nine stretches of the two host prefixes (the atoms' feature rows, the shape rows repeated per edge, the rows gathered at
  the two ends of each edge and their concatenation): each live buffer after a stretch is the same function, on both sides, of
  the live buffers before it.
-/
import proofs.«138913_j79413945303068_1_alg».proof.Proof.SegDefs

set_option maxRecDepth 16384

noncomputable section

namespace Cert.Seg

open Idealize.ShloMosaic Idealize.ShloMosaic.TcCoe Idealize.SL.Sem Idealize.ShloMosaic.StableHlo

variable {F : FTy → Type} [FloatOps F]

set_option backward.isDefEq.respectTransparency.types false in
set_option maxHeartbeats 4000000 in
theorem step9_v52 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v19 : WR (Proc.devRef .tc Cert.ReferenceIdeal.main_v19) = WK (Proc.devRef .tc Cert.KernelIdeal.main_v19))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T9 WR (Proc.devRef .tc Cert.ReferenceIdeal.main_v52) = StableHlo.after Cert.KernelIdeal.Gen.hostOps0_9 WK (Proc.devRef .tc Cert.KernelIdeal.main_v52) := by
  simp only [Cert.ReferenceIdeal.RefSeg.T9, Cert.KernelIdeal.Gen.hostOps0_9]
  after_results_simp
  refine concat3_congr ?_ ?_ ?_
  · dsimp only [vec3_zero, vec3_one, vec3_two]
    after_results_simp
    (try simp only [h_v1, h_v19, h_arg8, h_arg9, h_arg1, h_arg2, h_arg3, h_arg11, h_arg0, h_arg12, h_arg13]) <;> (try rfl)
  · dsimp only [vec3_zero, vec3_one, vec3_two]
    after_results_simp
    (try simp only [h_v1, h_v19, h_arg8, h_arg9, h_arg1, h_arg2, h_arg3, h_arg11, h_arg0, h_arg12, h_arg13]) <;> (try rfl)
  · dsimp only [vec3_zero, vec3_one, vec3_two]
    after_results_simp
    (try simp only [h_v1, h_v19, h_arg8, h_arg9, h_arg1, h_arg2, h_arg3, h_arg11, h_arg0, h_arg12, h_arg13]) <;> (try rfl)

set_option backward.isDefEq.respectTransparency.types false in
set_option maxHeartbeats 4000000 in
theorem step9_arg11 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v19 : WR (Proc.devRef .tc Cert.ReferenceIdeal.main_v19) = WK (Proc.devRef .tc Cert.KernelIdeal.main_v19))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T9 WR (Proc.devRef .tc Cert.ReferenceIdeal.main_arg11) = StableHlo.after Cert.KernelIdeal.Gen.hostOps0_9 WK (Proc.devRef .tc Cert.KernelIdeal.main_arg11) := by
  simp only [Cert.ReferenceIdeal.RefSeg.T9, Cert.KernelIdeal.Gen.hostOps0_9]
  after_results_simp
  (try simp only [h_v1, h_v19, h_arg8, h_arg9, h_arg1, h_arg2, h_arg3, h_arg11, h_arg0, h_arg12, h_arg13]) <;> (try rfl)

set_option backward.isDefEq.respectTransparency.types false in
set_option maxHeartbeats 4000000 in
theorem step9_arg0 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v19 : WR (Proc.devRef .tc Cert.ReferenceIdeal.main_v19) = WK (Proc.devRef .tc Cert.KernelIdeal.main_v19))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T9 WR (Proc.devRef .tc Cert.ReferenceIdeal.main_arg0) = StableHlo.after Cert.KernelIdeal.Gen.hostOps0_9 WK (Proc.devRef .tc Cert.KernelIdeal.main_arg0) := by
  simp only [Cert.ReferenceIdeal.RefSeg.T9, Cert.KernelIdeal.Gen.hostOps0_9]
  after_results_simp
  (try simp only [h_v1, h_v19, h_arg8, h_arg9, h_arg1, h_arg2, h_arg3, h_arg11, h_arg0, h_arg12, h_arg13]) <;> (try rfl)

set_option backward.isDefEq.respectTransparency.types false in
set_option maxHeartbeats 4000000 in
theorem step9_arg12 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v19 : WR (Proc.devRef .tc Cert.ReferenceIdeal.main_v19) = WK (Proc.devRef .tc Cert.KernelIdeal.main_v19))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T9 WR (Proc.devRef .tc Cert.ReferenceIdeal.main_arg12) = StableHlo.after Cert.KernelIdeal.Gen.hostOps0_9 WK (Proc.devRef .tc Cert.KernelIdeal.main_arg12) := by
  simp only [Cert.ReferenceIdeal.RefSeg.T9, Cert.KernelIdeal.Gen.hostOps0_9]
  after_results_simp
  (try simp only [h_v1, h_v19, h_arg8, h_arg9, h_arg1, h_arg2, h_arg3, h_arg11, h_arg0, h_arg12, h_arg13]) <;> (try rfl)

set_option backward.isDefEq.respectTransparency.types false in
set_option maxHeartbeats 4000000 in
theorem step9_arg13 (WR : Valuation Cert.ReferenceIdeal.τ Cert.ReferenceIdeal.sig (Elt F)) (WK : Valuation Cert.KernelIdeal.τ Cert.KernelIdeal.sig (Elt F))
    (h_v1 : WR (Proc.devRef .tc Cert.ReferenceIdeal.main_v1) = WK (Proc.devRef .tc Cert.KernelIdeal.main_v1))
    (h_v19 : WR (Proc.devRef .tc Cert.ReferenceIdeal.main_v19) = WK (Proc.devRef .tc Cert.KernelIdeal.main_v19))
    (h_arg8 : WR (Proc.devRef .tc Cert.ReferenceIdeal.main_arg8) = WK (Proc.devRef .tc Cert.KernelIdeal.main_arg8))
    (h_arg9 : WR (Proc.devRef .tc Cert.ReferenceIdeal.main_arg9) = WK (Proc.devRef .tc Cert.KernelIdeal.main_arg9))
    (h_arg1 : WR (Proc.devRef .tc Cert.ReferenceIdeal.main_arg1) = WK (Proc.devRef .tc Cert.KernelIdeal.main_arg1))
    (h_arg2 : WR (Proc.devRef .tc Cert.ReferenceIdeal.main_arg2) = WK (Proc.devRef .tc Cert.KernelIdeal.main_arg2))
    (h_arg3 : WR (Proc.devRef .tc Cert.ReferenceIdeal.main_arg3) = WK (Proc.devRef .tc Cert.KernelIdeal.main_arg3))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T9 WR (Proc.devRef .tc Cert.ReferenceIdeal.main_arg13) = StableHlo.after Cert.KernelIdeal.Gen.hostOps0_9 WK (Proc.devRef .tc Cert.KernelIdeal.main_arg13) := by
  simp only [Cert.ReferenceIdeal.RefSeg.T9, Cert.KernelIdeal.Gen.hostOps0_9]
  after_results_simp
  (try simp only [h_v1, h_v19, h_arg8, h_arg9, h_arg1, h_arg2, h_arg3, h_arg11, h_arg0, h_arg12, h_arg13]) <;> (try rfl)

/-- Stretch 9: agreement on the live buffers before it gives agreement on the live buffers after it. -/
theorem step9 (WR : Valuation Cert.ReferenceIdeal.τ Cert.ReferenceIdeal.sig (Elt F)) (WK : Valuation Cert.KernelIdeal.τ Cert.KernelIdeal.sig (Elt F)) (h : Agree8 WR WK) :
    Agree9 (StableHlo.after Cert.ReferenceIdeal.RefSeg.T9 WR) (StableHlo.after Cert.KernelIdeal.Gen.hostOps0_9 WK) := by
  obtain ⟨h_v1, h_v19, h_arg8, h_arg9, h_arg1, h_arg2, h_arg3, h_arg11, h_arg0, h_arg12, h_arg13⟩ := h
  exact ⟨step9_v52 WR WK h_v1 h_v19 h_arg8 h_arg9 h_arg1 h_arg2 h_arg3 h_arg11 h_arg0 h_arg12 h_arg13,
    step9_arg11 WR WK h_v1 h_v19 h_arg8 h_arg9 h_arg1 h_arg2 h_arg3 h_arg11 h_arg0 h_arg12 h_arg13,
    step9_arg0 WR WK h_v1 h_v19 h_arg8 h_arg9 h_arg1 h_arg2 h_arg3 h_arg11 h_arg0 h_arg12 h_arg13,
    step9_arg12 WR WK h_v1 h_v19 h_arg8 h_arg9 h_arg1 h_arg2 h_arg3 h_arg11 h_arg0 h_arg12 h_arg13,
    step9_arg13 WR WK h_v1 h_v19 h_arg8 h_arg9 h_arg1 h_arg2 h_arg3 h_arg11 h_arg0 h_arg12 h_arg13⟩

set_option backward.isDefEq.respectTransparency.types false in
set_option maxHeartbeats 4000000 in
theorem step10_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T10 WR (Proc.devRef .tc Cert.ReferenceIdeal.main_v52) = StableHlo.after Cert.KernelIdeal.Gen.hostOps0_10 WK (Proc.devRef .tc Cert.KernelIdeal.main_v52) := by
  simp only [Cert.ReferenceIdeal.RefSeg.T10, Cert.KernelIdeal.Gen.hostOps0_10]
  after_results_simp
  (try simp only [h_v52, h_arg11, h_arg0, h_arg12, h_arg13]) <;> (try rfl)

set_option backward.isDefEq.respectTransparency.types false in
set_option maxHeartbeats 4000000 in
theorem step10_v53 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T10 WR (Proc.devRef .tc Cert.ReferenceIdeal.main_v53) = StableHlo.after Cert.KernelIdeal.Gen.hostOps0_10 WK (Proc.devRef .tc Cert.KernelIdeal.main_v53) := by
  simp only [Cert.ReferenceIdeal.RefSeg.T10, Cert.KernelIdeal.Gen.hostOps0_10]
  after_results
  (try rw [h_arg11]) <;> (try rfl)

set_option backward.isDefEq.respectTransparency.types false in
set_option maxHeartbeats 4000000 in
theorem step10_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T10 WR (Proc.devRef .tc Cert.ReferenceIdeal.main_arg0) = StableHlo.after Cert.KernelIdeal.Gen.hostOps0_10 WK (Proc.devRef .tc Cert.KernelIdeal.main_arg0) := by
  simp only [Cert.ReferenceIdeal.RefSeg.T10, Cert.KernelIdeal.Gen.hostOps0_10]
  after_results_simp
  (try simp only [h_v52, h_arg11, h_arg0, h_arg12, h_arg13]) <;> (try rfl)

set_option backward.isDefEq.respectTransparency.types false in
set_option maxHeartbeats 4000000 in
theorem step10_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T10 WR (Proc.devRef .tc Cert.ReferenceIdeal.main_arg12) = StableHlo.after Cert.KernelIdeal.Gen.hostOps0_10 WK (Proc.devRef .tc Cert.KernelIdeal.main_arg12) := by
  simp only [Cert.ReferenceIdeal.RefSeg.T10, Cert.KernelIdeal.Gen.hostOps0_10]
  after_results_simp
  (try simp only [h_v52, h_arg11, h_arg0, h_arg12, h_arg13]) <;> (try rfl)

set_option backward.isDefEq.respectTransparency.types false in
set_option maxHeartbeats 4000000 in
theorem step10_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_arg11 : WR (Proc.devRef .tc Cert.ReferenceIdeal.main_arg11) = WK (Proc.devRef .tc Cert.KernelIdeal.main_arg11))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T10 WR (Proc.devRef .tc Cert.ReferenceIdeal.main_arg13) = StableHlo.after Cert.KernelIdeal.Gen.hostOps0_10 WK (Proc.devRef .tc Cert.KernelIdeal.main_arg13) := by
  simp only [Cert.ReferenceIdeal.RefSeg.T10, Cert.KernelIdeal.Gen.hostOps0_10]
  after_results_simp
  (try simp only [h_v52, h_arg11, h_arg0, h_arg12, h_arg13]) <;> (try rfl)

/-- Stretch 10: agreement on the live buffers before it gives agreement on the live buffers after it. -/
theorem step10 (WR : Valuation Cert.ReferenceIdeal.τ Cert.ReferenceIdeal.sig (Elt F)) (WK : Valuation Cert.KernelIdeal.τ Cert.KernelIdeal.sig (Elt F)) (h : Agree9 WR WK) :
    Agree10 (StableHlo.after Cert.ReferenceIdeal.RefSeg.T10 WR) (StableHlo.after Cert.KernelIdeal.Gen.hostOps0_10 WK) := by
  obtain ⟨h_v52, h_arg11, h_arg0, h_arg12, h_arg13⟩ := h
  exact ⟨step10_v52 WR WK h_v52 h_arg11 h_arg0 h_arg12 h_arg13,
    step10_v53 WR WK h_v52 h_arg11 h_arg0 h_arg12 h_arg13,
    step10_arg0 WR WK h_v52 h_arg11 h_arg0 h_arg12 h_arg13,
    step10_arg12 WR WK h_v52 h_arg11 h_arg0 h_arg12 h_arg13,
    step10_arg13 WR WK h_v52 h_arg11 h_arg0 h_arg12 h_arg13⟩

set_option backward.isDefEq.respectTransparency.types false in
set_option maxHeartbeats 4000000 in
theorem step11_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v53 : WR (Proc.devRef .tc Cert.ReferenceIdeal.main_v53) = WK (Proc.devRef .tc Cert.KernelIdeal.main_v53))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T11 WR (Proc.devRef .tc Cert.ReferenceIdeal.main_v52) = StableHlo.after Cert.KernelIdeal.Gen.hostOps0_11 WK (Proc.devRef .tc Cert.KernelIdeal.main_v52) := by
  simp only [Cert.ReferenceIdeal.RefSeg.T11, Cert.KernelIdeal.Gen.hostOps0_11]
  after_results_simp
  (try simp only [h_v52, h_v53, h_arg0, h_arg12, h_arg13]) <;> (try rfl)

set_option backward.isDefEq.respectTransparency.types false in
set_option maxHeartbeats 4000000 in
theorem step11_v55 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v53 : WR (Proc.devRef .tc Cert.ReferenceIdeal.main_v53) = WK (Proc.devRef .tc Cert.KernelIdeal.main_v53))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T11 WR (Proc.devRef .tc Cert.ReferenceIdeal.main_v55) = StableHlo.after Cert.KernelIdeal.Gen.hostOps0_11 WK (Proc.devRef .tc Cert.KernelIdeal.main_v55) := by
  simp only [Cert.ReferenceIdeal.RefSeg.T11, Cert.KernelIdeal.Gen.hostOps0_11]
  after_results_simp
  (try simp only [h_v52, h_v53, h_arg0, h_arg12, h_arg13]) <;> (try rfl)

set_option backward.isDefEq.respectTransparency.types false in
set_option maxHeartbeats 4000000 in
theorem step11_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v53 : WR (Proc.devRef .tc Cert.ReferenceIdeal.main_v53) = WK (Proc.devRef .tc Cert.KernelIdeal.main_v53))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T11 WR (Proc.devRef .tc Cert.ReferenceIdeal.main_arg0) = StableHlo.after Cert.KernelIdeal.Gen.hostOps0_11 WK (Proc.devRef .tc Cert.KernelIdeal.main_arg0) := by
  simp only [Cert.ReferenceIdeal.RefSeg.T11, Cert.KernelIdeal.Gen.hostOps0_11]
  after_results_simp
  (try simp only [h_v52, h_v53, h_arg0, h_arg12, h_arg13]) <;> (try rfl)

set_option backward.isDefEq.respectTransparency.types false in
set_option maxHeartbeats 4000000 in
theorem step11_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v53 : WR (Proc.devRef .tc Cert.ReferenceIdeal.main_v53) = WK (Proc.devRef .tc Cert.KernelIdeal.main_v53))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T11 WR (Proc.devRef .tc Cert.ReferenceIdeal.main_arg12) = StableHlo.after Cert.KernelIdeal.Gen.hostOps0_11 WK (Proc.devRef .tc Cert.KernelIdeal.main_arg12) := by
  simp only [Cert.ReferenceIdeal.RefSeg.T11, Cert.KernelIdeal.Gen.hostOps0_11]
  after_results_simp
  (try simp only [h_v52, h_v53, h_arg0, h_arg12, h_arg13]) <;> (try rfl)

set_option backward.isDefEq.respectTransparency.types false in
set_option maxHeartbeats 4000000 in
theorem step11_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v53 : WR (Proc.devRef .tc Cert.ReferenceIdeal.main_v53) = WK (Proc.devRef .tc Cert.KernelIdeal.main_v53))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T11 WR (Proc.devRef .tc Cert.ReferenceIdeal.main_arg13) = StableHlo.after Cert.KernelIdeal.Gen.hostOps0_11 WK (Proc.devRef .tc Cert.KernelIdeal.main_arg13) := by
  simp only [Cert.ReferenceIdeal.RefSeg.T11, Cert.KernelIdeal.Gen.hostOps0_11]
  after_results_simp
  (try simp only [h_v52, h_v53, h_arg0, h_arg12, h_arg13]) <;> (try rfl)

/-- Stretch 11: agreement on the live buffers before it gives agreement on the live buffers after it. -/
theorem step11 (WR : Valuation Cert.ReferenceIdeal.τ Cert.ReferenceIdeal.sig (Elt F)) (WK : Valuation Cert.KernelIdeal.τ Cert.KernelIdeal.sig (Elt F)) (h : Agree10 WR WK) :
    Agree11 (StableHlo.after Cert.ReferenceIdeal.RefSeg.T11 WR) (StableHlo.after Cert.KernelIdeal.Gen.hostOps0_11 WK) := by
  obtain ⟨h_v52, h_v53, h_arg0, h_arg12, h_arg13⟩ := h
  exact ⟨step11_v52 WR WK h_v52 h_v53 h_arg0 h_arg12 h_arg13,
    step11_v55 WR WK h_v52 h_v53 h_arg0 h_arg12 h_arg13,
    step11_arg0 WR WK h_v52 h_v53 h_arg0 h_arg12 h_arg13,
    step11_arg12 WR WK h_v52 h_v53 h_arg0 h_arg12 h_arg13,
    step11_arg13 WR WK h_v52 h_v53 h_arg0 h_arg12 h_arg13⟩

set_option backward.isDefEq.respectTransparency.types false in
set_option maxHeartbeats 4000000 in
theorem step12_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v55 : WR (Proc.devRef .tc Cert.ReferenceIdeal.main_v55) = WK (Proc.devRef .tc Cert.KernelIdeal.main_v55))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T12 WR (Proc.devRef .tc Cert.ReferenceIdeal.main_v52) = StableHlo.after Cert.KernelIdeal.Gen.hostOps0_12 WK (Proc.devRef .tc Cert.KernelIdeal.main_v52) := by
  simp only [Cert.ReferenceIdeal.RefSeg.T12, Cert.KernelIdeal.Gen.hostOps0_12]
  after_results_simp
  (try simp only [h_v52, h_v55, h_arg0, h_arg12, h_arg13]) <;> (try rfl)

set_option backward.isDefEq.respectTransparency.types false in
set_option maxHeartbeats 4000000 in
theorem step12_v56 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v55 : WR (Proc.devRef .tc Cert.ReferenceIdeal.main_v55) = WK (Proc.devRef .tc Cert.KernelIdeal.main_v55))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T12 WR (Proc.devRef .tc Cert.ReferenceIdeal.main_v56) = StableHlo.after Cert.KernelIdeal.Gen.hostOps0_12 WK (Proc.devRef .tc Cert.KernelIdeal.main_v56) := by
  simp only [Cert.ReferenceIdeal.RefSeg.T12, Cert.KernelIdeal.Gen.hostOps0_12]
  after_results_simp
  (try simp only [h_v52, h_v55, h_arg0, h_arg12, h_arg13]) <;> (try rfl)

set_option backward.isDefEq.respectTransparency.types false in
set_option maxHeartbeats 4000000 in
theorem step12_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v55 : WR (Proc.devRef .tc Cert.ReferenceIdeal.main_v55) = WK (Proc.devRef .tc Cert.KernelIdeal.main_v55))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T12 WR (Proc.devRef .tc Cert.ReferenceIdeal.main_arg0) = StableHlo.after Cert.KernelIdeal.Gen.hostOps0_12 WK (Proc.devRef .tc Cert.KernelIdeal.main_arg0) := by
  simp only [Cert.ReferenceIdeal.RefSeg.T12, Cert.KernelIdeal.Gen.hostOps0_12]
  after_results_simp
  (try simp only [h_v52, h_v55, h_arg0, h_arg12, h_arg13]) <;> (try rfl)

set_option backward.isDefEq.respectTransparency.types false in
set_option maxHeartbeats 4000000 in
theorem step12_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v55 : WR (Proc.devRef .tc Cert.ReferenceIdeal.main_v55) = WK (Proc.devRef .tc Cert.KernelIdeal.main_v55))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T12 WR (Proc.devRef .tc Cert.ReferenceIdeal.main_arg12) = StableHlo.after Cert.KernelIdeal.Gen.hostOps0_12 WK (Proc.devRef .tc Cert.KernelIdeal.main_arg12) := by
  simp only [Cert.ReferenceIdeal.RefSeg.T12, Cert.KernelIdeal.Gen.hostOps0_12]
  after_results_simp
  (try simp only [h_v52, h_v55, h_arg0, h_arg12, h_arg13]) <;> (try rfl)

set_option backward.isDefEq.respectTransparency.types false in
set_option maxHeartbeats 4000000 in
theorem step12_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v55 : WR (Proc.devRef .tc Cert.ReferenceIdeal.main_v55) = WK (Proc.devRef .tc Cert.KernelIdeal.main_v55))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T12 WR (Proc.devRef .tc Cert.ReferenceIdeal.main_arg13) = StableHlo.after Cert.KernelIdeal.Gen.hostOps0_12 WK (Proc.devRef .tc Cert.KernelIdeal.main_arg13) := by
  simp only [Cert.ReferenceIdeal.RefSeg.T12, Cert.KernelIdeal.Gen.hostOps0_12]
  after_results_simp
  (try simp only [h_v52, h_v55, h_arg0, h_arg12, h_arg13]) <;> (try rfl)

/-- Stretch 12: agreement on the live buffers before it gives agreement on the live buffers after it. -/
theorem step12 (WR : Valuation Cert.ReferenceIdeal.τ Cert.ReferenceIdeal.sig (Elt F)) (WK : Valuation Cert.KernelIdeal.τ Cert.KernelIdeal.sig (Elt F)) (h : Agree11 WR WK) :
    Agree12 (StableHlo.after Cert.ReferenceIdeal.RefSeg.T12 WR) (StableHlo.after Cert.KernelIdeal.Gen.hostOps0_12 WK) := by
  obtain ⟨h_v52, h_v55, h_arg0, h_arg12, h_arg13⟩ := h
  exact ⟨step12_v52 WR WK h_v52 h_v55 h_arg0 h_arg12 h_arg13,
    step12_v56 WR WK h_v52 h_v55 h_arg0 h_arg12 h_arg13,
    step12_arg0 WR WK h_v52 h_v55 h_arg0 h_arg12 h_arg13,
    step12_arg12 WR WK h_v52 h_v55 h_arg0 h_arg12 h_arg13,
    step12_arg13 WR WK h_v52 h_v55 h_arg0 h_arg12 h_arg13⟩

set_option backward.isDefEq.respectTransparency.types false in
set_option maxHeartbeats 4000000 in
theorem step13_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v56 : WR (Proc.devRef .tc Cert.ReferenceIdeal.main_v56) = WK (Proc.devRef .tc Cert.KernelIdeal.main_v56))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T13 WR (Proc.devRef .tc Cert.ReferenceIdeal.main_v52) = StableHlo.after Cert.KernelIdeal.Gen.hostOps0_13 WK (Proc.devRef .tc Cert.KernelIdeal.main_v52) := by
  simp only [Cert.ReferenceIdeal.RefSeg.T13, Cert.KernelIdeal.Gen.hostOps0_13]
  after_results_simp
  (try simp only [h_v52, h_v56, h_arg0, h_arg12, h_arg13]) <;> (try rfl)

set_option backward.isDefEq.respectTransparency.types false in
set_option maxHeartbeats 4000000 in
theorem step13_v65 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v56 : WR (Proc.devRef .tc Cert.ReferenceIdeal.main_v56) = WK (Proc.devRef .tc Cert.KernelIdeal.main_v56))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T13 WR (Proc.devRef .tc Cert.ReferenceIdeal.main_v65) = StableHlo.after Cert.KernelIdeal.Gen.hostOps0_13 WK (Proc.devRef .tc Cert.KernelIdeal.main_v65) := by
  simp only [Cert.ReferenceIdeal.RefSeg.T13, Cert.KernelIdeal.Gen.hostOps0_13]
  after_results_simp
  (try simp only [h_v52, h_v56, h_arg0, h_arg12, h_arg13]) <;> (try rfl)

set_option backward.isDefEq.respectTransparency.types false in
set_option maxHeartbeats 4000000 in
theorem step13_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v56 : WR (Proc.devRef .tc Cert.ReferenceIdeal.main_v56) = WK (Proc.devRef .tc Cert.KernelIdeal.main_v56))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T13 WR (Proc.devRef .tc Cert.ReferenceIdeal.main_arg0) = StableHlo.after Cert.KernelIdeal.Gen.hostOps0_13 WK (Proc.devRef .tc Cert.KernelIdeal.main_arg0) := by
  simp only [Cert.ReferenceIdeal.RefSeg.T13, Cert.KernelIdeal.Gen.hostOps0_13]
  after_results_simp
  (try simp only [h_v52, h_v56, h_arg0, h_arg12, h_arg13]) <;> (try rfl)

set_option backward.isDefEq.respectTransparency.types false in
set_option maxHeartbeats 4000000 in
theorem step13_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v56 : WR (Proc.devRef .tc Cert.ReferenceIdeal.main_v56) = WK (Proc.devRef .tc Cert.KernelIdeal.main_v56))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T13 WR (Proc.devRef .tc Cert.ReferenceIdeal.main_arg12) = StableHlo.after Cert.KernelIdeal.Gen.hostOps0_13 WK (Proc.devRef .tc Cert.KernelIdeal.main_arg12) := by
  simp only [Cert.ReferenceIdeal.RefSeg.T13, Cert.KernelIdeal.Gen.hostOps0_13]
  after_results_simp
  (try simp only [h_v52, h_v56, h_arg0, h_arg12, h_arg13]) <;> (try rfl)

set_option backward.isDefEq.respectTransparency.types false in
set_option maxHeartbeats 4000000 in
theorem step13_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v56 : WR (Proc.devRef .tc Cert.ReferenceIdeal.main_v56) = WK (Proc.devRef .tc Cert.KernelIdeal.main_v56))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T13 WR (Proc.devRef .tc Cert.ReferenceIdeal.main_arg13) = StableHlo.after Cert.KernelIdeal.Gen.hostOps0_13 WK (Proc.devRef .tc Cert.KernelIdeal.main_arg13) := by
  simp only [Cert.ReferenceIdeal.RefSeg.T13, Cert.KernelIdeal.Gen.hostOps0_13]
  after_results_simp
  (try simp only [h_v52, h_v56, h_arg0, h_arg12, h_arg13]) <;> (try rfl)

/-- Stretch 13: agreement on the live buffers before it gives agreement on the live buffers after it. -/
theorem step13 (WR : Valuation Cert.ReferenceIdeal.τ Cert.ReferenceIdeal.sig (Elt F)) (WK : Valuation Cert.KernelIdeal.τ Cert.KernelIdeal.sig (Elt F)) (h : Agree12 WR WK) :
    Agree13 (StableHlo.after Cert.ReferenceIdeal.RefSeg.T13 WR) (StableHlo.after Cert.KernelIdeal.Gen.hostOps0_13 WK) := by
  obtain ⟨h_v52, h_v56, h_arg0, h_arg12, h_arg13⟩ := h
  exact ⟨step13_v52 WR WK h_v52 h_v56 h_arg0 h_arg12 h_arg13,
    step13_v65 WR WK h_v52 h_v56 h_arg0 h_arg12 h_arg13,
    step13_arg0 WR WK h_v52 h_v56 h_arg0 h_arg12 h_arg13,
    step13_arg12 WR WK h_v52 h_v56 h_arg0 h_arg12 h_arg13,
    step13_arg13 WR WK h_v52 h_v56 h_arg0 h_arg12 h_arg13⟩

set_option backward.isDefEq.respectTransparency.types false in
set_option maxHeartbeats 4000000 in
theorem step14_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v65 : WR (Proc.devRef .tc Cert.ReferenceIdeal.main_v65) = WK (Proc.devRef .tc Cert.KernelIdeal.main_v65))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T14 WR (Proc.devRef .tc Cert.ReferenceIdeal.main_v52) = StableHlo.after Cert.KernelIdeal.Gen.hostOps0_14 WK (Proc.devRef .tc Cert.KernelIdeal.main_v52) := by
  simp only [Cert.ReferenceIdeal.RefSeg.T14, Cert.KernelIdeal.Gen.hostOps0_14]
  after_results_simp
  (try simp only [h_v52, h_v65, h_arg0, h_arg12, h_arg13]) <;> (try rfl)

set_option backward.isDefEq.respectTransparency.types false in
set_option maxHeartbeats 4000000 in
theorem step14_v66 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v65 : WR (Proc.devRef .tc Cert.ReferenceIdeal.main_v65) = WK (Proc.devRef .tc Cert.KernelIdeal.main_v65))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T14 WR (Proc.devRef .tc Cert.ReferenceIdeal.main_v66) = StableHlo.after Cert.KernelIdeal.Gen.hostOps0_14 WK (Proc.devRef .tc Cert.KernelIdeal.main_v66) := by
  simp only [Cert.ReferenceIdeal.RefSeg.T14, Cert.KernelIdeal.Gen.hostOps0_14]
  after_results_simp
  (try simp only [h_v52, h_v65, h_arg0, h_arg12, h_arg13]) <;> (try rfl)

set_option backward.isDefEq.respectTransparency.types false in
set_option maxHeartbeats 4000000 in
theorem step14_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v65 : WR (Proc.devRef .tc Cert.ReferenceIdeal.main_v65) = WK (Proc.devRef .tc Cert.KernelIdeal.main_v65))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T14 WR (Proc.devRef .tc Cert.ReferenceIdeal.main_arg0) = StableHlo.after Cert.KernelIdeal.Gen.hostOps0_14 WK (Proc.devRef .tc Cert.KernelIdeal.main_arg0) := by
  simp only [Cert.ReferenceIdeal.RefSeg.T14, Cert.KernelIdeal.Gen.hostOps0_14]
  after_results_simp
  (try simp only [h_v52, h_v65, h_arg0, h_arg12, h_arg13]) <;> (try rfl)

set_option backward.isDefEq.respectTransparency.types false in
set_option maxHeartbeats 4000000 in
theorem step14_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v65 : WR (Proc.devRef .tc Cert.ReferenceIdeal.main_v65) = WK (Proc.devRef .tc Cert.KernelIdeal.main_v65))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T14 WR (Proc.devRef .tc Cert.ReferenceIdeal.main_arg12) = StableHlo.after Cert.KernelIdeal.Gen.hostOps0_14 WK (Proc.devRef .tc Cert.KernelIdeal.main_arg12) := by
  simp only [Cert.ReferenceIdeal.RefSeg.T14, Cert.KernelIdeal.Gen.hostOps0_14]
  after_results_simp
  (try simp only [h_v52, h_v65, h_arg0, h_arg12, h_arg13]) <;> (try rfl)

set_option backward.isDefEq.respectTransparency.types false in
set_option maxHeartbeats 4000000 in
theorem step14_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v65 : WR (Proc.devRef .tc Cert.ReferenceIdeal.main_v65) = WK (Proc.devRef .tc Cert.KernelIdeal.main_v65))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T14 WR (Proc.devRef .tc Cert.ReferenceIdeal.main_arg13) = StableHlo.after Cert.KernelIdeal.Gen.hostOps0_14 WK (Proc.devRef .tc Cert.KernelIdeal.main_arg13) := by
  simp only [Cert.ReferenceIdeal.RefSeg.T14, Cert.KernelIdeal.Gen.hostOps0_14]
  after_results_simp
  (try simp only [h_v52, h_v65, h_arg0, h_arg12, h_arg13]) <;> (try rfl)

/-- Stretch 14: agreement on the live buffers before it gives agreement on the live buffers after it. -/
theorem step14 (WR : Valuation Cert.ReferenceIdeal.τ Cert.ReferenceIdeal.sig (Elt F)) (WK : Valuation Cert.KernelIdeal.τ Cert.KernelIdeal.sig (Elt F)) (h : Agree13 WR WK) :
    Agree14 (StableHlo.after Cert.ReferenceIdeal.RefSeg.T14 WR) (StableHlo.after Cert.KernelIdeal.Gen.hostOps0_14 WK) := by
  obtain ⟨h_v52, h_v65, h_arg0, h_arg12, h_arg13⟩ := h
  exact ⟨step14_v52 WR WK h_v52 h_v65 h_arg0 h_arg12 h_arg13,
    step14_v66 WR WK h_v52 h_v65 h_arg0 h_arg12 h_arg13,
    step14_arg0 WR WK h_v52 h_v65 h_arg0 h_arg12 h_arg13,
    step14_arg12 WR WK h_v52 h_v65 h_arg0 h_arg12 h_arg13,
    step14_arg13 WR WK h_v52 h_v65 h_arg0 h_arg12 h_arg13⟩

set_option backward.isDefEq.respectTransparency.types false in
set_option maxHeartbeats 4000000 in
theorem step15_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v66 : WR (Proc.devRef .tc Cert.ReferenceIdeal.main_v66) = WK (Proc.devRef .tc Cert.KernelIdeal.main_v66))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T15 WR (Proc.devRef .tc Cert.ReferenceIdeal.main_v52) = StableHlo.after Cert.KernelIdeal.Gen.hostOps0_15 WK (Proc.devRef .tc Cert.KernelIdeal.main_v52) := by
  simp only [Cert.ReferenceIdeal.RefSeg.T15, Cert.KernelIdeal.Gen.hostOps0_15]
  after_results_simp
  (try simp only [h_v52, h_v66, h_arg0, h_arg12, h_arg13]) <;> (try rfl)

set_option backward.isDefEq.respectTransparency.types false in
set_option maxHeartbeats 4000000 in
theorem step15_v68 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v66 : WR (Proc.devRef .tc Cert.ReferenceIdeal.main_v66) = WK (Proc.devRef .tc Cert.KernelIdeal.main_v66))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T15 WR (Proc.devRef .tc Cert.ReferenceIdeal.main_v68) = StableHlo.after Cert.KernelIdeal.Gen.hostOps0_15 WK (Proc.devRef .tc Cert.KernelIdeal.main_v68) := by
  simp only [Cert.ReferenceIdeal.RefSeg.T15, Cert.KernelIdeal.Gen.hostOps0_15]
  after_results_simp
  (try simp only [h_v52, h_v66, h_arg0, h_arg12, h_arg13]) <;> (try rfl)

set_option backward.isDefEq.respectTransparency.types false in
set_option maxHeartbeats 4000000 in
theorem step15_arg0 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v66 : WR (Proc.devRef .tc Cert.ReferenceIdeal.main_v66) = WK (Proc.devRef .tc Cert.KernelIdeal.main_v66))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T15 WR (Proc.devRef .tc Cert.ReferenceIdeal.main_arg0) = StableHlo.after Cert.KernelIdeal.Gen.hostOps0_15 WK (Proc.devRef .tc Cert.KernelIdeal.main_arg0) := by
  simp only [Cert.ReferenceIdeal.RefSeg.T15, Cert.KernelIdeal.Gen.hostOps0_15]
  after_results_simp
  (try simp only [h_v52, h_v66, h_arg0, h_arg12, h_arg13]) <;> (try rfl)

set_option backward.isDefEq.respectTransparency.types false in
set_option maxHeartbeats 4000000 in
theorem step15_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v66 : WR (Proc.devRef .tc Cert.ReferenceIdeal.main_v66) = WK (Proc.devRef .tc Cert.KernelIdeal.main_v66))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T15 WR (Proc.devRef .tc Cert.ReferenceIdeal.main_arg12) = StableHlo.after Cert.KernelIdeal.Gen.hostOps0_15 WK (Proc.devRef .tc Cert.KernelIdeal.main_arg12) := by
  simp only [Cert.ReferenceIdeal.RefSeg.T15, Cert.KernelIdeal.Gen.hostOps0_15]
  after_results_simp
  (try simp only [h_v52, h_v66, h_arg0, h_arg12, h_arg13]) <;> (try rfl)

set_option backward.isDefEq.respectTransparency.types false in
set_option maxHeartbeats 4000000 in
theorem step15_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v66 : WR (Proc.devRef .tc Cert.ReferenceIdeal.main_v66) = WK (Proc.devRef .tc Cert.KernelIdeal.main_v66))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T15 WR (Proc.devRef .tc Cert.ReferenceIdeal.main_arg13) = StableHlo.after Cert.KernelIdeal.Gen.hostOps0_15 WK (Proc.devRef .tc Cert.KernelIdeal.main_arg13) := by
  simp only [Cert.ReferenceIdeal.RefSeg.T15, Cert.KernelIdeal.Gen.hostOps0_15]
  after_results_simp
  (try simp only [h_v52, h_v66, h_arg0, h_arg12, h_arg13]) <;> (try rfl)

/-- Stretch 15: agreement on the live buffers before it gives agreement on the live buffers after it. -/
theorem step15 (WR : Valuation Cert.ReferenceIdeal.τ Cert.ReferenceIdeal.sig (Elt F)) (WK : Valuation Cert.KernelIdeal.τ Cert.KernelIdeal.sig (Elt F)) (h : Agree14 WR WK) :
    Agree15 (StableHlo.after Cert.ReferenceIdeal.RefSeg.T15 WR) (StableHlo.after Cert.KernelIdeal.Gen.hostOps0_15 WK) := by
  obtain ⟨h_v52, h_v66, h_arg0, h_arg12, h_arg13⟩ := h
  exact ⟨step15_v52 WR WK h_v52 h_v66 h_arg0 h_arg12 h_arg13,
    step15_v68 WR WK h_v52 h_v66 h_arg0 h_arg12 h_arg13,
    step15_arg0 WR WK h_v52 h_v66 h_arg0 h_arg12 h_arg13,
    step15_arg12 WR WK h_v52 h_v66 h_arg0 h_arg12 h_arg13,
    step15_arg13 WR WK h_v52 h_v66 h_arg0 h_arg12 h_arg13⟩

set_option backward.isDefEq.respectTransparency.types false in
set_option maxHeartbeats 4000000 in
theorem step16_v52 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v68 : WR (Proc.devRef .tc Cert.ReferenceIdeal.main_v68) = WK (Proc.devRef .tc Cert.KernelIdeal.main_v68))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T16 WR (Proc.devRef .tc Cert.ReferenceIdeal.main_v52) = StableHlo.after Cert.KernelIdeal.Gen.hostOps0_16 WK (Proc.devRef .tc Cert.KernelIdeal.main_v52) := by
  simp only [Cert.ReferenceIdeal.RefSeg.T16, Cert.KernelIdeal.Gen.hostOps0_16]
  after_results_simp
  (try simp only [h_v52, h_v68, h_arg0, h_arg12, h_arg13]) <;> (try rfl)

set_option backward.isDefEq.respectTransparency.types false in
set_option maxHeartbeats 4000000 in
theorem step16_v69 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v68 : WR (Proc.devRef .tc Cert.ReferenceIdeal.main_v68) = WK (Proc.devRef .tc Cert.KernelIdeal.main_v68))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T16 WR (Proc.devRef .tc Cert.ReferenceIdeal.main_v69) = StableHlo.after Cert.KernelIdeal.Gen.hostOps0_16 WK (Proc.devRef .tc Cert.KernelIdeal.main_v69) := by
  simp only [Cert.ReferenceIdeal.RefSeg.T16, Cert.KernelIdeal.Gen.hostOps0_16]
  after_results_simp
  (try simp only [h_v52, h_v68, h_arg0, h_arg12, h_arg13]) <;> (try rfl)

set_option backward.isDefEq.respectTransparency.types false in
set_option maxHeartbeats 4000000 in
theorem step16_arg12 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v68 : WR (Proc.devRef .tc Cert.ReferenceIdeal.main_v68) = WK (Proc.devRef .tc Cert.KernelIdeal.main_v68))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T16 WR (Proc.devRef .tc Cert.ReferenceIdeal.main_arg12) = StableHlo.after Cert.KernelIdeal.Gen.hostOps0_16 WK (Proc.devRef .tc Cert.KernelIdeal.main_arg12) := by
  simp only [Cert.ReferenceIdeal.RefSeg.T16, Cert.KernelIdeal.Gen.hostOps0_16]
  after_results_simp
  (try simp only [h_v52, h_v68, h_arg0, h_arg12, h_arg13]) <;> (try rfl)

set_option backward.isDefEq.respectTransparency.types false in
set_option maxHeartbeats 4000000 in
theorem step16_arg13 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v68 : WR (Proc.devRef .tc Cert.ReferenceIdeal.main_v68) = WK (Proc.devRef .tc Cert.KernelIdeal.main_v68))
    (h_arg0 : WR (Proc.devRef .tc Cert.ReferenceIdeal.main_arg0) = WK (Proc.devRef .tc Cert.KernelIdeal.main_arg0))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T16 WR (Proc.devRef .tc Cert.ReferenceIdeal.main_arg13) = StableHlo.after Cert.KernelIdeal.Gen.hostOps0_16 WK (Proc.devRef .tc Cert.KernelIdeal.main_arg13) := by
  simp only [Cert.ReferenceIdeal.RefSeg.T16, Cert.KernelIdeal.Gen.hostOps0_16]
  after_results_simp
  (try simp only [h_v52, h_v68, h_arg0, h_arg12, h_arg13]) <;> (try rfl)

/-- Stretch 16: agreement on the live buffers before it gives agreement on the live buffers after it. -/
theorem step16 (WR : Valuation Cert.ReferenceIdeal.τ Cert.ReferenceIdeal.sig (Elt F)) (WK : Valuation Cert.KernelIdeal.τ Cert.KernelIdeal.sig (Elt F)) (h : Agree15 WR WK) :
    Agree16 (StableHlo.after Cert.ReferenceIdeal.RefSeg.T16 WR) (StableHlo.after Cert.KernelIdeal.Gen.hostOps0_16 WK) := by
  obtain ⟨h_v52, h_v68, h_arg0, h_arg12, h_arg13⟩ := h
  exact ⟨step16_v52 WR WK h_v52 h_v68 h_arg0 h_arg12 h_arg13,
    step16_v69 WR WK h_v52 h_v68 h_arg0 h_arg12 h_arg13,
    step16_arg12 WR WK h_v52 h_v68 h_arg0 h_arg12 h_arg13,
    step16_arg13 WR WK h_v52 h_v68 h_arg0 h_arg12 h_arg13⟩

set_option backward.isDefEq.respectTransparency.types false in
set_option maxHeartbeats 4000000 in
theorem step17_v84 (WR : Valuation Cert.ReferenceIdeal.τ Cert.ReferenceIdeal.sig (Elt F)) (WK : Valuation Cert.KernelIdeal.τ Cert.KernelIdeal.sig (Elt F))
    (h_v52 : WR (Proc.devRef .tc Cert.ReferenceIdeal.main_v52) = WK (Proc.devRef .tc Cert.KernelIdeal.main_v52))
    (h_v69 : WR (Proc.devRef .tc Cert.ReferenceIdeal.main_v69) = WK (Proc.devRef .tc Cert.KernelIdeal.main_v69))
    (h_arg12 : WR (Proc.devRef .tc Cert.ReferenceIdeal.main_arg12) = WK (Proc.devRef .tc Cert.KernelIdeal.main_arg12))
    (h_arg13 : WR (Proc.devRef .tc Cert.ReferenceIdeal.main_arg13) = WK (Proc.devRef .tc Cert.KernelIdeal.main_arg13)) :
    StableHlo.after Cert.ReferenceIdeal.RefSeg.T17 WR (Proc.devRef .tc Cert.ReferenceIdeal.main_v84) = StableHlo.after Cert.KernelIdeal.Gen.hostOps0_17 WK (Proc.devRef .tc Cert.KernelIdeal.main_v84) := by
  simp only [Cert.ReferenceIdeal.RefSeg.T17, Cert.KernelIdeal.Gen.hostOps0_17]
  after_results_simp
  refine concat3_congr ?_ ?_ ?_
  · dsimp only [vec3_zero, vec3_one, vec3_two]
    after_results_simp
    (try simp only [h_v52, h_v69, h_arg12, h_arg13]) <;> (try rfl)
  · dsimp only [vec3_zero, vec3_one, vec3_two]
    after_results_simp
    (try simp only [h_v52, h_v69, h_arg12, h_arg13]) <;> (try rfl)
  · dsimp only [vec3_zero, vec3_one, vec3_two]
    after_results_simp
    (try simp only [h_v52, h_v69, h_arg12, h_arg13]) <;> (try rfl)

/-- Stretch 17: agreement on the live buffers before it gives agreement on the live buffers after it. -/
theorem step17 (WR : Valuation Cert.ReferenceIdeal.τ Cert.ReferenceIdeal.sig (Elt F)) (WK : Valuation Cert.KernelIdeal.τ Cert.KernelIdeal.sig (Elt F)) (h : Agree16 WR WK) :
    Agree17 (StableHlo.after Cert.ReferenceIdeal.RefSeg.T17 WR) (StableHlo.after Cert.KernelIdeal.Gen.hostOps0_17 WK) := by
  obtain ⟨h_v52, h_v69, h_arg12, h_arg13⟩ := h
  exact step17_v84 WR WK h_v52 h_v69 h_arg12 h_arg13

end Cert.Seg

end
-- ==== Proof.PreEq.lean ====
/-
  The two host prefixes build the same feature matrix: from memories agreeing on the arguments, agreement on the live
  buffers is carried across the eighteen stretches in order, and after the last one the only live buffer is the
  concatenated feature rows.
-/
import proofs.«138913_j79413945303068_1_alg».proof.Proof.StepsA
import proofs.«138913_j79413945303068_1_alg».proof.Proof.StepsB
import Idealize.ShloMosaic.Lib.Pipeline.Frame
import Idealize.ShloMosaic.PureOps.Ideal

set_option maxRecDepth 16384

noncomputable section

namespace Cert.Bridge

open Idealize.ShloMosaic Idealize.ShloMosaic.TcCoe Idealize.SL.Sem Idealize.ShloMosaic.StableHlo

set_option backward.isDefEq.respectTransparency.types false in
set_option maxHeartbeats 4000000 in
theorem pre_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    StableHlo.after (Cert.ReferenceIdeal.RefRun.opsPre (F := Ideal)) (StableHlo.launchContents m' c) (Proc.devRef .tc Cert.ReferenceIdeal.main_v84)
      = Cert.KernelIdeal.Hand.V m c Cert.KernelIdeal.main_v84 := by
  obtain ⟨h0, h1, h2, h3, h4, h5, h6, h7, h8, h9, h10, h11, h12, h13, h14⟩ := hag
  have a : Cert.Seg.AgreeInit (F := Ideal) (StableHlo.launchContents m' c) (fun b => m (c, b)) :=
    ⟨h10, h8, h9, h1, h2, h3, h11, h0, h12, h13⟩
  have a0 := Cert.Seg.step0 _ _ a
  have a1 := Cert.Seg.step1 _ _ a0
  have a2 := Cert.Seg.step2 _ _ a1
  have a3 := Cert.Seg.step3 _ _ a2
  have a4 := Cert.Seg.step4 _ _ a3
  have a5 := Cert.Seg.step5 _ _ a4
  have a6 := Cert.Seg.step6 _ _ a5
  have a7 := Cert.Seg.step7 _ _ a6
  have a8 := Cert.Seg.step8 _ _ a7
  have a9 := Cert.Seg.step9 _ _ a8
  have a10 := Cert.Seg.step10 _ _ a9
  have a11 := Cert.Seg.step11 _ _ a10
  have a12 := Cert.Seg.step12 _ _ a11
  have a13 := Cert.Seg.step13 _ _ a12
  have a14 := Cert.Seg.step14 _ _ a13
  have a15 := Cert.Seg.step15 _ _ a14
  have a16 := Cert.Seg.step16 _ _ a15
  have a17 := Cert.Seg.step17 _ _ a16
  rw [Cert.ReferenceIdeal.RefSeg.opsPre_split]
  dsimp only [Cert.KernelIdeal.Hand.V, Cert.KernelIdeal.Hand.V0, Cert.KernelIdeal.Hand.preOps]
  simp only [List.flatten_cons, List.flatten_nil, List.append_nil, StableHlo.after_append]
  exact a17

end Cert.Bridge

end
-- ==== Proof.Bridge.lean ====
/-
  The two idealized programs end with equal results. The reference's result is the host tail of its perceptron of
  the feature matrix its host prefix builds; the kernel program's is the same host tail of the logits array its
  region leaves, which is the perceptron, row by row, of the feature array ITS host prefix builds — the same
  operations on arguments that agree. At the ideal instance the changes of float format on the way into the region
  are the identity, the matrix unit's product into a zero accumulator and the host's product are the same sum over
  the contracted axis, and both sides land on one and the same expression for an entry: no law of arithmetic on the
  extended reals is needed beyond that.
-/
import proofs.«138913_j79413945303068_1_alg».proof.Proof.KIValue
import proofs.«138913_j79413945303068_1_alg».proof.Proof.KITail
import proofs.«138913_j79413945303068_1_alg».proof.Proof.KIPre
import proofs.«138913_j79413945303068_1_alg».proof.Proof.RefRun
import proofs.«138913_j79413945303068_1_alg».proof.Proof.RefMlp
import proofs.«138913_j79413945303068_1_alg».proof.Proof.PreEq
import proofs.«138913_j79413945303068_1_alg».proof.Defs
import proofs.«138913_j79413945303068_1_alg».proof.Proof.Gen.Pre_finite_inputs

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel program's result: the host tail of the perceptron of the arrays its region finds. -/
theorem kernel_result (c : Dev Cert.KernelIdeal.nD) :
    Pipeline.afterTail₀ Cert.KernelIdeal.cfgs (Cert.KernelIdeal.Hand.dats m) 0 (Cert.KernelIdeal.Hand.V0 m) Cert.KernelIdeal.Hand.postOps c Cert.KernelIdeal.main_v98
      = Cert.KernelIdeal.HandTail.tail
          (Cert.KernelIdeal.HandValue.logits (Cert.KernelIdeal.Hand.V m c Cert.KernelIdeal.main_v85) (Cert.KernelIdeal.Hand.V m c Cert.KernelIdeal.main_v86)
            (Cert.KernelIdeal.Hand.V m c Cert.KernelIdeal.main_arg5) (Cert.KernelIdeal.Hand.V m c Cert.KernelIdeal.main_v87) (Cert.KernelIdeal.Hand.V m c Cert.KernelIdeal.main_arg7))
          (m ((c.tc : Thread Cert.KernelIdeal.nD Cert.KernelIdeal.τ).loc Cert.KernelIdeal.main_arg14)) :=
  (Cert.KernelIdeal.HandTail.result_eq m c).trans
    (congrArg (fun y => Cert.KernelIdeal.HandTail.tail y (m ((c.tc : Thread Cert.KernelIdeal.nD Cert.KernelIdeal.τ).loc Cert.KernelIdeal.main_arg14))) (Cert.KernelIdeal.HandValue.final m c))

/-- The reference's perceptron of its feature matrix is the kernel program's logits: entry by entry both are the
    perceptron of one row of one and the same feature matrix, with the same weights and biases. -/
theorem logits_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefRun.refMlp (F := Ideal)
        (StableHlo.after (Cert.ReferenceIdeal.RefRun.opsPre (F := Ideal)) (StableHlo.launchContents m' c) (Proc.devRef .tc Cert.ReferenceIdeal.main_v84))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = Cert.KernelIdeal.HandValue.logits (Cert.KernelIdeal.Hand.V m c Cert.KernelIdeal.main_v85) (Cert.KernelIdeal.Hand.V m c Cert.KernelIdeal.main_v86)
            (Cert.KernelIdeal.Hand.V m c Cert.KernelIdeal.main_arg5) (Cert.KernelIdeal.Hand.V m c Cert.KernelIdeal.main_v87) (Cert.KernelIdeal.Hand.V m c Cert.KernelIdeal.main_arg7) := by
  have hpre := Cert.Bridge.pre_eq m m' c hag
  obtain ⟨h0, h1, h2, h3, h4, h5, h6, h7, h8, h9, h10, h11, h12, h13, h14⟩ := hag
  rw [hpre, h4, h5, h6, h7]
  rw [Cert.KernelIdeal.HandPre.V_v85 m c, Cert.KernelIdeal.HandPre.V_v86 m c, Cert.KernelIdeal.HandPre.V_v87 m c,
    Cert.KernelIdeal.Hand.V_main_arg5 m c, Cert.KernelIdeal.Hand.V_main_arg7 m c]
  funext j
  obtain ⟨i, q, rfl⟩ : ∃ (i : Fin 400000) (q : Fin 4), j = ix2 i q := ⟨j 0, j 1, eq_ix2 j⟩
  refine (Cert.ReferenceIdeal.RefMlp.mlp_apply (Cert.KernelIdeal.Hand.V m c Cert.KernelIdeal.main_v84) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) i q).trans ?_
  rfl

/-- The two results are equal. -/
theorem result_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    StableHlo.after (Cert.ReferenceIdeal.RefRun.ops (F := Ideal)) (StableHlo.launchContents m' c) (Proc.devRef .tc Cert.ReferenceIdeal.main_v103)
      = Pipeline.afterTail₀ Cert.KernelIdeal.cfgs (Cert.KernelIdeal.Hand.dats m) 0 (Cert.KernelIdeal.Hand.V0 m) Cert.KernelIdeal.Hand.postOps c Cert.KernelIdeal.main_v98 := by
  refine (Cert.ReferenceIdeal.RefRun.post_eq m' c).trans (Eq.trans ?_ (kernel_result m c).symm)
  unfold Cert.ReferenceIdeal.RefRun.refPost
  exact (congrArg₂ (Cert.ReferenceIdeal.RefRun.tail (F := Ideal)) (logits_eq m m' c hag) hag.2.2.2.2.2.2.2.2.2.2.2.2.2.2).trans rfl

/-- THE ALGEBRAIC CLAIM: from memories agreeing on the arguments both idealized programs run, the arguments end
    unchanged, and the results are equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Pipeline.afterTail₀ Cert.KernelIdeal.cfgs (Cert.KernelIdeal.Hand.dats m) 0 (Cert.KernelIdeal.Hand.V0 m) Cert.KernelIdeal.Hand.postOps c Cert.KernelIdeal.main_v98,
    Cert.KernelIdeal.Hand.run_args m ρ, ?_⟩
  refine (θ_run Cert.ReferenceIdeal.defs _ _).mono (fun _ h c => ⟨(h c Cert.ReferenceIdeal.main_v103).trans (result_eq m m' c (hagree c)),
      (h c Cert.ReferenceIdeal.main_arg0).trans (Cert.ReferenceIdeal.RefRun.kept_main_arg0 m' c),
      (h c Cert.ReferenceIdeal.main_arg1).trans (Cert.ReferenceIdeal.RefRun.kept_main_arg1 m' c),
      (h c Cert.ReferenceIdeal.main_arg2).trans (Cert.ReferenceIdeal.RefRun.kept_main_arg2 m' c),
      (h c Cert.ReferenceIdeal.main_arg3).trans (Cert.ReferenceIdeal.RefRun.kept_main_arg3 m' c),
      (h c Cert.ReferenceIdeal.main_arg4).trans (Cert.ReferenceIdeal.RefRun.kept_main_arg4 m' c),
      (h c Cert.ReferenceIdeal.main_arg5).trans (Cert.ReferenceIdeal.RefRun.kept_main_arg5 m' c),
      (h c Cert.ReferenceIdeal.main_arg6).trans (Cert.ReferenceIdeal.RefRun.kept_main_arg6 m' c),
      (h c Cert.ReferenceIdeal.main_arg7).trans (Cert.ReferenceIdeal.RefRun.kept_main_arg7 m' c),
      (h c Cert.ReferenceIdeal.main_arg8).trans (Cert.ReferenceIdeal.RefRun.kept_main_arg8 m' c),
      (h c Cert.ReferenceIdeal.main_arg9).trans (Cert.ReferenceIdeal.RefRun.kept_main_arg9 m' c),
      (h c Cert.ReferenceIdeal.main_arg10).trans (Cert.ReferenceIdeal.RefRun.kept_main_arg10 m' c),
      (h c Cert.ReferenceIdeal.main_arg11).trans (Cert.ReferenceIdeal.RefRun.kept_main_arg11 m' c),
      (h c Cert.ReferenceIdeal.main_arg12).trans (Cert.ReferenceIdeal.RefRun.kept_main_arg12 m' c),
      (h c Cert.ReferenceIdeal.main_arg13).trans (Cert.ReferenceIdeal.RefRun.kept_main_arg13 m' c),
      (h c Cert.ReferenceIdeal.main_arg14).trans (Cert.ReferenceIdeal.RefRun.kept_main_arg14 m' c)⟩)
    (Cert.ReferenceIdeal.RefRun.run m' ρ')

end Cert.Bridge

end
-- ==== Proof.lean ====
/-
  The certificate of a bond-logit decoder over a molecular graph against its plain reference.

  Both programs build, by the same host operations, one feature row per directed edge: the embeddings of the two end
  atoms (type, charge, position in the atom's shape — the position from a running sum of the shapes' sizes) and the
  embedding of the edge's shape, 480 numbers in all. Both then apply a perceptron with one hidden layer of 240 units
  (a bias and the positive part after the first product, a bias after the second) to get 4 logits per edge, and both
  end by averaging each edge's logits with those of its reversed edge.

  The programs differ only in how the perceptron is computed. The reference takes the two matrix products whole. The
  kernel program first changes the features and the weights to a shorter float format, then runs a pipelined region
  over 80 grid points, each point taking 5000 rows through both products on the matrix unit and writing its 5000 × 4
  block of logits back. At the ideal instance — floats the extended reals, every operation exact, a change of format
  the identity — a row of logits is the same expression of that row of features on both sides: the sum over the 480
  features into each hidden unit, the bias, the maximum with zero, the sum over the hidden units, the bias; and the
  80 blocks tile the 400000 rows. So the results agree entry by entry, with no appeal to finiteness of the inputs.

  The three frames: the two kernel programs (at the word level and at the ideal instance, one text) by the run of
  @main around the region; the reference by the run of its straight line of host operations. The idealization rewrote
  no operation, so there is nothing to preserve.
-/
import proofs.«138913_j79413945303068_1_alg».proof.Defs
import proofs.«138913_j79413945303068_1_alg».proof.Proof.Gen.Kernel
import proofs.«138913_j79413945303068_1_alg».proof.Proof.Gen.KernelIdeal
import proofs.«138913_j79413945303068_1_alg».proof.Proof.Gen.ReferenceIdeal
import proofs.«138913_j79413945303068_1_alg».proof.Proof.Gen.Pre_finite_inputs
import proofs.«138913_j79413945303068_1_alg».proof.Proof.KFrame
import proofs.«138913_j79413945303068_1_alg».proof.Proof.KIFrame
import proofs.«138913_j79413945303068_1_alg».proof.Proof.RefRun
import proofs.«138913_j79413945303068_1_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.RefRun.frame m ρ,
  trivial,
  Cert.Bridge.algebraic⟩

end Cert.Proof

end
